-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048x9 : Shape := ⟨3, ![2048, 2048, 9]⟩
abbrev S2048x2048 : Shape := ⟨2, ![2048, 2048]⟩
abbrev S2048x2048x2 : Shape := ⟨3, ![2048, 2048, 2]⟩
abbrev S_ : Shape := ⟨0, ![]⟩

class Facts : Prop where
  bcast_S_S2048x2048x9 : S_.BroadcastsInDim S2048x2048x9 (![] : Fin 0 → Fin S2048x2048x9.rank)
  reducesTo_S2048x2048x9_S_d0_1_2 : S2048x2048x9.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2048x2 : S_.BroadcastsInDim S2048x2048x2 (![] : Fin 0 → Fin S2048x2048x2.rank)
  reducesTo_S2048x2048x2_S_d0_1_2 : S2048x2048x2.ReducesTo [0, 1, 2] S_

variable [Facts]

def fn {F : FTy → Type} [FloatOps F] (main_arg0 : FVec F S2048x2048x9 .f32) (main_arg1 : FVec F S2048x2048 .f32) (main_arg2 : FVec F S2048x2048x2 .f32) (main_arg3 : IVec S2048x2048 1) : IVec S_ 1 :=
  let main_v0 : FVec F S2048x2048x9 .f32 := Host.absf main_arg0
  let main_cst : FVec F S_ .f32 := constant S_ .f32 0x7F800000#32
  let main_v1 : FVec F S2048x2048x9 .f32 := broadcastInDim S2048x2048x9 ![] bcast_S_S2048x2048x9 main_cst
  let main_v2 : IVec S2048x2048x9 1 := cmpf .olt main_v0 main_v1
  let main_c : IVec S_ 1 := constantI S_ 1 1#1
  let main_v3 : IVec S_ 1 := (fun x v => Host.reduce IntOp.andi x v reducesTo_S2048x2048x9_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048x2 .f32 := Host.absf main_arg2
  let main_cst_2 : FVec F S_ .f32 := constant S_ .f32 0x7F800000#32
  let main_v10 : FVec F S2048x2048x2 .f32 := broadcastInDim S2048x2048x2 ![] bcast_S_S2048x2048x2 main_cst_2
  let main_v11 : IVec S2048x2048x2 1 := cmpf .olt main_v9 main_v10
  let main_c_3 : IVec S_ 1 := constantI S_ 1 1#1
  let main_v12 : IVec S_ 1 := (fun x v => Host.reduce IntOp.andi x v reducesTo_S2048x2048x2_S_d0_1_2 h_S_) main_v11 main_c_3
  let main_v13 : IVec S_ 1 := andi main_v8 main_v12
  main_v13
-- ==== Kernel.lean ====
abbrev S2048x2048x9 : Shape := ⟨3, ![2048, 2048, 9]⟩
abbrev S2048x2048 : Shape := ⟨2, ![2048, 2048]⟩
abbrev S2048x2048x2 : Shape := ⟨3, ![2048, 2048, 2]⟩
abbrev S2048x2048x1 : Shape := ⟨3, ![2048, 2048, 1]⟩
abbrev S2048x2048x12 : Shape := ⟨3, ![2048, 2048, 12]⟩
abbrev S64x2048x9 : Shape := ⟨3, ![64, 2048, 9]⟩
abbrev S64x2048 : Shape := ⟨2, ![64, 2048]⟩
abbrev S64x2048x2 : Shape := ⟨3, ![64, 2048, 2]⟩
abbrev S1x2048x9 : Shape := ⟨3, ![1, 2048, 9]⟩
abbrev S1x2048x1 : Shape := ⟨3, ![1, 2048, 1]⟩
abbrev S1x2048x2 : Shape := ⟨3, ![1, 2048, 2]⟩
abbrev S64x2048x12 : Shape := ⟨3, ![64, 2048, 12]⟩
abbrev S64x2048x1 : Shape := ⟨3, ![64, 2048, 1]⟩
abbrev S1x2048 : Shape := ⟨2, ![1, 2048]⟩
abbrev S63x2048 : Shape := ⟨2, ![63, 2048]⟩

abbrev nBuf : Space → Nat
  | .hbm => 7
  | .vmem => 22
  | .smem => 0
  | _ => 0

abbrev bufTy : (tb : Table) → Fin (tcTables nBuf tb) → BufTy
  | .hbm, ⟨0, _⟩ => ⟨S2048x2048x9, .f32⟩
  | .hbm, ⟨1, _⟩ => ⟨S2048x2048, .f32⟩
  | .hbm, ⟨2, _⟩ => ⟨S2048x2048x2, .f32⟩
  | .hbm, ⟨3, _⟩ => ⟨S2048x2048, .i1⟩
  | .hbm, ⟨4, _⟩ => ⟨S2048x2048x1, .f32⟩
  | .hbm, ⟨5, _⟩ => ⟨S2048x2048, .i32⟩
  | .hbm, ⟨6, _⟩ => ⟨S2048x2048x12, .f32⟩
  | .local _ .vmem, ⟨0, _⟩ => ⟨S64x2048x9, .f32⟩
  | .local _ .vmem, ⟨1, _⟩ => ⟨S64x2048x9, .f32⟩
  | .local _ .vmem, ⟨2, _⟩ => ⟨S64x2048, .f32⟩
  | .local _ .vmem, ⟨3, _⟩ => ⟨S64x2048, .f32⟩
  | .local _ .vmem, ⟨4, _⟩ => ⟨S64x2048x2, .f32⟩
  | .local _ .vmem, ⟨5, _⟩ => ⟨S64x2048x2, .f32⟩
  | .local _ .vmem, ⟨6, _⟩ => ⟨S64x2048, .i32⟩
  | .local _ .vmem, ⟨7, _⟩ => ⟨S64x2048, .i32⟩
  | .local _ .vmem, ⟨8, _⟩ => ⟨S1x2048x9, .f32⟩
  | .local _ .vmem, ⟨9, _⟩ => ⟨S1x2048x9, .f32⟩
  | .local _ .vmem, ⟨10, _⟩ => ⟨S1x2048x9, .f32⟩
  | .local _ .vmem, ⟨11, _⟩ => ⟨S1x2048x9, .f32⟩
  | .local _ .vmem, ⟨12, _⟩ => ⟨S1x2048x1, .f32⟩
  | .local _ .vmem, ⟨13, _⟩ => ⟨S1x2048x1, .f32⟩
  | .local _ .vmem, ⟨14, _⟩ => ⟨S1x2048x1, .f32⟩
  | .local _ .vmem, ⟨15, _⟩ => ⟨S1x2048x1, .f32⟩
  | .local _ .vmem, ⟨16, _⟩ => ⟨S1x2048x2, .f32⟩
  | .local _ .vmem, ⟨17, _⟩ => ⟨S1x2048x2, .f32⟩
  | .local _ .vmem, ⟨18, _⟩ => ⟨S1x2048x2, .f32⟩
  | .local _ .vmem, ⟨19, _⟩ => ⟨S1x2048x2, .f32⟩
  | .local _ .vmem, ⟨20, _⟩ => ⟨S64x2048x12, .f32⟩
  | .local _ .vmem, ⟨21, _⟩ => ⟨S64x2048x12, .f32⟩
  | _, _ => ⟨S2048x2048x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c2048_i32 : BitVec 32 := 2048#32
  let c0_i32 : BitVec 32 := 0#32
  let v2 : BitVec 1 := Scalar.cmpi .eq c2048_i32 c0_i32
  let c1_i32_0 : BitVec 32 := 1#32
  let v3 : BitVec 32 := Scalar.select v2 c1_i32_0 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2048_i32 : BitVec 32 := 2048#32
  let c0_i32 : BitVec 32 := 0#32
  let v2 : BitVec 1 := Scalar.cmpi .eq c2048_i32 c0_i32
  let c1_i32_0 : BitVec 32 := 1#32
  let v3 : BitVec 32 := Scalar.select v2 c1_i32_0 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_6 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c2048_i32 : BitVec 32 := 2048#32
  let c0_i32 : BitVec 32 := 0#32
  let v2 : BitVec 1 := Scalar.cmpi .eq c2048_i32 c0_i32
  let c1_i32_0 : BitVec 32 := 1#32
  let v3 : BitVec 32 := Scalar.select v2 c1_i32_0 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_7 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2048_i32 : BitVec 32 := 2048#32
  let c0_i32 : BitVec 32 := 0#32
  let v2 : BitVec 1 := Scalar.cmpi .eq c2048_i32 c0_i32
  let c1_i32_0 : BitVec 32 := 1#32
  let v3 : BitVec 32 := Scalar.select v2 c1_i32_0 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_8 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c2048_i32 : BitVec 32 := 2048#32
  let c0_i32 : BitVec 32 := 0#32
  let v2 : BitVec 1 := Scalar.cmpi .eq c2048_i32 c0_i32
  let c1_i32_0 : BitVec 32 := 1#32
  let v3 : BitVec 32 := Scalar.select v2 c1_i32_0 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_9 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2048_i32 : BitVec 32 := 2048#32
  let c0_i32 : BitVec 32 := 0#32
  let v2 : BitVec 1 := Scalar.cmpi .eq c2048_i32 c0_i32
  let c1_i32_0 : BitVec 32 := 1#32
  let v3 : BitVec 32 := Scalar.select v2 c1_i32_0 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2048x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S2048x2048_S2048x2048x1_0_1 : S2048x2048.BroadcastsInDim S2048x2048x1 (![0, 1] : Fin 2 → Fin S2048x2048x1.rank)
  natLt_1_32 : 1 < 32
  inb_S64x2048x9_S64x2048x9_0_0_0 : ∀ a, (![0, 0, 0] : Fin 3 → Nat) a + S64x2048x9.size a ≤ S64x2048x9.size a
  h_S64x2048x9 : 0 < S64x2048x9.numel
  inb_S64x2048_S64x2048_0_0 : ∀ a, (![0, 0] : Fin 2 → Nat) a + S64x2048.size a ≤ S64x2048.size a
  h_S64x2048 : 0 < S64x2048.numel
  inb_S64x2048x2_S64x2048x2_0_0_0 : ∀ a, (![0, 0, 0] : Fin 3 → Nat) a + S64x2048x2.size a ≤ S64x2048x2.size a
  h_S64x2048x2 : 0 < S64x2048x2.numel
  slices_S64x2048x2_o0_0_0_S64x2048x1 : S64x2048x2.Slices ![0, 0, 0] S64x2048x1
  shapeCasts_S64x2048x1_S64x2048 : S64x2048x1.ShapeCasts S64x2048
  slices_S64x2048x2_o0_0_1_S64x2048x1 : S64x2048x2.Slices ![0, 0, 1] S64x2048x1
  slices_S64x2048x9_o0_0_0_S64x2048x1 : S64x2048x9.Slices ![0, 0, 0] S64x2048x1
  slices_S64x2048x9_o0_0_1_S64x2048x1 : S64x2048x9.Slices ![0, 0, 1] S64x2048x1
  slices_S64x2048x9_o0_0_2_S64x2048x1 : S64x2048x9.Slices ![0, 0, 2] S64x2048x1
  slices_S64x2048x9_o0_0_3_S64x2048x1 : S64x2048x9.Slices ![0, 0, 3] S64x2048x1
  slices_S64x2048x9_o0_0_4_S64x2048x1 : S64x2048x9.Slices ![0, 0, 4] S64x2048x1
  slices_S64x2048x9_o0_0_5_S64x2048x1 : S64x2048x9.Slices ![0, 0, 5] S64x2048x1
  slices_S64x2048x9_o0_0_6_S64x2048x1 : S64x2048x9.Slices ![0, 0, 6] S64x2048x1
  slices_S64x2048x9_o0_0_7_S64x2048x1 : S64x2048x9.Slices ![0, 0, 7] S64x2048x1
  slices_S64x2048x9_o0_0_8_S64x2048x1 : S64x2048x9.Slices ![0, 0, 8] S64x2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048 : S1x2048x1.ShapeCasts S1x2048
  inb_S1x2048x9_S1x2048x9_0_0_0 : ∀ a, (![0, 0, 0] : Fin 3 → Nat) a + S1x2048x9.size a ≤ S1x2048x9.size a
  h_S1x2048x9 : 0 < S1x2048x9.numel
  inb_S1x2048x2_S1x2048x2_0_0_0 : ∀ a, (![0, 0, 0] : Fin 3 → Nat) a + S1x2048x2.size a ≤ S1x2048x2.size a
  h_S1x2048x2 : 0 < S1x2048x2.numel
  slices_S1x2048x2_o0_0_0_S1x2048x1 : S1x2048x2.Slices ![0, 0, 0] S1x2048x1
  slices_S1x2048x2_o0_0_1_S1x2048x1 : S1x2048x2.Slices ![0, 0, 1] S1x2048x1
  slices_S1x2048x9_o0_0_1_S1x2048x1 : S1x2048x9.Slices ![0, 0, 1] S1x2048x1
  slices_S1x2048x9_o0_0_5_S1x2048x1 : S1x2048x9.Slices ![0, 0, 5] S1x2048x1
  slices_S1x2048x9_o0_0_8_S1x2048x1 : S1x2048x9.Slices ![0, 0, 8] S1x2048x1
  slices_S1x2048x9_o0_0_3_S1x2048x1 : S1x2048x9.Slices ![0, 0, 3] S1x2048x1
  slices_S1x2048x9_o0_0_6_S1x2048x1 : S1x2048x9.Slices ![0, 0, 6] S1x2048x1
  slices_S1x2048x9_o0_0_7_S1x2048x1 : S1x2048x9.Slices ![0, 0, 7] S1x2048x1
  inb_S64x2048x12_S64x2048x1_0_0_0 : ∀ a, (![0, 0, 0] : Fin 3 → Nat) a + S64x2048x1.size a ≤ S64x2048x12.size a
  h_S64x2048x1 : 0 < S64x2048x1.numel
  shapeCasts_S64x2048_S64x2048x1 : S64x2048.ShapeCasts S64x2048x1
  slices_S64x2048_o0_0_S63x2048 : S64x2048.Slices ![0, 0] S63x2048
  concatenates_S1x2048_S63x2048_S64x2048_d0 : Shape.Concatenates [S1x2048, S63x2048] S64x2048 0
  inb_S64x2048x12_S64x2048x1_0_0_1 : ∀ a, (![0, 0, 1] : Fin 3 → Nat) a + S64x2048x1.size a ≤ S64x2048x12.size a
  rotates_S64x2048_d1 : S64x2048.Rotates 1 none
  inb_S64x2048x12_S64x2048x1_0_0_2 : ∀ a, (![0, 0, 2] : Fin 3 → Nat) a + S64x2048x1.size a ≤ S64x2048x12.size a
  slices_S64x2048_o1_0_S63x2048 : S64x2048.Slices ![1, 0] S63x2048
  concatenates_S63x2048_S1x2048_S64x2048_d0 : Shape.Concatenates [S63x2048, S1x2048] S64x2048 0
  inb_S64x2048x12_S64x2048x1_0_0_3 : ∀ a, (![0, 0, 3] : Fin 3 → Nat) a + S64x2048x1.size a ≤ S64x2048x12.size a
  inb_S64x2048x12_S64x2048x1_0_0_4 : ∀ a, (![0, 0, 4] : Fin 3 → Nat) a + S64x2048x1.size a ≤ S64x2048x12.size a
  inb_S64x2048x12_S64x2048x1_0_0_5 : ∀ a, (![0, 0, 5] : Fin 3 → Nat) a + S64x2048x1.size a ≤ S64x2048x12.size a
  inb_S64x2048x12_S64x2048x1_0_0_6 : ∀ a, (![0, 0, 6] : Fin 3 → Nat) a + S64x2048x1.size a ≤ S64x2048x12.size a
  inb_S64x2048x12_S64x2048x1_0_0_7 : ∀ a, (![0, 0, 7] : Fin 3 → Nat) a + S64x2048x1.size a ≤ S64x2048x12.size a
  inb_S64x2048x12_S64x2048x1_0_0_8 : ∀ a, (![0, 0, 8] : Fin 3 → Nat) a + S64x2048x1.size a ≤ S64x2048x12.size a
  inb_S64x2048x12_S64x2048x1_0_0_9 : ∀ a, (![0, 0, 9] : Fin 3 → Nat) a + S64x2048x1.size a ≤ S64x2048x12.size a
  inb_S64x2048x12_S64x2048x1_0_0_10 : ∀ a, (![0, 0, 10] : Fin 3 → Nat) a + S64x2048x1.size a ≤ S64x2048x12.size a
  inb_S64x2048x12_S64x2048x1_0_0_11 : ∀ a, (![0, 0, 11] : Fin 3 → Nat) a + S64x2048x1.size a ≤ S64x2048x12.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048x9.size a ≤ S2048x2048x9.size a
  hwx0_0 : ∀ i : grid0.Coords, EltTy.bits .f32 = 32 ∨ (Rect.block (s := S2048x2048x9) S64x2048x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S2048x2048.size a
  hwx0_1 : ∀ i : grid0.Coords, EltTy.bits .f32 = 32 ∨ (Rect.block (s := S2048x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048x2.size a ≤ S2048x2048x2.size a
  hwx0_2 : ∀ i : grid0.Coords, EltTy.bits .f32 = 32 ∨ (Rect.block (s := S2048x2048x2) S64x2048x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S2048x2048.size a
  hwx0_3 : ∀ i : grid0.Coords, EltTy.bits .i32 = 32 ∨ (Rect.block (s := S2048x2048) S64x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x9.size a ≤ S2048x2048x9.size a
  hwx0_4 : ∀ i : grid0.Coords, EltTy.bits .f32 = 32 ∨ (Rect.block (s := S2048x2048x9) S1x2048x9.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x9.size a ≤ S2048x2048x9.size a
  hwx0_5 : ∀ i : grid0.Coords, EltTy.bits .f32 = 32 ∨ (Rect.block (s := S2048x2048x9) S1x2048x9.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x1.size a ≤ S2048x2048x1.size a
  hwx0_6 : ∀ i : grid0.Coords, EltTy.bits .f32 = 32 ∨ (Rect.block (s := S2048x2048x1) S1x2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x1.size a ≤ S2048x2048x1.size a
  hwx0_7 : ∀ i : grid0.Coords, EltTy.bits .f32 = 32 ∨ (Rect.block (s := S2048x2048x1) S1x2048x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x2.size a ≤ S2048x2048x2.size a
  hwx0_8 : ∀ i : grid0.Coords, EltTy.bits .f32 = 32 ∨ (Rect.block (s := S2048x2048x2) S1x2048x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x2.size a ≤ S2048x2048x2.size a
  hwx0_9 : ∀ i : grid0.Coords, EltTy.bits .f32 = 32 ∨ (Rect.block (s := S2048x2048x2) S1x2048x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x2048x12.size a ≤ S2048x2048x12.size a
  hwx0_10 : ∀ i : grid0.Coords, EltTy.bits .f32 = 32 ∨ (Rect.block (s := S2048x2048x12) S64x2048x12.size (cc0_transform_10 i) (hinb0_10 i)).WholeWords (EltTy.packing .f32)

variable [Facts₀]

abbrev win0_0 : Pipeline.Window sig grid0 :=
  Pipeline.Window.ofSpec (Memref.whole main_arg0) S64x2048x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x2048x9.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S1x2048x9.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x2048x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x2048x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S1x2048x2.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1x2048x2.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2) S64x2048x12.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x2048x9 : Shape := ⟨3, ![2048, 2048, 9]⟩
abbrev S2048x2048 : Shape := ⟨2, ![2048, 2048]⟩
abbrev S2048x2048x2 : Shape := ⟨3, ![2048, 2048, 2]⟩
abbrev S9x2 : Shape := ⟨2, ![9, 2]⟩
abbrev S9 : Shape := ⟨1, ![9]⟩
abbrev S_ : Shape := ⟨0, ![]⟩
abbrev S2048x2048x1 : Shape := ⟨3, ![2048, 2048, 1]⟩
abbrev S1x1x9 : Shape := ⟨3, ![1, 1, 9]⟩
abbrev S0x2048 : Shape := ⟨2, ![0, 2048]⟩
abbrev S2048x0 : Shape := ⟨2, ![2048, 0]⟩
abbrev S1x2048 : Shape := ⟨2, ![1, 2048]⟩
abbrev S2047x2048 : Shape := ⟨2, ![2047, 2048]⟩
abbrev S2048x1 : Shape := ⟨2, ![2048, 1]⟩
abbrev S2048x2047 : Shape := ⟨2, ![2048, 2047]⟩
abbrev S9x1 : Shape := ⟨2, ![9, 1]⟩
abbrev S2048x2048x12 : Shape := ⟨3, ![2048, 2048, 12]⟩

abbrev nBuf : Space → Nat
  | .hbm => 142
  | .vmem => 0
  | .smem => 0
  | _ => 0

abbrev hbmTy0_0 (i : Nat) : BufTy := match i % 128 with
  | 0 => ⟨S2048x2048x9, .f32⟩
  | 1 => ⟨S2048x2048, .f32⟩
  | 2 => ⟨S2048x2048x2, .f32⟩
  | 3 => ⟨S2048x2048, .i1⟩
  | 4 => ⟨S9x2, .f32⟩
  | 5 => ⟨S9, .f32⟩
  | 6 => ⟨S9, .i32⟩
  | 7 => ⟨S9x2, .f32⟩
  | 8 => ⟨S2048x2048x9, .f32⟩
  | 9 => ⟨S2048x2048x2, .f32⟩
  | 10 => ⟨S_, .f32⟩
  | 11 => ⟨S2048x2048, .f32⟩
  | 12 => ⟨S2048x2048x1, .f32⟩
  | 13 => ⟨S2048x2048x1, .f32⟩
  | 14 => ⟨S1x1x9, .f32⟩
  | 15 => ⟨S2048x2048x9, .f32⟩
  | 16 => ⟨S2048x2048x9, .f32⟩
  | 17 => ⟨S2048x2048x9, .f32⟩
  | 18 => ⟨S_, .f32⟩
  | 19 => ⟨S2048x2048x9, .f32⟩
  | 20 => ⟨S2048x2048x9, .f32⟩
  | 21 => ⟨S_, .f32⟩
  | 22 => ⟨S2048x2048x9, .f32⟩
  | 23 => ⟨S2048x2048x9, .f32⟩
  | 24 => ⟨S_, .f32⟩
  | 25 => ⟨S2048x2048x9, .f32⟩
  | 26 => ⟨S2048x2048x9, .f32⟩
  | 27 => ⟨S2048x2048x9, .f32⟩
  | 28 => ⟨S2048x2048x9, .f32⟩
  | 29 => ⟨S_, .f32⟩
  | 30 => ⟨S2048x2048x1, .f32⟩
  | 31 => ⟨S2048x2048x1, .f32⟩
  | 32 => ⟨S2048x2048x9, .f32⟩
  | 33 => ⟨S2048x2048x9, .f32⟩
  | 34 => ⟨S2048x2048x9, .f32⟩
  | 35 => ⟨S2048x2048x9, .f32⟩
  | 36 => ⟨S_, .f32⟩
  | 37 => ⟨S2048x2048x9, .f32⟩
  | 38 => ⟨S2048x2048x9, .f32⟩
  | 39 => ⟨S2048x2048x9, .f32⟩
  | 40 => ⟨S2048x2048x1, .f32⟩
  | 41 => ⟨S2048x2048, .f32⟩
  | 42 => ⟨S2048x2048, .f32⟩
  | 43 => ⟨S0x2048, .f32⟩
  | 44 => ⟨S2048x2048, .f32⟩
  | 45 => ⟨S2048x2048, .f32⟩
  | 46 => ⟨S2048x0, .f32⟩
  | 47 => ⟨S2048x2048, .f32⟩
  | 48 => ⟨S2048x2048x1, .f32⟩
  | 49 => ⟨S2048x2048, .f32⟩
  | 50 => ⟨S1x2048, .f32⟩
  | 51 => ⟨S2047x2048, .f32⟩
  | 52 => ⟨S2048x2048, .f32⟩
  | 53 => ⟨S2048x2048, .f32⟩
  | 54 => ⟨S2048x0, .f32⟩
  | 55 => ⟨S2048x2048, .f32⟩
  | 56 => ⟨S2048x2048x1, .f32⟩
  | 57 => ⟨S2048x2048, .f32⟩
  | 58 => ⟨S2048x2048, .f32⟩
  | 59 => ⟨S0x2048, .f32⟩
  | 60 => ⟨S2048x2048, .f32⟩
  | 61 => ⟨S2048x1, .f32⟩
  | 62 => ⟨S2048x2047, .f32⟩
  | 63 => ⟨S2048x2048, .f32⟩
  | 64 => ⟨S2048x2048x1, .f32⟩
  | 65 => ⟨S2048x2048, .f32⟩
  | 66 => ⟨S2047x2048, .f32⟩
  | 67 => ⟨S1x2048, .f32⟩
  | 68 => ⟨S2048x2048, .f32⟩
  | 69 => ⟨S2048x2048, .f32⟩
  | 70 => ⟨S2048x0, .f32⟩
  | 71 => ⟨S2048x2048, .f32⟩
  | 72 => ⟨S2048x2048x1, .f32⟩
  | 73 => ⟨S2048x2048, .f32⟩
  | 74 => ⟨S2048x2048, .f32⟩
  | 75 => ⟨S0x2048, .f32⟩
  | 76 => ⟨S2048x2048, .f32⟩
  | 77 => ⟨S2048x2047, .f32⟩
  | 78 => ⟨S2048x1, .f32⟩
  | 79 => ⟨S2048x2048, .f32⟩
  | 80 => ⟨S2048x2048x1, .f32⟩
  | 81 => ⟨S2048x2048, .f32⟩
  | 82 => ⟨S1x2048, .f32⟩
  | 83 => ⟨S2047x2048, .f32⟩
  | 84 => ⟨S2048x2048, .f32⟩
  | 85 => ⟨S2048x1, .f32⟩
  | 86 => ⟨S2048x2047, .f32⟩
  | 87 => ⟨S2048x2048, .f32⟩
  | 88 => ⟨S2048x2048x1, .f32⟩
  | 89 => ⟨S2048x2048, .f32⟩
  | 90 => ⟨S2047x2048, .f32⟩
  | 91 => ⟨S1x2048, .f32⟩
  | 92 => ⟨S2048x2048, .f32⟩
  | 93 => ⟨S2048x1, .f32⟩
  | 94 => ⟨S2048x2047, .f32⟩
  | 95 => ⟨S2048x2048, .f32⟩
  | 96 => ⟨S2048x2048x1, .f32⟩
  | 97 => ⟨S2048x2048, .f32⟩
  | 98 => ⟨S2047x2048, .f32⟩
  | 99 => ⟨S1x2048, .f32⟩
  | 100 => ⟨S2048x2048, .f32⟩
  | 101 => ⟨S2048x2047, .f32⟩
  | 102 => ⟨S2048x1, .f32⟩
  | 103 => ⟨S2048x2048, .f32⟩
  | 104 => ⟨S2048x2048x1, .f32⟩
  | 105 => ⟨S2048x2048, .f32⟩
  | 106 => ⟨S1x2048, .f32⟩
  | 107 => ⟨S2047x2048, .f32⟩
  | 108 => ⟨S2048x2048, .f32⟩
  | 109 => ⟨S2048x2047, .f32⟩
  | 110 => ⟨S2048x1, .f32⟩
  | 111 => ⟨S2048x2048, .f32⟩
  | 112 => ⟨S2048x2048x1, .f32⟩
  | 113 => ⟨S2048x2048x1, .f32⟩
  | 114 => ⟨S2048x2048x1, .f32⟩
  | 115 => ⟨S2048x2048x1, .f32⟩
  | 116 => ⟨S2048x2048x1, .f32⟩
  | 117 => ⟨S2048x2048x1, .f32⟩
  | 118 => ⟨S2048x2048x1, .f32⟩
  | 119 => ⟨S2048x2048x1, .f32⟩
  | 120 => ⟨S2048x2048x1, .f32⟩
  | 121 => ⟨S2048x2048x9, .f32⟩
  | 122 => ⟨S_, .i32⟩
  | 123 => ⟨S9, .i32⟩
  | 124 => ⟨S9, .i1⟩
  | 125 => ⟨S_, .i32⟩
  | 126 => ⟨S9, .i32⟩
  | 127 => ⟨S9, .i32⟩
  | _ => ⟨S2048x2048x9, .f32⟩

abbrev hbmTy0_1 (i : Nat) : BufTy := match i % 128 with
  | 0 => ⟨S9, .i32⟩
  | 1 => ⟨S9x1, .i32⟩
  | 2 => ⟨S2048x2048x9, .f32⟩
  | 3 => ⟨S2048x2048x1, .i1⟩
  | 4 => ⟨S2048x2048x9, .i1⟩
  | 5 => ⟨S2048x2048x9, .f32⟩
  | 6 => ⟨S_, .f32⟩
  | 7 => ⟨S2048x2048, .f32⟩
  | 8 => ⟨S2048x2048x2, .f32⟩
  | 9 => ⟨S2048x2048x1, .f32⟩
  | 10 => ⟨S2048x2048x2, .f32⟩
  | 11 => ⟨S2048x2048x2, .f32⟩
  | 12 => ⟨S2048x2048x1, .f32⟩
  | 13 => ⟨S2048x2048x12, .f32⟩
  | _ => ⟨S2048x2048x9, .f32⟩

abbrev hbmTy (i : Nat) : BufTy := match i / 128 with
  | 0 => hbmTy0_0 i
  | 1 => hbmTy0_1 i
  | _ => ⟨S2048x2048x9, .f32⟩

abbrev bufTy : (tb : Table) → Fin (tcTables nBuf tb) → BufTy
  | .hbm, ⟨i, _⟩ => hbmTy i
  | _, _ => ⟨S2048x2048x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_cst_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_call7_v0 : Ref sig .tc := ⟨.hbm, 98, rfl⟩
abbrev main_call7_v1 : Ref sig .tc := ⟨.hbm, 99, rfl⟩
abbrev main_call7_v2 : Ref sig .tc := ⟨.hbm, 100, rfl⟩
abbrev main_call7_v3 : Ref sig .tc := ⟨.hbm, 101, rfl⟩
abbrev main_call7_v4 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_c_8 : Ref sig .tc := ⟨.hbm, 122, rfl⟩
abbrev main_v63 : Ref sig .tc := ⟨.hbm, 123, rfl⟩
abbrev main_v64 : Ref sig .tc := ⟨.hbm, 124, rfl⟩
abbrev main_c_9 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call9_v0 : Ref sig .tc := ⟨.hbm, 132, rfl⟩
abbrev main_v71 : Ref sig .tc := ⟨.hbm, 133, rfl⟩
abbrev main_cst_10 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩

abbrev nD : Nat := 1
abbrev τ : Topo := Topo.v7x

variable {F : FTy → Type} [FloatOps F]

class Facts₀ : Prop where
  reducesTo_S2048x2048x2_S2048x2048_d2 : S2048x2048x2.ReducesTo [2] S2048x2048
  h_S_ : 0 < S_.numel
  bcast_S2048x2048_S2048x2048x1_0_1 : S2048x2048.BroadcastsInDim S2048x2048x1 (![0, 1] : Fin 2 → Fin S2048x2048x1.rank)
  bcast_S9_S1x1x9_2 : S9.BroadcastsInDim S1x1x9 (![2] : Fin 1 → Fin S1x1x9.rank)
  bcast_S1x1x9_S2048x2048x9_0_1_2 : S1x1x9.BroadcastsInDim S2048x2048x9 (![0, 1, 2] : Fin 3 → Fin S2048x2048x9.rank)
  bcast_S2048x2048x1_S2048x2048x9_0_1_2 : S2048x2048x1.BroadcastsInDim S2048x2048x9 (![0, 1, 2] : Fin 3 → Fin S2048x2048x9.rank)
  bcast_S_S2048x2048x9 : S_.BroadcastsInDim S2048x2048x9 (![] : Fin 0 → Fin S2048x2048x9.rank)
  bcast_S_S2048x2048x1 : S_.BroadcastsInDim S2048x2048x1 (![] : Fin 0 → Fin S2048x2048x1.rank)
  slices_S2048x2048x9_S2048x2048x1_0_0_0 : S2048x2048x9.Slices ![0, 0, 0] S2048x2048x1
  shapeCasts_S2048x2048x1_S2048x2048 : S2048x2048x1.ShapeCasts S2048x2048
  slices_S2048x2048_S2048x2048_0_0 : S2048x2048.Slices ![0, 0] S2048x2048
  slices_S2048x2048_S0x2048_0_0 : S2048x2048.Slices ![0, 0] S0x2048
  concatenates_S2048x2048_S0x2048_S2048x2048_d0 : Shape.Concatenates [S2048x2048, S0x2048] S2048x2048 0
  slices_S2048x2048_S2048x0_0_0 : S2048x2048.Slices ![0, 0] S2048x0
  concatenates_S2048x2048_S2048x0_S2048x2048_d1 : Shape.Concatenates [S2048x2048, S2048x0] S2048x2048 1
  slices_S2048x2048x9_S2048x2048x1_0_0_1 : S2048x2048x9.Slices ![0, 0, 1] S2048x2048x1
  slices_S2048x2048_S1x2048_2047_0 : S2048x2048.Slices ![2047, 0] S1x2048
  slices_S2048x2048_S2047x2048_0_0 : S2048x2048.Slices ![0, 0] S2047x2048
  concatenates_S1x2048_S2047x2048_S2048x2048_d0 : Shape.Concatenates [S1x2048, S2047x2048] S2048x2048 0
  slices_S2048x2048x9_S2048x2048x1_0_0_2 : S2048x2048x9.Slices ![0, 0, 2] S2048x2048x1
  slices_S2048x2048_S2048x1_0_2047 : S2048x2048.Slices ![0, 2047] S2048x1
  slices_S2048x2048_S2048x2047_0_0 : S2048x2048.Slices ![0, 0] S2048x2047
  concatenates_S2048x1_S2048x2047_S2048x2048_d1 : Shape.Concatenates [S2048x1, S2048x2047] S2048x2048 1
  slices_S2048x2048x9_S2048x2048x1_0_0_3 : S2048x2048x9.Slices ![0, 0, 3] S2048x2048x1
  slices_S2048x2048_S2047x2048_1_0 : S2048x2048.Slices ![1, 0] S2047x2048
  slices_S2048x2048_S1x2048_0_0 : S2048x2048.Slices ![0, 0] S1x2048
  concatenates_S2047x2048_S1x2048_S2048x2048_d0 : Shape.Concatenates [S2047x2048, S1x2048] S2048x2048 0
  slices_S2048x2048x9_S2048x2048x1_0_0_4 : S2048x2048x9.Slices ![0, 0, 4] S2048x2048x1
  slices_S2048x2048_S2048x2047_0_1 : S2048x2048.Slices ![0, 1] S2048x2047
  slices_S2048x2048_S2048x1_0_0 : S2048x2048.Slices ![0, 0] S2048x1
  concatenates_S2048x2047_S2048x1_S2048x2048_d1 : Shape.Concatenates [S2048x2047, S2048x1] S2048x2048 1
  slices_S2048x2048x9_S2048x2048x1_0_0_5 : S2048x2048x9.Slices ![0, 0, 5] S2048x2048x1
  slices_S2048x2048x9_S2048x2048x1_0_0_6 : S2048x2048x9.Slices ![0, 0, 6] S2048x2048x1
  slices_S2048x2048x9_S2048x2048x1_0_0_7 : S2048x2048x9.Slices ![0, 0, 7] S2048x2048x1
  slices_S2048x2048x9_S2048x2048x1_0_0_8 : S2048x2048x9.Slices ![0, 0, 8] S2048x2048x1
  concatenates_S2048x2048x1_S2048x2048x1_S2048x2048x1_S2048x2048x1_S2048x2048x1_S2048x2048x1_S2048x2048x1_S2048x2048x1_S2048x2048x1_S2048x2048x9_d2 : Shape.Concatenates [S2048x2048x1, S2048x2048x1, S2048x2048x1, S2048x2048x1, S2048x2048x1, S2048x2048x1, S2048x2048x1, S2048x2048x1, S2048x2048x1] S2048x2048x9 2
  bcast_S_S9 : S_.BroadcastsInDim S9 (![] : Fin 0 → Fin S9.rank)
  bcast_S9_S9x1_0 : S9.BroadcastsInDim S9x1 (![0] : Fin 1 → Fin S9x1.rank)
  reducesTo_S2048x2048x9_S2048x2048_d2 : S2048x2048x9.ReducesTo [2] S2048x2048
  bcast_S2048x2048x1_S2048x2048x2_0_1_2 : S2048x2048x1.BroadcastsInDim S2048x2048x2 (![0, 1, 2] : Fin 3 → Fin S2048x2048x2.rank)
  concatenates_S2048x2048x9_S2048x2048x1_S2048x2048x2_S2048x2048x12_d2 : Shape.Concatenates [S2048x2048x9, S2048x2048x1, S2048x2048x2] S2048x2048x12 2
  dot_S2048x2048x2_S9x2_S2048x2048x9_2_1_01_0_n_n_wf : DotDims.WF S2048x2048x2 S9x2 S2048x2048x9 [2] [1] [0, 1] [0] [] []
  gather_S2048x2048x9_S9x1_S2048x2048x9_01_2_n_n_2_1_204820481_wf : GatherDims.WF S2048x2048x9 S9x1 S2048x2048x9 [0, 1] [2] [] [2] [] 1 ![2048, 2048, 1]
  dot_S2048x2048x9_S9x2_S2048x2048x2_2_0_01_1_n_n_wf : DotDims.WF S2048x2048x9 S9x2 S2048x2048x2 [2] [0] [0, 1] [1] [] []

variable [Facts₀]

def dot_S2048x2048x2_S9x2_S2048x2048x9_2_1_01_0_n_n : DotDims S2048x2048x2 S9x2 S2048x2048x9 where
  lhsContracting := [2]
  rhsContracting := [1]
  lhsNonContracting := [0, 1]
  rhsNonContracting := [0]
  lhsBatch := []
  rhsBatch := []
  wf := dot_S2048x2048x2_S9x2_S2048x2048x9_2_1_01_0_n_n_wf
def gather_S2048x2048x9_S9x1_S2048x2048x9_01_2_n_n_2_1_204820481 : GatherDims S2048x2048x9 S9x1 S2048x2048x9 where
  offsetDims := [0, 1]
  collapsedSliceDims := [2]
  operandBatchingDims := []
  startIndicesBatchingDims := []
  startIndexMap := [2]
  indexVectorDim := 1
  sliceSizes := ![2048, 2048, 1]
  wf := gather_S2048x2048x9_S9x1_S2048x2048x9_01_2_n_n_2_1_204820481_wf
def dot_S2048x2048x9_S9x2_S2048x2048x2_2_0_01_1_n_n : DotDims S2048x2048x9 S9x2 S2048x2048x2 where
  lhsContracting := [2]
  rhsContracting := [0]
  lhsNonContracting := [0, 1]
  rhsNonContracting := [1]
  lhsBatch := []
  rhsBatch := []
  wf := dot_S2048x2048x9_S9x2_S2048x2048x2_2_0_01_1_n_n_wf

class Facts : Prop extends Facts₀ where

variable [Facts]
-- ==== Proof.Ledger.lean ====
/-
  The idealization's ledger: the kernel body spells the relaxation factor fifteen times as the f32 word
  0x3FD55555, and each occurrence is read at the ideal instance as the exact rational 8388608/5033165 — the
  reciprocal of the value of the word 0x3F19999A that the reference divides by. Each ledger entry asks that the
  certificate's table of named constants gives the name that value; the table does, by definition.
-/
import proofs.«140047_j18760417149386_2_alg».proof.Defs

noncomputable section

namespace Cert.Proof.Ledger

open Idealize.ShloMosaic

/-- One ledger entry: the name "inv_tau" denotes 8388608/5033165. -/
theorem entry : IdealRules.named_const.Statement Cert.KernelIdeal.κ "inv_tau" .f32 0x3FD55555#32 ((8388608 / 5033165 : ℝ) : EReal) :=
  IdealRules.named_const.statement Cert.KernelIdeal.κ "inv_tau" .f32 0x3FD55555#32 ((8388608 / 5033165 : ℝ) : EReal) rfl

/-- All fifteen entries. -/
theorem preserves : Cert.preserves_Kernel_KernelIdeal :=
  ⟨entry, entry, entry, entry, entry, entry, entry, entry, entry, entry, entry, entry, entry, entry, entry⟩

end Cert.Proof.Ledger

end
-- ==== Proof.Pieces.lean ====
/-
  The kernel body's data flow, named once.

  At a grid point the body is handed ten input blocks — 64 lattice rows of the populations, the density, the
  velocity and the obstacle mask, and for each of populations, density and velocity the single lattice row just
  above and the single row just below those 64 rows (the periodic neighbours the streaming step reads) — and writes one
  output block of twelve channels per cell: nine streamed populations, the new density, the two new velocity
  components. Each channel is stored once, through the rectangle that selects that channel of the whole block, so
  the output block is the canon of twelve pieces. The values the stores take are compositions of the body's pure
  steps over the loaded blocks; this file names every intermediate value in the order the body computes it.
-/
import proofs.«140047_j18760417149386_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F] [Named F]

/-- The ten input blocks of one grid point, in the order of the kernel's windows 0 … 9. -/
structure Blocks (F : FTy → Type) [FloatOps F] where
  f : Vec F S64x2048x9 .f32
  rho : Vec F S64x2048 .f32
  u : Vec F S64x2048x2 .f32
  obs : Vec F S64x2048 .i32
  fUp : Vec F S1x2048x9 .f32
  fDn : Vec F S1x2048x9 .f32
  rhoUp : Vec F S1x2048x1 .f32
  rhoDn : Vec F S1x2048x1 .f32
  uUp : Vec F S1x2048x2 .f32
  uDn : Vec F S1x2048x2 .f32

/-! ## The rectangles the body loads and stores through -/

abbrev rF : Rect S64x2048x9 := Rect.unit (s := S64x2048x9) ![0, 0, 0] S64x2048x9.size inb_S64x2048x9_S64x2048x9_0_0_0
abbrev rR : Rect S64x2048 := Rect.unit (s := S64x2048) ![0, 0] S64x2048.size inb_S64x2048_S64x2048_0_0
abbrev rU : Rect S64x2048x2 := Rect.unit (s := S64x2048x2) ![0, 0, 0] S64x2048x2.size inb_S64x2048x2_S64x2048x2_0_0_0
abbrev rF1 : Rect S1x2048x9 := Rect.unit (s := S1x2048x9) ![0, 0, 0] S1x2048x9.size inb_S1x2048x9_S1x2048x9_0_0_0
abbrev rR1 : Rect S1x2048x1 := Rect.unit (s := S1x2048x1) ![0, 0, 0] S1x2048x1.size inb_S1x2048x1_S1x2048x1_0_0_0
abbrev rU1 : Rect S1x2048x2 := Rect.unit (s := S1x2048x2) ![0, 0, 0] S1x2048x2.size inb_S1x2048x2_S1x2048x2_0_0_0
abbrev rO0 : Rect S64x2048x12 := Rect.unit (s := S64x2048x12) ![0, 0, 0] S64x2048x1.size inb_S64x2048x12_S64x2048x1_0_0_0
abbrev rO1 : Rect S64x2048x12 := Rect.unit (s := S64x2048x12) ![0, 0, 1] S64x2048x1.size inb_S64x2048x12_S64x2048x1_0_0_1
abbrev rO2 : Rect S64x2048x12 := Rect.unit (s := S64x2048x12) ![0, 0, 2] S64x2048x1.size inb_S64x2048x12_S64x2048x1_0_0_2
abbrev rO3 : Rect S64x2048x12 := Rect.unit (s := S64x2048x12) ![0, 0, 3] S64x2048x1.size inb_S64x2048x12_S64x2048x1_0_0_3
abbrev rO4 : Rect S64x2048x12 := Rect.unit (s := S64x2048x12) ![0, 0, 4] S64x2048x1.size inb_S64x2048x12_S64x2048x1_0_0_4
abbrev rO5 : Rect S64x2048x12 := Rect.unit (s := S64x2048x12) ![0, 0, 5] S64x2048x1.size inb_S64x2048x12_S64x2048x1_0_0_5
abbrev rO6 : Rect S64x2048x12 := Rect.unit (s := S64x2048x12) ![0, 0, 6] S64x2048x1.size inb_S64x2048x12_S64x2048x1_0_0_6
abbrev rO7 : Rect S64x2048x12 := Rect.unit (s := S64x2048x12) ![0, 0, 7] S64x2048x1.size inb_S64x2048x12_S64x2048x1_0_0_7
abbrev rO8 : Rect S64x2048x12 := Rect.unit (s := S64x2048x12) ![0, 0, 8] S64x2048x1.size inb_S64x2048x12_S64x2048x1_0_0_8
abbrev rO9 : Rect S64x2048x12 := Rect.unit (s := S64x2048x12) ![0, 0, 9] S64x2048x1.size inb_S64x2048x12_S64x2048x1_0_0_9
abbrev rO10 : Rect S64x2048x12 := Rect.unit (s := S64x2048x12) ![0, 0, 10] S64x2048x1.size inb_S64x2048x12_S64x2048x1_0_0_10
abbrev rO11 : Rect S64x2048x12 := Rect.unit (s := S64x2048x12) ![0, 0, 11] S64x2048x1.size inb_S64x2048x12_S64x2048x1_0_0_11

/-! ## The loaded blocks -/

variable (B : Blocks F)

def v0 := View.ld B.f rF
def v1 := View.ld B.rho rR
def v2 := View.ld B.u rU
def v407 := View.ld B.obs rR
def v239 := View.ld B.fUp rF1
def v323 := View.ld B.fDn rF1
def v235 := View.ld B.rhoUp rR1
def v237 := View.ld B.rhoDn rR1
def v240 := View.ld B.uUp rU1
def v324 := View.ld B.uDn rU1

/-! ## The 64 rows themselves: velocity components, their squares, and the nine collided populations -/

def cst16 : F .f32 := Scalar.ofBits .f32 0x3DE38E39#32
def cst75 : F .f32 := Scalar.ofBits .f32 0x40900000#32

def v4 := k0_pay4 (v2 B)
def v6 := k0_pay5 (v2 B)
def v9 := k0_pay6 (v2 B)
def v34 := k0_pay7 (v0 B) (v1 B) (v2 B)
def v39 := k0_pay8 (v2 B)
def v59 := k0_pay9 (v0 B) (v1 B) (v9 B) (v39 B) (cst16 (F := F))
def v84 := k0_pay10 (v0 B) (v1 B) (v4 B) (v6 B) (v9 B)
def v85 : FVec F S64x2048 .f32 := k0_pay11 (F := F)
def v109 := k0_pay12 (v0 B) (v1 B) (v4 B) (v6 B) (v9 B) (v85 (F := F))
def v130 := k0_pay13 (v0 B)
def v131 := k0_pay14 (v0 B) (v1 B) (v4 B) (v6 B) (v9 B)
def v134 := k0_pay15 (v130 B) (v131 B)
def v159 := k0_pay16 (v0 B) (v1 B) (v4 B) (v6 B) (v9 B)
def v166 := k0_pay17 (v1 B)
def v174 := k0_pay18 (v4 B) (v6 B)
def v175 : FVec F S64x2048 .f32 := k0_pay19 (F := F)
def v184 := k0_pay20 (v0 B) (v9 B) (v166 B) (v174 B) (v175 (F := F))
def v209 := k0_pay21 (v0 B) (v1 B) (v4 B) (v6 B) (v9 B)
def v214 := k0_pay22 (v4 B) (v6 B)
def v216 := k0_pay23 (v1 B)
def v220 := k0_pay24 (v4 B) (v6 B)
def v234 := k0_pay25 (v0 B) (v9 B) (v214 B) (v216 B) (v220 B) (cst75 (F := F))

/-! ## The row above -/

def v236 := k0_pay26 (v235 B)
def v238 := k0_pay27 (v237 B)
def v242 := k0_pay28 (v240 B)
def v244 := k0_pay29 (v240 B)
def v247 := k0_pay30 (v240 B)
def v252 := k0_pay31 (v240 B)
def v254 := k0_pay32 (v235 B)
def v258 := k0_pay33 (v240 B)
def v260 := k0_pay34 (v240 B)
def v272 := k0_pay35 (v239 B) (v247 B) (v252 B) (v254 B) (v258 B) (v260 B)
def v297 := k0_pay36 (v236 B) (v239 B) (v242 B) (v244 B) (v247 B)
def v302 := k0_pay37 (v242 B) (v244 B)
def v304 := k0_pay38 (v236 B)
def v306 := k0_pay39 (v242 B) (v244 B)
def v322 := k0_pay40 (v239 B) (v247 B) (v302 B) (v304 B) (v306 B)

/-! ## The row below -/

def v326 := k0_pay41 (v324 B)
def v328 := k0_pay42 (v324 B)
def v331 := k0_pay43 (v324 B)
def v338 := k0_pay44 (v238 B)
def v349 := k0_pay45 (v324 B)
def v356 := k0_pay46 (v323 B) (v338 B) (v349 B)
def v381 := k0_pay47 (v238 B) (v323 B) (v326 B) (v328 B) (v331 B)
def v386 := k0_pay48 (v326 B) (v328 B)
def v388 := k0_pay49 (v238 B)
def v392 := k0_pay50 (v326 B) (v328 B)
def v394 := k0_pay51 (v326 B) (v328 B)
def v406 := k0_pay52 (v323 B) (v331 B) (v386 B) (v388 B) (v392 B) (v394 B)

/-! ## Streaming, bounce-back and the running sums -/

def v408 := k0_pay53 (F := F) (v407 B)
def v411 : FVec F S64x2048 .f32 := k0_pay54 (F := F)
def v426 := k0_pay59 (v59 B) (v109 B) (v272 B) (v407 B)
def v428 := k0_pay60 (v84 B) (v134 B) (v407 B)
def v432 := k0_pay62 (v34 B) (v59 B) (v84 B) (v109 B) (v134 B) (v272 B) (v407 B)
def v462 := k0_pay69 (v59 B) (v84 B) (v109 B) (v134 B) (v159 B) (v209 B) (v297 B) (v356 B) (v408 B) (v432 B)
def v465 := k0_pay70 (v59 B) (v109 B) (v159 B) (v209 B) (v297 B) (v356 B) (v408 B) (v426 B)
def v468 := k0_pay71 (v84 B) (v134 B) (v159 B) (v209 B) (v297 B) (v408 B) (v411 (F := F)) (v428 B)
def v472 := k0_pay72 (v184 B) (v234 B) (v381 B) (v408 B)
def v504 := k0_pay78 (v159 B) (v184 B) (v209 B) (v234 B) (v322 B) (v406 B) (v408 B) (v462 B) (v472 B)
def v507 := k0_pay79 (v159 B) (v184 B) (v209 B) (v234 B) (v322 B) (v406 B) (v408 B) (v465 B) (v472 B)
def v510 := k0_pay80 (v159 B) (v184 B) (v209 B) (v234 B) (v322 B) (v406 B) (v408 B) (v468 B) (v472 B)

/-! ## The twelve stored channels, each a 64 × 2048 × 1 slab -/

def ch0 := k0_pay56 (v34 B) (v407 B)
def ch1 := k0_pay58 (v59 B) (v109 B) (v272 B) (v407 B)
def ch2 := k0_pay61 (v84 B) (v134 B) (v407 B)
def ch3 := k0_pay64 (v59 B) (v109 B) (v356 B) (v408 B)
def ch4 := k0_pay66 (v84 B) (v134 B) (v408 B)
def ch5 := k0_pay68 (v159 B) (v209 B) (v297 B) (v408 B)
def ch6 := k0_pay73 (v472 B)
def ch7 := k0_pay75 (v159 B) (v209 B) (v406 B) (v408 B)
def ch8 := k0_pay77 (v184 B) (v234 B) (v322 B) (v408 B)
def ch9 := k0_pay1 (v504 B)
def ch10 := k0_pay2 (v504 B) (v507 B)
def ch11 := k0_pay3 (v504 B) (v510 B)

/-- The output block after the body: the canon of the twelve channel stores, last store first. -/
def out10 : Vec F S64x2048x12 .f32 :=
  View.canon [⟨rO11, ch11 B⟩, ⟨rO10, ch10 B⟩, ⟨rO9, ch9 B⟩, ⟨rO8, ch8 B⟩, ⟨rO7, ch7 B⟩, ⟨rO6, ch6 B⟩,
    ⟨rO5, ch5 B⟩, ⟨rO4, ch4 B⟩, ⟨rO3, ch3 B⟩, ⟨rO2, ch2 B⟩, ⟨rO1, ch1 B⟩, ⟨rO0, ch0 B⟩]

end Cert.KernelIdeal.Hand

end
-- ==== Proof.BodySpec.lean ====
/-
  The statement of the kernel body's triple, named.

  Run on eleven whole staging memrefs — the ten inputs holding the blocks `B`, the output holding anything — the
  body terminates without a fault, leaves the ten inputs as they were and the output at `out10 B`, the canon of its
  twelve channel stores over values computed from the loaded blocks.
-/
import proofs.«140047_j18760417149386_2_alg».proof.Proof.Pieces
import proofs.«140047_j18760417149386_2_alg».proof.Proof.Gen.KernelIdeal.Launch
import proofs.«140047_j18760417149386_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The body's triple, for every core, mask, grid coordinate, choice of whole staging memrefs, blocks and
    continuation. -/
def SoundKernel (F : FTy → Type) [FloatOps F] [Named F] : Prop :=
  ∀ (c : Dev nD) (E : Set ℕ) (i : grid0.Coords) (arg1 : Memref sig .tc .vmem S64x2048x9 .f32) (harg1 : arg1.IsWhole) (arg2 : Memref sig .tc .vmem S64x2048 .f32) (harg2 : arg2.IsWhole) (arg3 : Memref sig .tc .vmem S64x2048x2 .f32) (harg3 : arg3.IsWhole) (arg4 : Memref sig .tc .vmem S64x2048 .i32) (harg4 : arg4.IsWhole) (arg5 : Memref sig .tc .vmem S1x2048x9 .f32) (harg5 : arg5.IsWhole) (arg6 : Memref sig .tc .vmem S1x2048x9 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x2 .f32) (harg9 : arg9.IsWhole) (arg10 : Memref sig .tc .vmem S1x2048x2 .f32) (harg10 : arg10.IsWhole) (arg11 : Memref sig .tc .vmem S64x2048x12 .f32) (harg11 : arg11.IsWhole)
    (B : Blocks F) (K : PUnit → sProp (MT nD τ sig Unit (Elt F) ℕ (UR sig nD τ) ℕ)),
    iprop(owns (c : Thread nD τ) arg1 fullShare B.f ∗ owns (c : Thread nD τ) arg2 fullShare B.rho ∗ owns (c : Thread nD τ) arg3 fullShare B.u ∗ owns (c : Thread nD τ) arg4 fullShare B.obs ∗ owns (c : Thread nD τ) arg5 fullShare B.fUp ∗ owns (c : Thread nD τ) arg6 fullShare B.fDn ∗ owns (c : Thread nD τ) arg7 fullShare B.rhoUp ∗ owns (c : Thread nD τ) arg8 fullShare B.rhoDn ∗ owns (c : Thread nD τ) arg9 fullShare B.uUp ∗ owns (c : Thread nD τ) arg10 fullShare B.uDn ∗ (∃ d, owns (c : Thread nD τ) arg11 fullShare d)
        ∗ (iprop(owns (c : Thread nD τ) arg1 fullShare B.f ∗ owns (c : Thread nD τ) arg2 fullShare B.rho ∗ owns (c : Thread nD τ) arg3 fullShare B.u ∗ owns (c : Thread nD τ) arg4 fullShare B.obs ∗ owns (c : Thread nD τ) arg5 fullShare B.fUp ∗ owns (c : Thread nD τ) arg6 fullShare B.fDn ∗ owns (c : Thread nD τ) arg7 fullShare B.rhoUp ∗ owns (c : Thread nD τ) arg8 fullShare B.rhoDn ∗ owns (c : Thread nD τ) arg9 fullShare B.uUp ∗ owns (c : Thread nD τ) arg10 fullShare B.uDn ∗ owns (c : Thread nD τ) arg11 fullShare (out10 B)) -∗ K ⟨⟩))
      ⊢ wp frame (wpE (defs₀ (F := F)) Variants.none c none) E (cc0__lbm_kernel i arg1 harg1 arg2 harg2 arg3 harg3 arg4 harg4 arg5 harg5 arg6 harg6 arg7 harg7 arg8 harg8 arg9 harg9 arg10 harg10 arg11 harg11) K

end Cert.KernelIdeal.Hand

end
-- ==== Proof.Body.lean ====
/-
  The kernel body's triple.

  The body is a straight line: ten whole-block loads of the inputs, pure steps, and for each of the twelve output
  channels a load of the channel's slab of the output block (its value unused) followed by a store of the channel's
  value through the same slab. The twelve slabs tile the 64 × 2048 × 12 block, so after the last store the block
  reads as the canon of the twelve stores, whatever it held before.
-/
import proofs.«140047_j18760417149386_2_alg».proof.Proof.BodySpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The twelve channel slabs tile the output block (one slab per channel index, each the full 64 × 2048 plane),
    so every cell of the block lies in one of them, whatever the stored values are. -/
theorem cover_out (p0 p1 p2 p3 p4 p5 p6 p7 p8 p9 p10 p11 : Vec F S64x2048x1 .f32) (y : S64x2048x12.Idx) :
    ∃ pc ∈ ([⟨rO11, p11⟩, ⟨rO10, p10⟩, ⟨rO9, p9⟩, ⟨rO8, p8⟩, ⟨rO7, p7⟩, ⟨rO6, p6⟩, ⟨rO5, p5⟩, ⟨rO4, p4⟩,
      ⟨rO3, p3⟩, ⟨rO2, p2⟩, ⟨rO1, p1⟩, ⟨rO0, p0⟩] : List (View.Piece (Elt F) S64x2048x12 .f32)), y ∈ pc.1.set :=
  View.cover_of_tiled [⟨rO11, p11⟩, ⟨rO10, p10⟩, ⟨rO9, p9⟩, ⟨rO8, p8⟩, ⟨rO7, p7⟩, ⟨rO6, p6⟩, ⟨rO5, p5⟩, ⟨rO4, p4⟩,
      ⟨rO3, p3⟩, ⟨rO2, p2⟩, ⟨rO1, p1⟩, ⟨rO0, p0⟩] S64x2048x1.size (by rfl) y

set_option maxHeartbeats 4000000 in
/-- The body on whole staging memrefs: the inputs at the blocks `B`, the output at anything. Every load of an input
    reads the block through the whole rectangle; the loads of the output block's slabs read values the body never
    uses; the twelve stores leave the output block at the canon of the twelve channel values, because their slabs
    cover the block. The inputs are not written. -/
theorem sound_kernel : SoundKernel F := by
  intro c E i arg1 harg1 arg2 harg2 arg3 harg3 arg4 harg4 arg5 harg5 arg6 harg6 arg7 harg7 arg8 harg8 arg9 harg9 arg10 harg10 arg11 harg11 B K
  obtain ⟨xf, xrho, xu, xobs, xfUp, xfDn, xrhoUp, xrhoDn, xuUp, xuDn⟩ := B
  simp only [cc0__lbm_kernel_eq_skeleton]; unfold cc0__lbm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %fd, -, Hd⟩, Hk⟩
  dsimp only at hf1 hf2 hf3 hf4 hf5 hf6 hf7 hf8 hf9 hf10
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact Hd
  ipureintro
  exact View.read_writes_eq_canon _ _ _ (cover_out _ _ _ _ _ _ _ _ _ _ _ _)

end Cert.KernelIdeal.Hand

end
-- ==== Proof.PiecesBits.lean ====
/-
  The kernel body's data flow, named once.

  At a grid point the body is handed ten input blocks — 64 lattice rows of the populations, the density, the
  velocity and the obstacle mask, and for each of populations, density and velocity the single lattice row just
  above and the single row just below those 64 rows (the periodic neighbours the streaming step reads) — and writes one
  output block of twelve channels per cell: nine streamed populations, the new density, the two new velocity
  components. Each channel is stored once, through the rectangle that selects that channel of the whole block, so
  the output block is the canon of twelve pieces. The values the stores take are compositions of the body's pure
  steps over the loaded blocks; this file names every intermediate value in the order the body computes it.
-/
import proofs.«140047_j18760417149386_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- The ten input blocks of one grid point, in the order of the kernel's windows 0 … 9. -/
structure Blocks (F : FTy → Type) [FloatOps F] where
  f : Vec F S64x2048x9 .f32
  rho : Vec F S64x2048 .f32
  u : Vec F S64x2048x2 .f32
  obs : Vec F S64x2048 .i32
  fUp : Vec F S1x2048x9 .f32
  fDn : Vec F S1x2048x9 .f32
  rhoUp : Vec F S1x2048x1 .f32
  rhoDn : Vec F S1x2048x1 .f32
  uUp : Vec F S1x2048x2 .f32
  uDn : Vec F S1x2048x2 .f32

/-! ## The rectangles the body loads and stores through -/

abbrev rF : Rect S64x2048x9 := Rect.unit (s := S64x2048x9) ![0, 0, 0] S64x2048x9.size inb_S64x2048x9_S64x2048x9_0_0_0
abbrev rR : Rect S64x2048 := Rect.unit (s := S64x2048) ![0, 0] S64x2048.size inb_S64x2048_S64x2048_0_0
abbrev rU : Rect S64x2048x2 := Rect.unit (s := S64x2048x2) ![0, 0, 0] S64x2048x2.size inb_S64x2048x2_S64x2048x2_0_0_0
abbrev rF1 : Rect S1x2048x9 := Rect.unit (s := S1x2048x9) ![0, 0, 0] S1x2048x9.size inb_S1x2048x9_S1x2048x9_0_0_0
abbrev rR1 : Rect S1x2048x1 := Rect.unit (s := S1x2048x1) ![0, 0, 0] S1x2048x1.size inb_S1x2048x1_S1x2048x1_0_0_0
abbrev rU1 : Rect S1x2048x2 := Rect.unit (s := S1x2048x2) ![0, 0, 0] S1x2048x2.size inb_S1x2048x2_S1x2048x2_0_0_0
abbrev rO0 : Rect S64x2048x12 := Rect.unit (s := S64x2048x12) ![0, 0, 0] S64x2048x1.size inb_S64x2048x12_S64x2048x1_0_0_0
abbrev rO1 : Rect S64x2048x12 := Rect.unit (s := S64x2048x12) ![0, 0, 1] S64x2048x1.size inb_S64x2048x12_S64x2048x1_0_0_1
abbrev rO2 : Rect S64x2048x12 := Rect.unit (s := S64x2048x12) ![0, 0, 2] S64x2048x1.size inb_S64x2048x12_S64x2048x1_0_0_2
abbrev rO3 : Rect S64x2048x12 := Rect.unit (s := S64x2048x12) ![0, 0, 3] S64x2048x1.size inb_S64x2048x12_S64x2048x1_0_0_3
abbrev rO4 : Rect S64x2048x12 := Rect.unit (s := S64x2048x12) ![0, 0, 4] S64x2048x1.size inb_S64x2048x12_S64x2048x1_0_0_4
abbrev rO5 : Rect S64x2048x12 := Rect.unit (s := S64x2048x12) ![0, 0, 5] S64x2048x1.size inb_S64x2048x12_S64x2048x1_0_0_5
abbrev rO6 : Rect S64x2048x12 := Rect.unit (s := S64x2048x12) ![0, 0, 6] S64x2048x1.size inb_S64x2048x12_S64x2048x1_0_0_6
abbrev rO7 : Rect S64x2048x12 := Rect.unit (s := S64x2048x12) ![0, 0, 7] S64x2048x1.size inb_S64x2048x12_S64x2048x1_0_0_7
abbrev rO8 : Rect S64x2048x12 := Rect.unit (s := S64x2048x12) ![0, 0, 8] S64x2048x1.size inb_S64x2048x12_S64x2048x1_0_0_8
abbrev rO9 : Rect S64x2048x12 := Rect.unit (s := S64x2048x12) ![0, 0, 9] S64x2048x1.size inb_S64x2048x12_S64x2048x1_0_0_9
abbrev rO10 : Rect S64x2048x12 := Rect.unit (s := S64x2048x12) ![0, 0, 10] S64x2048x1.size inb_S64x2048x12_S64x2048x1_0_0_10
abbrev rO11 : Rect S64x2048x12 := Rect.unit (s := S64x2048x12) ![0, 0, 11] S64x2048x1.size inb_S64x2048x12_S64x2048x1_0_0_11

/-! ## The loaded blocks -/

variable (B : Blocks F)

def v0 := View.ld B.f rF
def v1 := View.ld B.rho rR
def v2 := View.ld B.u rU
def v407 := View.ld B.obs rR
def v239 := View.ld B.fUp rF1
def v323 := View.ld B.fDn rF1
def v235 := View.ld B.rhoUp rR1
def v237 := View.ld B.rhoDn rR1
def v240 := View.ld B.uUp rU1
def v324 := View.ld B.uDn rU1

/-! ## The 64 rows themselves: velocity components, their squares, and the nine collided populations -/

def cst16 : F .f32 := Scalar.ofBits .f32 0x3DE38E39#32
def cst75 : F .f32 := Scalar.ofBits .f32 0x40900000#32

def v4 := k0_pay4 (v2 B)
def v6 := k0_pay5 (v2 B)
def v9 := k0_pay6 (v2 B)
def v34 := k0_pay7 (v0 B) (v1 B) (v2 B)
def v39 := k0_pay8 (v2 B)
def v59 := k0_pay9 (v0 B) (v1 B) (v9 B) (v39 B) (cst16 (F := F))
def v84 := k0_pay10 (v0 B) (v1 B) (v4 B) (v6 B) (v9 B)
def v85 : FVec F S64x2048 .f32 := k0_pay11 (F := F)
def v109 := k0_pay12 (v0 B) (v1 B) (v4 B) (v6 B) (v9 B) (v85 (F := F))
def v130 := k0_pay13 (v0 B)
def v131 := k0_pay14 (v0 B) (v1 B) (v4 B) (v6 B) (v9 B)
def v134 := k0_pay15 (v130 B) (v131 B)
def v159 := k0_pay16 (v0 B) (v1 B) (v4 B) (v6 B) (v9 B)
def v166 := k0_pay17 (v1 B)
def v174 := k0_pay18 (v4 B) (v6 B)
def v175 : FVec F S64x2048 .f32 := k0_pay19 (F := F)
def v184 := k0_pay20 (v0 B) (v9 B) (v166 B) (v174 B) (v175 (F := F))
def v209 := k0_pay21 (v0 B) (v1 B) (v4 B) (v6 B) (v9 B)
def v214 := k0_pay22 (v4 B) (v6 B)
def v216 := k0_pay23 (v1 B)
def v220 := k0_pay24 (v4 B) (v6 B)
def v234 := k0_pay25 (v0 B) (v9 B) (v214 B) (v216 B) (v220 B) (cst75 (F := F))

/-! ## The row above -/

def v236 := k0_pay26 (v235 B)
def v238 := k0_pay27 (v237 B)
def v242 := k0_pay28 (v240 B)
def v244 := k0_pay29 (v240 B)
def v247 := k0_pay30 (v240 B)
def v252 := k0_pay31 (v240 B)
def v254 := k0_pay32 (v235 B)
def v258 := k0_pay33 (v240 B)
def v260 := k0_pay34 (v240 B)
def v272 := k0_pay35 (v239 B) (v247 B) (v252 B) (v254 B) (v258 B) (v260 B)
def v297 := k0_pay36 (v236 B) (v239 B) (v242 B) (v244 B) (v247 B)
def v302 := k0_pay37 (v242 B) (v244 B)
def v304 := k0_pay38 (v236 B)
def v306 := k0_pay39 (v242 B) (v244 B)
def v322 := k0_pay40 (v239 B) (v247 B) (v302 B) (v304 B) (v306 B)

/-! ## The row below -/

def v326 := k0_pay41 (v324 B)
def v328 := k0_pay42 (v324 B)
def v331 := k0_pay43 (v324 B)
def v338 := k0_pay44 (v238 B)
def v349 := k0_pay45 (v324 B)
def v356 := k0_pay46 (v323 B) (v338 B) (v349 B)
def v381 := k0_pay47 (v238 B) (v323 B) (v326 B) (v328 B) (v331 B)
def v386 := k0_pay48 (v326 B) (v328 B)
def v388 := k0_pay49 (v238 B)
def v392 := k0_pay50 (v326 B) (v328 B)
def v394 := k0_pay51 (v326 B) (v328 B)
def v406 := k0_pay52 (v323 B) (v331 B) (v386 B) (v388 B) (v392 B) (v394 B)

/-! ## Streaming, bounce-back and the running sums -/

def v408 := k0_pay53 (F := F) (v407 B)
def v411 : FVec F S64x2048 .f32 := k0_pay54 (F := F)
def v426 := k0_pay59 (v59 B) (v109 B) (v272 B) (v407 B)
def v428 := k0_pay60 (v84 B) (v134 B) (v407 B)
def v432 := k0_pay62 (v34 B) (v59 B) (v84 B) (v109 B) (v134 B) (v272 B) (v407 B)
def v462 := k0_pay69 (v59 B) (v84 B) (v109 B) (v134 B) (v159 B) (v209 B) (v297 B) (v356 B) (v408 B) (v432 B)
def v465 := k0_pay70 (v59 B) (v109 B) (v159 B) (v209 B) (v297 B) (v356 B) (v408 B) (v426 B)
def v468 := k0_pay71 (v84 B) (v134 B) (v159 B) (v209 B) (v297 B) (v408 B) (v411 (F := F)) (v428 B)
def v472 := k0_pay72 (v184 B) (v234 B) (v381 B) (v408 B)
def v504 := k0_pay78 (v159 B) (v184 B) (v209 B) (v234 B) (v322 B) (v406 B) (v408 B) (v462 B) (v472 B)
def v507 := k0_pay79 (v159 B) (v184 B) (v209 B) (v234 B) (v322 B) (v406 B) (v408 B) (v465 B) (v472 B)
def v510 := k0_pay80 (v159 B) (v184 B) (v209 B) (v234 B) (v322 B) (v406 B) (v408 B) (v468 B) (v472 B)

/-! ## The twelve stored channels, each a 64 × 2048 × 1 slab -/

def ch0 := k0_pay56 (v34 B) (v407 B)
def ch1 := k0_pay58 (v59 B) (v109 B) (v272 B) (v407 B)
def ch2 := k0_pay61 (v84 B) (v134 B) (v407 B)
def ch3 := k0_pay64 (v59 B) (v109 B) (v356 B) (v408 B)
def ch4 := k0_pay66 (v84 B) (v134 B) (v408 B)
def ch5 := k0_pay68 (v159 B) (v209 B) (v297 B) (v408 B)
def ch6 := k0_pay73 (v472 B)
def ch7 := k0_pay75 (v159 B) (v209 B) (v406 B) (v408 B)
def ch8 := k0_pay77 (v184 B) (v234 B) (v322 B) (v408 B)
def ch9 := k0_pay1 (v504 B)
def ch10 := k0_pay2 (v504 B) (v507 B)
def ch11 := k0_pay3 (v504 B) (v510 B)

/-- The output block after the body: the canon of the twelve channel stores, last store first. -/
def out10 : Vec F S64x2048x12 .f32 :=
  View.canon [⟨rO11, ch11 B⟩, ⟨rO10, ch10 B⟩, ⟨rO9, ch9 B⟩, ⟨rO8, ch8 B⟩, ⟨rO7, ch7 B⟩, ⟨rO6, ch6 B⟩,
    ⟨rO5, ch5 B⟩, ⟨rO4, ch4 B⟩, ⟨rO3, ch3 B⟩, ⟨rO2, ch2 B⟩, ⟨rO1, ch1 B⟩, ⟨rO0, ch0 B⟩]

end Cert.Kernel.Hand

end
-- ==== Proof.BodySpecBits.lean ====
/-
  The statement of the kernel body's triple, named.

  Run on eleven whole staging memrefs — the ten inputs holding the blocks `B`, the output holding anything — the
  body terminates without a fault, leaves the ten inputs as they were and the output at `out10 B`, the canon of its
  twelve channel stores over values computed from the loaded blocks.
-/
import proofs.«140047_j18760417149386_2_alg».proof.Proof.PiecesBits
import proofs.«140047_j18760417149386_2_alg».proof.Proof.Gen.Kernel.Launch
import proofs.«140047_j18760417149386_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

/-- The body's triple, for every core, mask, grid coordinate, choice of whole staging memrefs, blocks and
    continuation. -/
def SoundKernel (F : FTy → Type) [FloatOps F] : Prop :=
  ∀ (c : Dev nD) (E : Set ℕ) (i : grid0.Coords) (arg1 : Memref sig .tc .vmem S64x2048x9 .f32) (harg1 : arg1.IsWhole) (arg2 : Memref sig .tc .vmem S64x2048 .f32) (harg2 : arg2.IsWhole) (arg3 : Memref sig .tc .vmem S64x2048x2 .f32) (harg3 : arg3.IsWhole) (arg4 : Memref sig .tc .vmem S64x2048 .i32) (harg4 : arg4.IsWhole) (arg5 : Memref sig .tc .vmem S1x2048x9 .f32) (harg5 : arg5.IsWhole) (arg6 : Memref sig .tc .vmem S1x2048x9 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x2 .f32) (harg9 : arg9.IsWhole) (arg10 : Memref sig .tc .vmem S1x2048x2 .f32) (harg10 : arg10.IsWhole) (arg11 : Memref sig .tc .vmem S64x2048x12 .f32) (harg11 : arg11.IsWhole)
    (B : Blocks F) (K : PUnit → sProp (MT nD τ sig Unit (Elt F) ℕ (UR sig nD τ) ℕ)),
    iprop(owns (c : Thread nD τ) arg1 fullShare B.f ∗ owns (c : Thread nD τ) arg2 fullShare B.rho ∗ owns (c : Thread nD τ) arg3 fullShare B.u ∗ owns (c : Thread nD τ) arg4 fullShare B.obs ∗ owns (c : Thread nD τ) arg5 fullShare B.fUp ∗ owns (c : Thread nD τ) arg6 fullShare B.fDn ∗ owns (c : Thread nD τ) arg7 fullShare B.rhoUp ∗ owns (c : Thread nD τ) arg8 fullShare B.rhoDn ∗ owns (c : Thread nD τ) arg9 fullShare B.uUp ∗ owns (c : Thread nD τ) arg10 fullShare B.uDn ∗ (∃ d, owns (c : Thread nD τ) arg11 fullShare d)
        ∗ (iprop(owns (c : Thread nD τ) arg1 fullShare B.f ∗ owns (c : Thread nD τ) arg2 fullShare B.rho ∗ owns (c : Thread nD τ) arg3 fullShare B.u ∗ owns (c : Thread nD τ) arg4 fullShare B.obs ∗ owns (c : Thread nD τ) arg5 fullShare B.fUp ∗ owns (c : Thread nD τ) arg6 fullShare B.fDn ∗ owns (c : Thread nD τ) arg7 fullShare B.rhoUp ∗ owns (c : Thread nD τ) arg8 fullShare B.rhoDn ∗ owns (c : Thread nD τ) arg9 fullShare B.uUp ∗ owns (c : Thread nD τ) arg10 fullShare B.uDn ∗ owns (c : Thread nD τ) arg11 fullShare (out10 B)) -∗ K ⟨⟩))
      ⊢ wp frame (wpE (defs₀ (F := F)) Variants.none c none) E (cc0__lbm_kernel i arg1 harg1 arg2 harg2 arg3 harg3 arg4 harg4 arg5 harg5 arg6 harg6 arg7 harg7 arg8 harg8 arg9 harg9 arg10 harg10 arg11 harg11) K

end Cert.Kernel.Hand

end
-- ==== Proof.BodyBits.lean ====
/-
  The kernel body's triple.

  The body is a straight line: ten whole-block loads of the inputs, pure steps, and for each of the twelve output
  channels a load of the channel's slab of the output block (its value unused) followed by a store of the channel's
  value through the same slab. The twelve slabs tile the 64 × 2048 × 12 block, so after the last store the block
  reads as the canon of the twelve stores, whatever it held before.
-/
import proofs.«140047_j18760417149386_2_alg».proof.Proof.BodySpecBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-- The twelve channel slabs tile the output block (one slab per channel index, each the full 64 × 2048 plane),
    so every cell of the block lies in one of them, whatever the stored values are. -/
theorem cover_out (p0 p1 p2 p3 p4 p5 p6 p7 p8 p9 p10 p11 : Vec F S64x2048x1 .f32) (y : S64x2048x12.Idx) :
    ∃ pc ∈ ([⟨rO11, p11⟩, ⟨rO10, p10⟩, ⟨rO9, p9⟩, ⟨rO8, p8⟩, ⟨rO7, p7⟩, ⟨rO6, p6⟩, ⟨rO5, p5⟩, ⟨rO4, p4⟩,
      ⟨rO3, p3⟩, ⟨rO2, p2⟩, ⟨rO1, p1⟩, ⟨rO0, p0⟩] : List (View.Piece (Elt F) S64x2048x12 .f32)), y ∈ pc.1.set :=
  View.cover_of_tiled [⟨rO11, p11⟩, ⟨rO10, p10⟩, ⟨rO9, p9⟩, ⟨rO8, p8⟩, ⟨rO7, p7⟩, ⟨rO6, p6⟩, ⟨rO5, p5⟩, ⟨rO4, p4⟩,
      ⟨rO3, p3⟩, ⟨rO2, p2⟩, ⟨rO1, p1⟩, ⟨rO0, p0⟩] S64x2048x1.size (by rfl) y

set_option maxHeartbeats 4000000 in
/-- The body on whole staging memrefs: the inputs at the blocks `B`, the output at anything. Every load of an input
    reads the block through the whole rectangle; the loads of the output block's slabs read values the body never
    uses; the twelve stores leave the output block at the canon of the twelve channel values, because their slabs
    cover the block. The inputs are not written. -/
theorem sound_kernel : SoundKernel F := by
  intro c E i arg1 harg1 arg2 harg2 arg3 harg3 arg4 harg4 arg5 harg5 arg6 harg6 arg7 harg7 arg8 harg8 arg9 harg9 arg10 harg10 arg11 harg11 B K
  obtain ⟨xf, xrho, xu, xobs, xfUp, xfDn, xrhoUp, xrhoDn, xuUp, xuDn⟩ := B
  simp only [cc0__lbm_kernel_eq_skeleton]; unfold cc0__lbm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %fd, -, Hd⟩, Hk⟩
  dsimp only at hf1 hf2 hf3 hf4 hf5 hf6 hf7 hf8 hf9 hf10
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact Hd
  ipureintro
  exact View.read_writes_eq_canon _ _ _ (cover_out _ _ _ _ _ _ _ _ _ _ _ _)

end Cert.Kernel.Hand

end
-- ==== Proof.LaunchDefsBits.lean ====
/-
  The proof data of the kernel's one pipelined region.

  The region stages eleven windows. Ten are inputs: 64 lattice rows of the populations, the density, the velocity
  and the widened obstacle mask, and for each of populations, density and velocity the single row above and the
  single row below those 64 rows. Several of them read the SAME array (the populations through three windows, the
  velocity through three, the broadcast density through two), so the full share of such an array is dealt among the
  windows on it: the first window takes the left half, the other two the halves of the right half (for two
  windows: the two halves). The eleventh window is the output; after the body it holds the canon of the twelve
  channel stores over the ten input blocks.
-/
import proofs.«140047_j18760417149386_2_alg».proof.Proof.PiecesBits
import proofs.«140047_j18760417149386_2_alg».proof.Proof.Gen.Kernel.Launch
import proofs.«140047_j18760417149386_2_alg».proof.Proof.Gen.Kernel.Points
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-! ## The arrays when the region is entered -/

/-- Core `c`'s TensorCore buffers when the region is entered: the launch memory after the two host operations
    (the density broadcast to a trailing unit axis, the mask widened to 32-bit integers). -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ten input blocks of point `t`, bundled in window order. -/
def blocks (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t⟩

/-! ## The share each input window holds of its array -/

/-- The populations' array is read by windows 0, 4, 5, the velocity's by windows 2, 8, 9, the broadcast density's by
    windows 6, 7; the density's and the widened mask's by one window each. -/
def qW : Fin 11 → PosShare TreeShare
  | ⟨0, _⟩ => fullShare.left
  | ⟨1, _⟩ => fullShare
  | ⟨2, _⟩ => fullShare.left
  | ⟨3, _⟩ => fullShare
  | ⟨4, _⟩ => fullShare.right.left
  | ⟨5, _⟩ => fullShare.right.right
  | ⟨6, _⟩ => fullShare.left
  | ⟨7, _⟩ => fullShare.right
  | ⟨8, _⟩ => fullShare.right.left
  | ⟨9, _⟩ => fullShare.right.right
  | _ => fullShare

/-! ## The pipeline's proof data -/

/-- The proof data of the one pipeline on core `c`: the arrays as the region finds them (`V`); after the body at
    point `t` each input's buffer at its block and the output's at `out10` of the input blocks; the invariant the
    core's scoped buffers that are no staging buffer, each at some contents (the body touches none, and does not
    draw on the generator register); nothing owed; the shares `qW`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (blocks m c t)
  Φ _ := Pipeline.scopedRest spec0 c
  q := qW
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 (blocks m c t) := by dsimp only [dats]

/-- The shares, and that nothing is owed. -/
theorem q_eq (c : Dev nD) (w : Fin cfg0.W) : (dats m 0 c).q w = qW w := by dsimp only [dats]
theorem owed_eq (c : Dev nD) (t : Fin (cfg0.N + 1)) : (dats m 0 c).owed t = 0 := by dsimp only [dats]
theorem Φ_eq (c : Dev nD) (t : Fin (cfg0.N + 1)) : (dats m 0 c).Φ t = Pipeline.scopedRest spec0 c := by dsimp only [dats]

end Cert.Kernel.Hand

end
-- ==== Proof.LibSharedFrame.lean ====
/-
  The frame run of ONE pipelined region whose input windows may read the SAME array.

  When a kernel is handed one array through several input windows, the buffers behind the windows' arrays are
  fewer than the windows, and the full share of the common buffer has to be dealt among the windows on it. This
  file states the frame run for that situation once: given proof data, the body obligation, the program's shape up
  to the region, and an entailment `hsplit` saying how the distinct buffers behind the arrays (each whole, at the
  full share, at the region-entry contents) make up the proof data's windowed arrays at entry, every weakly fair
  execution terminates and ends with every windowed array at what the proof data computes (`Dat.arrAt … N`) and
  every other unscoped buffer at its region-entry contents. The kernel is assumed to use no semaphore of its own and
  to carry nothing between points but what its invariant `Φ` says of the scoped buffers that are no staging buffer.
-/
import Idealize.ShloMosaic.Lib.Pipeline.Frame

noncomputable section

namespace Cert.Lib.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for a region whose windows may share arrays: the layout facts but for the arrays' distinctness
    (`hw`), the dealing of each shared buffer's full share among its windows (`hsplit`), the invariant entered from
    and returned to the scoped rest (`hin`, `hout`). Concludes the frame post: each windowed array at
    `arrAt w N`, each bypassing buffer as the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show _ ⊢ (scopedRest (cfgs p).spec c : sProp 𝕄) from by iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.LaunchBits.lean ====
/-
  The frame run of the kernel program: the host prefix, the one pipelined region around the body, and the frame.

  The program broadcasts the density to a trailing unit axis and widens the obstacle mask, then runs one
  pipelined region of 32 points over eleven windows. Given the body's triple as a hypothesis, this file proves the
  body obligation at every point (each input's staging buffer holds its block there, fetched or not), deals the
  full share of each array read through several windows among those windows, and concludes that every weakly fair
  execution terminates with every windowed array at what the proof data computes and the four argument arrays
  unchanged.
-/
import proofs.«140047_j18760417149386_2_alg».proof.Proof.LaunchDefsBits
import proofs.«140047_j18760417149386_2_alg».proof.Proof.BodySpecBits
import proofs.«140047_j18760417149386_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main up to the region: the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-! ## Each input's staging buffer holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so the body's triple applies; the invariant and
    the core's `owes` pass through unread. -/
theorem sound_body (hk : SoundKernel F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold blocks
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hk c Set.univ (grid0.coords t) _ _ _ _ _ _ _ _ _ _ _ _ _ _ _ _ _ _ _ _ _ _
    ⟨iblk m c 0 t, iblk m c 1 t, iblk m c 2 t, iblk m c 3 t, iblk m c 4 t, iblk m c 5 t, iblk m c 6 t, iblk m c 7 t, iblk m c 8 t, iblk m c 9 t⟩ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (hk : SoundKernel F) (c : Dev nD) : BodyObligation (dats (F := F) m 0 c) (defs₀ (F := F)) Variants.none () Set.univ := fun t => by
  rw [bigSep_W0, bigSep_W0]
  exact sound_body m hk c t

/-! ## The arrays at entry: each shared array's full share dealt among the windows on it -/

/-- The distinct buffers behind the windows' arrays, listed. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_v1) ↦{fullShare} V m c main_v1)
          ∗ (((c.tc : Thread nD τ).loc main_v0) ↦{fullShare} V m c main_v0)
          ∗ (((c.tc : Thread nD τ).loc main_v2) ↦{fullShare} V m c main_v2)) := by
  unfold Pipeline.arrBufs
  exact bigSep_eq_bigSepL_of_eq [main_arg0, main_arg1, main_arg2, main_v1, main_v0, main_v2] (by decide) (by decide) _

/-- One window's array as the proof data holds it at entry: the whole buffer behind it, at the window's share, at the
    region-entry contents. -/
theorem arr_at (c : Dev nD) (w : Fin cfg0.W) (q : PosShare TreeShare) (hq : (dats m 0 c).share w = q) :
    (((cfg0.win w).arr.view.loc (c.tc : Thread nD τ) ↦[(cfg0.win w).arr.view.set]{(dats m 0 c).share w} (dats m 0 c).arrAt w 0) : sProp 𝕄)
      = (((c.tc : Thread nD τ).loc (Pipeline.arrRef spec0 w)) ↦{q} V m c (Pipeline.arrRef spec0 w)) := by
  rw [(arr_whole0 w).set_eq_univ, hq]
  rw [show (dats m 0 c).arrAt w 0 = (dats m 0 c).A w from rfl, A_eq]

/-- An input window holds its array at the share `qW` names. -/
theorem share_in (c : Dev nD) (w : Fin cfg0.W) (hw : (cfg0.win w).isOut = false) : (dats m 0 c).share w = qW w := by
  unfold Dat.share
  rw [hw, q_eq]; rfl

/-- The output window holds its array at the full share. -/
theorem share_out (c : Dev nD) : (dats m 0 c).share 10 = fullShare := by
  unfold Dat.share
  rw [show (cfg0.win 10).isOut = true from rfl]; rfl

/-- The buffers behind the arrays, each whole at the full share at the region-entry contents, make up the proof data's
    windowed arrays at entry: the populations' full share is halved and its right half halved again for windows 0,
    4, 5, the velocity's likewise for windows 2, 8, 9, the broadcast density's is halved for windows 6, 7. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [show (Pipeline.arrBufs (Ix := Unit) (Name := ℕ) (U := UR sig nD τ) (Lvl := ℕ) (cfgs 0).spec c (V m c) : sProp 𝕄) = _ from arrBufs_eq m c]
  unfold Dat.arrays
  rw [bigSep_W0]
  rw [arr_at m c 0 _ (share_in m c 0 rfl), arr_at m c 1 _ (share_in m c 1 rfl), arr_at m c 2 _ (share_in m c 2 rfl),
    arr_at m c 3 _ (share_in m c 3 rfl), arr_at m c 4 _ (share_in m c 4 rfl), arr_at m c 5 _ (share_in m c 5 rfl),
    arr_at m c 6 _ (share_in m c 6 rfl), arr_at m c 7 _ (share_in m c 7 rfl), arr_at m c 8 _ (share_in m c 8 rfl),
    arr_at m c 9 _ (share_in m c 9 rfl), arr_at m c 10 _ (share_out m c)]
  iintro ⟨H0, H1, H2, H3, H4, H5⟩
  ihave H0 := (pointsTo_share (PosShare.mem_left_op_right fullShare)).1 $$ H0
  icases H0 with ⟨H0a, H0r⟩
  ihave H0r := (pointsTo_share (PosShare.mem_left_op_right fullShare.right)).1 $$ H0r
  icases H0r with ⟨H0b, H0c⟩
  ihave H2 := (pointsTo_share (PosShare.mem_left_op_right fullShare)).1 $$ H2
  icases H2 with ⟨H2a, H2r⟩
  ihave H2r := (pointsTo_share (PosShare.mem_left_op_right fullShare.right)).1 $$ H2r
  icases H2r with ⟨H2b, H2c⟩
  ihave H4 := (pointsTo_share (PosShare.mem_left_op_right fullShare)).1 $$ H4
  icases H4 with ⟨H4a, H4b⟩
  isplitl [H0a]; · iexact H0a
  isplitl [H1]; · iexact H1
  isplitl [H2a]; · iexact H2a
  isplitl [H3]; · iexact H3
  isplitl [H0b]; · iexact H0b
  isplitl [H0c]; · iexact H0c
  isplitl [H4a]; · iexact H4a
  isplitl [H4b]; · iexact H4b
  isplitl [H2b]; · iexact H2b
  isplitl [H2c]; · iexact H2c
  iexact H5

/-! ## The invariant at entry and exit -/

theorem hin (c : Dev nD) :
    (Pipeline.scopedRest (Ix := Unit) (Name := ℕ) (U := UR sig nD τ) (Lvl := ℕ) (Val := Elt F) (cfgs 0).spec c : sProp 𝕄) ⊢ (dats m 0 c).Φ 0 :=
  Entails.of_eq (Φ_eq m c 0).symm

theorem hout (c : Dev nD) :
    (dats m 0 c).Φ (Fin.last (cfgs 0).N) ⊢ (Pipeline.scopedRest (Ix := Unit) (Name := ℕ) (U := UR sig nD τ) (Lvl := ℕ) (Val := Elt F) (cfgs 0).spec c : sProp 𝕄) :=
  Entails.of_eq (Φ_eq m c _)

/-! ## The run and the frame -/

/-- The frame run's post read at the four argument arrays: the populations, the density and the velocity are windows'
    arrays (input windows 0, 1, 2: never written back, so as the region found them), the unwidened mask is no
    window's array and bypasses the region; the host prefix writes none of the four. -/
theorem kept_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main (hk : SoundKernel F) :
    θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m hk c).loose) (fun c t => owed_eq m c t)
    (V m) (hmain m Variants.none) (hsplit m) (hin m) (hout m)

/-- THE FRAME: the program runs and its four argument arrays end unchanged. -/
theorem frame (hk : SoundKernel F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_of_post m r h c) (run_main m ρ hk)

end Cert.Kernel.Hand

end
-- ==== Proof.Spec.lean ====
/-
  One lattice-Boltzmann step (D2Q9, BGK collision, periodic streaming, bounce-back at solid cells, moments),
  stated once as a function of the four argument arrays, index by index, over the extended reals.

  A cell (x, y) of the 2048 × 2048 periodic lattice carries nine populations f_q, a density rho and a velocity
  (u_0, u_1). With e_q the q-th lattice velocity and w_q its weight,
      eu_q   = u_0 · e_q,0 + u_1 · e_q,1,          usq = u_0² + u_1²,
      feq_q  = (w_q · rho) · (((1 + 3 · eu_q) + (4.5 · eu_q) · eu_q) − 1.5 · usq),
      f*_q   = f_q − (f_q − feq_q) · (1/τ),
  the streamed population of direction q at (x, y) is f*_q at the cell one step against e_q (indices wrap), a solid
  cell takes instead its own f* of the opposite direction, and the new density and momentum are the sums over q of
  the new populations and of the new populations times e_q,d; the velocity is momentum over density. The result
  has twelve channels per cell: the nine new populations, the new density, the two velocity components.

  Every float literal is kept as its 32-bit word, read by `Ideal.ofBits`; only the relaxation factor is a number:
  1/τ with τ the value of the word 0x3F19999A, that is 8388608/5033165.
-/
import Idealize.ShloMosaic.Lib.ValueIdx
import Idealize.ShloMosaic.PureOps.Ideal
import Idealize.ShloMosaic.PureOps.Ideal.Laws

noncomputable section

namespace Cert.Lbm

open Idealize.ShloMosaic Idealize.ShloMosaic.ValueIdx

abbrev SF : Shape := ⟨3, ![2048, 2048, 9]⟩
abbrev SR : Shape := ⟨2, ![2048, 2048]⟩
abbrev SU : Shape := ⟨3, ![2048, 2048, 2]⟩
abbrev SO : Shape := ⟨3, ![2048, 2048, 12]⟩

/-- The words of the lattice velocities' components: 0, 1 or −1. -/
def eWord : Fin 9 → Fin 2 → BitVec 32
  | 0, 0 => 0x00000000#32 | 0, 1 => 0x00000000#32
  | 1, 0 => 0x3F800000#32 | 1, 1 => 0x00000000#32
  | 2, 0 => 0x00000000#32 | 2, 1 => 0x3F800000#32
  | 3, 0 => 0xBF800000#32 | 3, 1 => 0x00000000#32
  | 4, 0 => 0x00000000#32 | 4, 1 => 0xBF800000#32
  | 5, 0 => 0x3F800000#32 | 5, 1 => 0x3F800000#32
  | 6, 0 => 0xBF800000#32 | 6, 1 => 0x3F800000#32
  | 7, 0 => 0xBF800000#32 | 7, 1 => 0xBF800000#32
  | 8, 0 => 0x3F800000#32 | 8, 1 => 0xBF800000#32

/-- The words of the lattice weights: 4/9, then 1/9 four times, then 1/36 four times, each rounded to f32. -/
def wWord : Fin 9 → BitVec 32
  | 0 => 0x3EE38E39#32
  | 1 => 0x3DE38E39#32 | 2 => 0x3DE38E39#32 | 3 => 0x3DE38E39#32 | 4 => 0x3DE38E39#32
  | 5 => 0x3CE38E39#32 | 6 => 0x3CE38E39#32 | 7 => 0x3CE38E39#32 | 8 => 0x3CE38E39#32

/-- Component `d` of lattice velocity `q`. -/
def e (q : Fin 9) (d : Fin 2) : EReal := Ideal.ofBits .f32 (eWord q d)
/-- The weight of direction `q`. -/
def w (q : Fin 9) : EReal := Ideal.ofBits .f32 (wWord q)

/-- The step of direction `q` along the first lattice axis, as an element of the periodic axis (−1 is 2047). -/
def sx : Fin 9 → Fin 2048 := ![0, 1, 0, 2047, 0, 1, 2047, 2047, 1]
/-- The step of direction `q` along the second lattice axis. -/
def sy : Fin 9 → Fin 2048 := ![0, 0, 1, 0, 2047, 1, 1, 2047, 2047]
/-- The opposite direction. -/
def opp : Fin 9 → Fin 9 := ![0, 3, 4, 1, 2, 7, 8, 5, 6]

/-- The relaxation factor 1/τ, τ the value of the f32 word 0x3F19999A (5033165/8388608). -/
def invTau : EReal := ((8388608 / 5033165 : ℝ) : EReal)

section
variable (f : SF.Idx → EReal) (rho : SR.Idx → EReal) (u : SU.Idx → EReal) (solid : SR.Idx → BitVec 1)

/-- e_q · u at a cell. -/
def eu (x y : Fin 2048) (q : Fin 9) : EReal := u (ix3 x y 0) * e q 0 + u (ix3 x y 1) * e q 1
/-- u · u at a cell. -/
def usq (x y : Fin 2048) : EReal := u (ix3 x y 0) * u (ix3 x y 0) + u (ix3 x y 1) * u (ix3 x y 1)
/-- The equilibrium population of direction `q` at a cell. -/
def feq (x y : Fin 2048) (q : Fin 9) : EReal :=
  (w q * rho (ix2 x y)) *
    (((Ideal.ofBits .f32 0x3F800000#32 + Ideal.ofBits .f32 0x40400000#32 * eu u x y q)
        + (Ideal.ofBits .f32 0x40900000#32 * eu u x y q) * eu u x y q)
      - Ideal.ofBits .f32 0x3FC00000#32 * usq u x y)
/-- The collided population of direction `q` at a cell. -/
def fstar (x y : Fin 2048) (q : Fin 9) : EReal :=
  f (ix3 x y q) - (f (ix3 x y q) - feq rho u x y q) * invTau
/-- The new population: bounced back at a solid cell, streamed from the neighbour otherwise. -/
def fnew (x y : Fin 2048) (q : Fin 9) : EReal :=
  if solid (ix2 x y) = 1#1 then fstar f rho u x y (opp q) else fstar f rho u (x - sx q) (y - sy q) q
/-- The new density. -/
def rhoNew (x y : Fin 2048) : EReal := ∑ q : Fin 9, fnew f rho u solid x y q
/-- Component `d` of the new momentum. -/
def mom (d : Fin 2) (x y : Fin 2048) : EReal := ∑ q : Fin 9, fnew f rho u solid x y q * e q d

/-- The result at cell (x, y), channel k. -/
def Gat (x y : Fin 2048) (k : Fin 12) : EReal :=
  if h : k.val < 9 then fnew f rho u solid x y ⟨k.val, h⟩
  else if k.val = 9 then rhoNew f rho u solid x y
  else if k.val = 10 then Ideal.div (mom f rho u solid 0 x y) (rhoNew f rho u solid x y)
  else Ideal.div (mom f rho u solid 1 x y) (rhoNew f rho u solid x y)

/-- The whole result array. -/
def G : SO.Idx → EReal := fun i => Gat f rho u solid (i 0) (i 1) (i 2)

theorem G_ix3 (x y : Fin 2048) (k : Fin 12) : G f rho u solid (ix3 x y k) = Gat f rho u solid x y k := rfl

end

/-- The word 0x3F19999A denotes 5033165/8388608. -/
theorem tau_eq : Ideal.ofBits .f32 0x3F19999A#32 = ((5033165 / 8388608 : ℝ) : EReal) := by
  simp [Ideal.ofBits, Ideal.ieee, -EReal.coe_mul]; norm_num

/-- Dividing by τ is multiplying by 1/τ, for every extended real. -/
theorem div_tau (x : EReal) : Ideal.div x (Ideal.ofBits .f32 0x3F19999A#32) = x * invTau := by
  rw [tau_eq, Ideal.div_coe (by norm_num : (5033165 / 8388608 : ℝ) ≠ 0)]
  unfold invTau
  congr 2
  norm_num

end Cert.Lbm

end
-- ==== Proof.KValSpec.lean ====
/-
  The twelve channels of one output block, stated over the ten input blocks of one grid point.

  The formulas are those of the whole-lattice specification, read inside a block of 64 lattice rows: row `r` of
  the block and column `y`; a population streamed along the first lattice axis comes from the neighbouring row of the
  block, or, at the block's first and last row, from the single row handed in above or below the block; a population
  streamed along the second axis comes from the neighbouring column, around the end of the row. The collision is one
  function of the four numbers a cell holds for a direction (its population, its density, its two velocity
  components), so that the whole-lattice formula is this function at the lattice's own entries.
-/
import proofs.«140047_j18760417149386_2_alg».proof.Proof.Pieces
import proofs.«140047_j18760417149386_2_alg».proof.Proof.Spec

noncomputable section

namespace Cert.KernelIdeal.Hand

open Idealize.ShloMosaic Idealize.ShloMosaic.ValueIdx Cert.KernelIdeal

/-- The collided population of direction `q` from a cell's population `fq`, density `rho` and velocity
    `(u0, u1)`: the specification's formula with the cell's four numbers as arguments. -/
def cStar (fq rho u0 u1 : EReal) (q : Fin 9) : EReal :=
  fq - (fq - (Cert.Lbm.w q * rho) *
    (((Ideal.ofBits .f32 0x3F800000#32
          + Ideal.ofBits .f32 0x40400000#32 * (u0 * Cert.Lbm.e q 0 + u1 * Cert.Lbm.e q 1))
        + (Ideal.ofBits .f32 0x40900000#32 * (u0 * Cert.Lbm.e q 0 + u1 * Cert.Lbm.e q 1))
            * (u0 * Cert.Lbm.e q 0 + u1 * Cert.Lbm.e q 1))
      - Ideal.ofBits .f32 0x3FC00000#32 * (u0 * u0 + u1 * u1))) * Cert.Lbm.invTau

/-- The specification's collided population is `cStar` of the lattice's entries at the cell. -/
theorem fstar_eq_cStar (f : Cert.Lbm.SF.Idx → EReal) (rho : Cert.Lbm.SR.Idx → EReal) (u : Cert.Lbm.SU.Idx → EReal)
    (x y : Fin 2048) (q : Fin 9) :
    Cert.Lbm.fstar f rho u x y q
      = cStar (f (ix3 x y q)) (rho (ix2 x y)) (u (ix3 x y 0)) (u (ix3 x y 1)) q := rfl

variable (B : Blocks Ideal)

/-- The collided population of direction `q` at row `r`, column `y` of the block. -/
def bStar (r : Fin 64) (y : Fin 2048) (q : Fin 9) : EReal :=
  cStar (B.f (ix3 r y q)) (B.rho (ix2 r y)) (B.u (ix3 r y 0)) (B.u (ix3 r y 1)) q

/-- The collided population of direction `q` at column `y` of the row above the block. -/
def bStarUp (y : Fin 2048) (q : Fin 9) : EReal :=
  cStar (B.fUp (ix3 (0 : Fin 1) y q)) (B.rhoUp (ix3 (0 : Fin 1) y (0 : Fin 1)))
    (B.uUp (ix3 (0 : Fin 1) y (0 : Fin 2))) (B.uUp (ix3 (0 : Fin 1) y (1 : Fin 2))) q

/-- The collided population of direction `q` at column `y` of the row below the block. -/
def bStarDn (y : Fin 2048) (q : Fin 9) : EReal :=
  cStar (B.fDn (ix3 (0 : Fin 1) y q)) (B.rhoDn (ix3 (0 : Fin 1) y (0 : Fin 1)))
    (B.uDn (ix3 (0 : Fin 1) y (0 : Fin 2))) (B.uDn (ix3 (0 : Fin 1) y (1 : Fin 2))) q

/-- The collided population of direction `q` one row up from row `r` (the row above the block when `r` is the
    block's first row), at column `y`. -/
def bRowUp (r : Fin 64) (y : Fin 2048) (q : Fin 9) : EReal :=
  if h : r.val = 0 then bStarUp B y q else bStar B ⟨r.val - 1, by have := r.isLt; omega⟩ y q

/-- The collided population of direction `q` one row down from row `r` (the row below the block when `r` is the
    block's last row), at column `y`. -/
def bRowDn (r : Fin 64) (y : Fin 2048) (q : Fin 9) : EReal :=
  if h : r.val = 63 then bStarDn B y q else bStar B ⟨r.val + 1, by have := r.isLt; omega⟩ y q

/-- The streamed source of direction `q` at `(r, y)`: the collided population of direction `q` one step against
    the lattice velocity — the row before, the same row or the row after as the velocity's first component is
    `+1`, `0` or `−1`; the column moved back by its second component, around the end. -/
def bSrc (r : Fin 64) (y : Fin 2048) (q : Fin 9) : EReal :=
  if Cert.Lbm.sx q = 1 then bRowUp B r (y - Cert.Lbm.sy q) q
  else if Cert.Lbm.sx q = 2047 then bRowDn B r (y - Cert.Lbm.sy q) q
  else bStar B r (y - Cert.Lbm.sy q) q

/-- The new population: at a masked cell its own collided population of the opposite direction, elsewhere the
    streamed one. The mask is a 32-bit word per cell, tested against zero. -/
def bNew (r : Fin 64) (y : Fin 2048) (q : Fin 9) : EReal :=
  if B.obs (ix2 r y) ≠ 0#32 then bStar B r y (Cert.Lbm.opp q) else bSrc B r y q

/-- The new density at `(r, y)`. -/
def bRho (r : Fin 64) (y : Fin 2048) : EReal := ∑ q : Fin 9, bNew B r y q

/-- Component `d` of the new momentum at `(r, y)`. -/
def bMom (d : Fin 2) (r : Fin 64) (y : Fin 2048) : EReal := ∑ q : Fin 9, bNew B r y q * Cert.Lbm.e q d

/-- Channel `k` of the output block at `(r, y)`: the nine new populations, the new density, the two components of
    momentum over density. -/
def bAt (r : Fin 64) (y : Fin 2048) (k : Fin 12) : EReal :=
  if h : k.val < 9 then bNew B r y ⟨k.val, h⟩
  else if k.val = 9 then bRho B r y
  else if k.val = 10 then Ideal.div (bMom B 0 r y) (bRho B r y)
  else Ideal.div (bMom B 1 r y) (bRho B r y)

end Cert.KernelIdeal.Hand

end
-- ==== Proof.KValLay.lean ====
/-
  Layout operations of the kernel's body read at an index given by coordinates: a channel of a three-axis block
  taken as a matrix, a matrix given a trailing unit axis, a block of 64 rows shifted one row down or up with a
  single row put in at the free end, a rotation along the columns, and the choice by a mask word tested against zero.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.Affine

noncomputable section

namespace Cert.KernelIdeal.Hand.Lay

open Idealize.ShloMosaic Idealize.ShloMosaic.ValueIdx

variable {α : Type}

/-- Channel `k` of an `[m, c, n]` block, taken as an `[m, c]` matrix, at `(r, y)` is the block at `(r, y, k)`. -/
theorem chan_apply {m c n : Nat} (k : Fin n) (X : (⟨3, ![m, c, n]⟩ : Shape).Idx → α)
    (hs : (⟨3, ![m, c, n]⟩ : Shape).Slices ![0, 0, k.val] ⟨3, ![m, c, 1]⟩)
    (hc : (⟨3, ![m, c, 1]⟩ : Shape).ShapeCasts ⟨2, ![m, c]⟩) (r : Fin m) (y : Fin c) :
    shapeCast ⟨2, ![m, c]⟩ (extractStridedSlice ⟨3, ![m, c, 1]⟩ ![0, 0, k.val] X hs) hc (ix2 r y) = X (ix3 r y k) := by
  refine (shapeCast_apply _ hc (ix2 r y) (ix3 r y (0 : Fin 1)) ?_).trans ?_
  · rw [Shape.rowMajor_val_three, Shape.rowMajor_val_two]
    show (r.val * c + y.val) * 1 + 0 = r.val * c + y.val
    omega
  · exact extractStridedSlice_apply _ X hs _ _ (fun a => by
      match a with
      | ⟨0, _⟩ => exact (Nat.zero_add _).symm
      | ⟨1, _⟩ => exact (Nat.zero_add _).symm
      | ⟨2, _⟩ => show k.val = k.val + 0; omega)

/-- An `[m, c, 1]` block taken as an `[m, c]` matrix at `(r, y)` is the block at `(r, y, 0)`. -/
theorem dropLast_apply {m c : Nat} (X : (⟨3, ![m, c, 1]⟩ : Shape).Idx → α)
    (hc : (⟨3, ![m, c, 1]⟩ : Shape).ShapeCasts ⟨2, ![m, c]⟩) (r : Fin m) (y : Fin c) :
    shapeCast ⟨2, ![m, c]⟩ X hc (ix2 r y) = X (ix3 r y (0 : Fin 1)) :=
  shapeCast_apply _ hc (ix2 r y) (ix3 r y (0 : Fin 1)) (by
    rw [Shape.rowMajor_val_three, Shape.rowMajor_val_two]
    show (r.val * c + y.val) * 1 + 0 = r.val * c + y.val
    omega)

/-- An `[m, c]` matrix given a trailing unit axis, at `(r, y, 0)`, is the matrix at `(r, y)`. -/
theorem addLast_apply {m c : Nat} (X : (⟨2, ![m, c]⟩ : Shape).Idx → α)
    (hc : (⟨2, ![m, c]⟩ : Shape).ShapeCasts ⟨3, ![m, c, 1]⟩) (r : Fin m) (y : Fin c) (z : Fin 1) :
    shapeCast ⟨3, ![m, c, 1]⟩ X hc (ix3 r y z) = X (ix2 r y) :=
  shapeCast_apply _ hc (ix3 r y z) (ix2 r y) (by
    have hz : z.val = 0 := by omega
    rw [Shape.rowMajor_val_three, Shape.rowMajor_val_two]
    show r.val * c + y.val = (r.val * c + y.val) * 1 + z.val
    omega)

/-- The rows of a 64-row matrix moved one row down, a single row put in on top: row 0 is the single row, row
    `r > 0` is row `r − 1` of the matrix. -/
theorem shiftDown_apply {c : Nat} (up : (⟨2, ![1, c]⟩ : Shape).Idx → α) (X : (⟨2, ![64, c]⟩ : Shape).Idx → α)
    (hs : (⟨2, ![64, c]⟩ : Shape).Slices ![0, 0] ⟨2, ![63, c]⟩)
    (hc : Shape.Concatenates [(⟨2, ![1, c]⟩ : Shape), ⟨2, ![63, c]⟩] ⟨2, ![64, c]⟩ 0) (r : Fin 64) (y : Fin c) :
    concatenate ⟨2, ![64, c]⟩ 0 [⟨⟨2, ![1, c]⟩, up⟩, ⟨⟨2, ![63, c]⟩, extractStridedSlice ⟨2, ![63, c]⟩ ![0, 0] X hs⟩] hc (ix2 r y)
      = if h : r.val = 0 then up (ix2 (0 : Fin 1) y) else X (ix2 ⟨r.val - 1, by have := r.isLt; omega⟩ y) := by
  have hr := r.isLt
  by_cases h : r.val = 0
  · rw [dif_pos h]
    exact concatenate_pair_apply_left (s₁ := ⟨2, ![1, c]⟩) (s₂ := ⟨2, ![63, c]⟩) (0 : Fin 2) up
      (extractStridedSlice ⟨2, ![63, c]⟩ ![0, 0] X hs) hc (ix2 r y) rfl (ix2 (0 : Fin 1) y) (fun b => by
      match b with
      | ⟨0, _⟩ => exact h.symm
      | ⟨1, _⟩ => rfl)
  · rw [dif_neg h]
    refine (concatenate_pair_apply_right (s₁ := ⟨2, ![1, c]⟩) (s₂ := ⟨2, ![63, c]⟩) (0 : Fin 2) up
      (extractStridedSlice ⟨2, ![63, c]⟩ ![0, 0] X hs) hc (ix2 r y) rfl rfl
      (ix2 (⟨r.val - 1, by omega⟩ : Fin 63) y) (fun b hb => by
        match b with
        | ⟨0, _⟩ => exact absurd rfl hb
        | ⟨1, _⟩ => rfl) (by show (r.val - 1) + 1 = r.val; omega)).trans ?_
    exact slice2_axis0_apply 0 X hs _ y _ (by show r.val - 1 = 0 + (r.val - 1); omega)

/-- The rows of a 64-row matrix moved one row up, a single row put in at the bottom: row 63 is the single row, row
    `r < 63` is row `r + 1` of the matrix. -/
theorem shiftUp_apply {c : Nat} (dn : (⟨2, ![1, c]⟩ : Shape).Idx → α) (X : (⟨2, ![64, c]⟩ : Shape).Idx → α)
    (hs : (⟨2, ![64, c]⟩ : Shape).Slices ![1, 0] ⟨2, ![63, c]⟩)
    (hc : Shape.Concatenates [(⟨2, ![63, c]⟩ : Shape), ⟨2, ![1, c]⟩] ⟨2, ![64, c]⟩ 0) (r : Fin 64) (y : Fin c) :
    concatenate ⟨2, ![64, c]⟩ 0 [⟨⟨2, ![63, c]⟩, extractStridedSlice ⟨2, ![63, c]⟩ ![1, 0] X hs⟩, ⟨⟨2, ![1, c]⟩, dn⟩] hc (ix2 r y)
      = if h : r.val = 63 then dn (ix2 (0 : Fin 1) y) else X (ix2 ⟨r.val + 1, by have := r.isLt; omega⟩ y) := by
  have hr := r.isLt
  by_cases h : r.val = 63
  · rw [dif_pos h]
    exact concatenate_pair_apply_right (s₁ := ⟨2, ![63, c]⟩) (s₂ := ⟨2, ![1, c]⟩) (0 : Fin 2)
      (extractStridedSlice ⟨2, ![63, c]⟩ ![1, 0] X hs) dn hc (ix2 r y) rfl rfl (ix2 (0 : Fin 1) y) (fun b hb => by
        match b with
        | ⟨0, _⟩ => exact absurd rfl hb
        | ⟨1, _⟩ => rfl) (by show 0 + 63 = r.val; omega)
  · rw [dif_neg h]
    refine (concatenate_pair_apply_left (s₁ := ⟨2, ![63, c]⟩) (s₂ := ⟨2, ![1, c]⟩) (0 : Fin 2)
      (extractStridedSlice ⟨2, ![63, c]⟩ ![1, 0] X hs) dn hc (ix2 r y) rfl
      (ix2 (⟨r.val, by omega⟩ : Fin 63) y) (fun b => by
        match b with
        | ⟨0, _⟩ => rfl
        | ⟨1, _⟩ => rfl)).trans ?_
    exact slice2_axis0_apply 1 X hs _ y _ (by show r.val + 1 = 1 + r.val; omega)

/-- A rotation of a matrix along its 2048 columns by the amount `s` reads, at `(r, y)`, column `y − s` (around the
    end) of row `r`. -/
theorem rot_apply {m : Nat} (sb : BitVec 32) (s : Fin 2048) (hsb : sb.toNat = s.val)
    (X : (⟨2, ![m, 2048]⟩ : Shape).Idx → α) (h : (⟨2, ![m, 2048]⟩ : Shape).Rotates 1 none) (r : Fin m) (y : Fin 2048) :
    dynamicRotate 1 sb none X h (ix2 r y) = X (ix2 r (y - s)) :=
  dynamicRotate_apply (1 : Fin 2) sb X h (ix2 r y) (ix2 r (y - s)) (fun b => by
    match b with
    | ⟨0, _⟩ => rfl
    | ⟨1, _⟩ =>
      show (y - s).val = (y.val + 2048 - sb.toNat % 2048) % 2048
      have hy := y.isLt; have hs := s.isLt
      rw [Fin.coe_sub, hsb]; omega)

/-- The choice by the bit of "the mask word is not zero" is the choice by that proposition. -/
theorem select_ne_zero (x : BitVec 32) (a b : α) :
    Scalar.select (IntOp.cmpi .ne x 0#32) a b = if x ≠ 0#32 then a else b := by
  by_cases h : x ≠ 0#32
  · rw [if_pos h, IntOp.cmpi_ne.mpr h]; exact select_one a b
  · rw [if_neg h, eq_zero_of_ne_one (fun e => h (IntOp.cmpi_ne.mp e))]; exact select_zero a b

end Cert.KernelIdeal.Hand.Lay

end
-- ==== Proof.KValStar.lean ====
/-
  The collided populations the kernel's body computes, read at a cell.

  Each of the nine populations of the 64 rows, and the three populations each of the row above and the row below
  that the streaming step needs, is a chain of pointwise operations over channels of the loaded blocks; at a cell
  it is the collision formula `cStar` of the cell's four numbers: the same operations in the same order, the
  lattice velocity's components and the weight being the constants the chain multiplies by, and the named relaxation
  factor denoting 1/τ.
-/
import proofs.«140047_j18760417149386_2_alg».proof.Proof.KValSpec
import proofs.«140047_j18760417149386_2_alg».proof.Proof.KValLay
import Idealize.ShloMosaic.PureOps.IdealRules

noncomputable section

namespace Cert.KernelIdeal.Hand

open Idealize.ShloMosaic Idealize.ShloMosaic.ValueIdx Idealize.SL.Sem Cert.KernelIdeal Cert.KernelIdeal.Gen

variable (B : Blocks Ideal)

theorem hz3 : (![0, 0, 0] : Fin 3 → Nat) = fun _ => 0 := by funext a; fin_cases a <;> rfl
theorem hz2 : (![0, 0] : Fin 2 → Nat) = fun _ => 0 := by funext a; fin_cases a <;> rfl

/-! ## The loads read the blocks -/

theorem v0_eq : v0 B = B.f := View.ld_unit_zero hz3 _ _
theorem v1_eq : v1 B = B.rho := View.ld_unit_zero hz2 _ _
theorem v2_eq : v2 B = B.u := View.ld_unit_zero hz3 _ _
theorem v407_eq : v407 B = B.obs := View.ld_unit_zero hz2 _ _
theorem v239_eq : v239 B = B.fUp := View.ld_unit_zero hz3 _ _
theorem v323_eq : v323 B = B.fDn := View.ld_unit_zero hz3 _ _
theorem v235_eq : v235 B = B.rhoUp := View.ld_unit_zero hz3 _ _
theorem v237_eq : v237 B = B.rhoDn := View.ld_unit_zero hz3 _ _
theorem v240_eq : v240 B = B.uUp := View.ld_unit_zero hz3 _ _
theorem v324_eq : v324 B = B.uDn := View.ld_unit_zero hz3 _ _

/-- The kernel's named relaxation factor denotes 1/τ. -/
theorem inv_tau_eq :
    Named.named (F := Ideal) Cert.KernelIdeal.κ "inv_tau" (φ := .f32) 0x3FD55555#32 = Cert.Lbm.invTau :=
  IdealRules.named_const.ideal_named_scalar _ _ _ _ rfl

/-! ## The nine collided populations of the 64 rows -/

theorem v34_apply (r : Fin 64) (y : Fin 2048) : v34 B (ix2 r y) = bStar B r y 0 := by
  have hf := Lay.chan_apply (0 : Fin 9) B.f slices_S64x2048x9_o0_0_0_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v34 bStar cStar
  rw [v0_eq, v1_eq, v2_eq, ← hf, ← h0, ← h1, ← inv_tau_eq]
  rfl

theorem v59_apply (r : Fin 64) (y : Fin 2048) : v59 B (ix2 r y) = bStar B r y 1 := by
  have hf := Lay.chan_apply (1 : Fin 9) B.f slices_S64x2048x9_o0_0_1_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v59 v9 v39 bStar cStar
  rw [v0_eq, v1_eq, v2_eq, ← hf, ← h0, ← h1, ← inv_tau_eq]
  rfl

theorem v84_apply (r : Fin 64) (y : Fin 2048) : v84 B (ix2 r y) = bStar B r y 2 := by
  have hf := Lay.chan_apply (2 : Fin 9) B.f slices_S64x2048x9_o0_0_2_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v84 v4 v6 v9 bStar cStar
  rw [v0_eq, v1_eq, v2_eq, ← hf, ← h0, ← h1, ← inv_tau_eq]
  rfl

theorem v109_apply (r : Fin 64) (y : Fin 2048) : v109 B (ix2 r y) = bStar B r y 3 := by
  have hf := Lay.chan_apply (3 : Fin 9) B.f slices_S64x2048x9_o0_0_3_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v109 v4 v6 v9 bStar cStar
  rw [v0_eq, v1_eq, v2_eq, ← hf, ← h0, ← h1, ← inv_tau_eq]
  rfl

theorem v134_apply (r : Fin 64) (y : Fin 2048) : v134 B (ix2 r y) = bStar B r y 4 := by
  have hf := Lay.chan_apply (4 : Fin 9) B.f slices_S64x2048x9_o0_0_4_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v134 v130 v131 v4 v6 v9 bStar cStar
  rw [v0_eq, v1_eq, v2_eq, ← hf, ← h0, ← h1, ← inv_tau_eq]
  rfl

theorem v159_apply (r : Fin 64) (y : Fin 2048) : v159 B (ix2 r y) = bStar B r y 5 := by
  have hf := Lay.chan_apply (5 : Fin 9) B.f slices_S64x2048x9_o0_0_5_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v159 v4 v6 v9 bStar cStar
  rw [v0_eq, v1_eq, v2_eq, ← hf, ← h0, ← h1, ← inv_tau_eq]
  rfl

theorem v184_apply (r : Fin 64) (y : Fin 2048) : v184 B (ix2 r y) = bStar B r y 6 := by
  have hf := Lay.chan_apply (6 : Fin 9) B.f slices_S64x2048x9_o0_0_6_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v184 v9 v166 v174 v4 v6 bStar cStar
  rw [v0_eq, v1_eq, v2_eq, ← hf, ← h0, ← h1, ← inv_tau_eq]
  rfl

theorem v209_apply (r : Fin 64) (y : Fin 2048) : v209 B (ix2 r y) = bStar B r y 7 := by
  have hf := Lay.chan_apply (7 : Fin 9) B.f slices_S64x2048x9_o0_0_7_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v209 v4 v6 v9 bStar cStar
  rw [v0_eq, v1_eq, v2_eq, ← hf, ← h0, ← h1, ← inv_tau_eq]
  rfl

theorem v234_apply (r : Fin 64) (y : Fin 2048) : v234 B (ix2 r y) = bStar B r y 8 := by
  have hf := Lay.chan_apply (8 : Fin 9) B.f slices_S64x2048x9_o0_0_8_S64x2048x1 shapeCasts_S64x2048x1_S64x2048 r y
  have h0 := Lay.chan_apply (0 : Fin 2) B.u slices_S64x2048x2_o0_0_0_S64x2048x1 shapeCasts_S64x2048x1_S64x2048 r y
  have h1 := Lay.chan_apply (1 : Fin 2) B.u slices_S64x2048x2_o0_0_1_S64x2048x1 shapeCasts_S64x2048x1_S64x2048 r y
  unfold v234 v9 v214 v216 v220 v4 v6 bStar cStar
  rw [v0_eq, v1_eq, v2_eq, ← hf, ← h0, ← h1, ← inv_tau_eq]
  rfl

/-! ## The populations of the row above (directions 1, 5, 8) and of the row below (directions 3, 6, 7) -/

theorem v272_apply (y : Fin 2048) : v272 B (ix2 (0 : Fin 1) y) = bStarUp B y 1 := by
  have hf := Lay.chan_apply (1 : Fin 9) B.fUp slices_S1x2048x9_o0_0_1_S1x2048x1 shapeCasts_S1x2048x1_S1x2048 (0 : Fin 1) y
  have hr := Lay.dropLast_apply B.rhoUp shapeCasts_S1x2048x1_S1x2048 (0 : Fin 1) y
  have h0 := Lay.chan_apply (0 : Fin 2) B.uUp slices_S1x2048x2_o0_0_0_S1x2048x1 shapeCasts_S1x2048x1_S1x2048 (0 : Fin 1) y
  have h1 := Lay.chan_apply (1 : Fin 2) B.uUp slices_S1x2048x2_o0_0_1_S1x2048x1 shapeCasts_S1x2048x1_S1x2048 (0 : Fin 1) y
  unfold v272 v247 v252 v254 v258 v260 bStarUp cStar
  rw [v239_eq, v235_eq, v240_eq, ← hf, ← hr, ← h0, ← h1, ← inv_tau_eq]
  rfl

theorem v297_apply (y : Fin 2048) : v297 B (ix2 (0 : Fin 1) y) = bStarUp B y 5 := by
  have hf := Lay.chan_apply (5 : Fin 9) B.fUp slices_S1x2048x9_o0_0_5_S1x2048x1 shapeCasts_S1x2048x1_S1x2048 (0 : Fin 1) y
  have hr := Lay.dropLast_apply B.rhoUp shapeCasts_S1x2048x1_S1x2048 (0 : Fin 1) y
  have h0 := Lay.chan_apply (0 : Fin 2) B.uUp slices_S1x2048x2_o0_0_0_S1x2048x1 shapeCasts_S1x2048x1_S1x2048 (0 : Fin 1) y
  have h1 := Lay.chan_apply (1 : Fin 2) B.uUp slices_S1x2048x2_o0_0_1_S1x2048x1 shapeCasts_S1x2048x1_S1x2048 (0 : Fin 1) y
  unfold v297 v236 v242 v244 v247 bStarUp cStar
  rw [v239_eq, v235_eq, v240_eq, ← hf, ← hr, ← h0, ← h1, ← inv_tau_eq]
  rfl

theorem v322_apply (y : Fin 2048) : v322 B (ix2 (0 : Fin 1) y) = bStarUp B y 8 := by
  have hf := Lay.chan_apply (8 : Fin 9) B.fUp slices_S1x2048x9_o0_0_8_S1x2048x1 shapeCasts_S1x2048x1_S1x2048 (0 : Fin 1) y
  have hr := Lay.dropLast_apply B.rhoUp shapeCasts_S1x2048x1_S1x2048 (0 : Fin 1) y
  have h0 := Lay.chan_apply (0 : Fin 2) B.uUp slices_S1x2048x2_o0_0_0_S1x2048x1 shapeCasts_S1x2048x1_S1x2048 (0 : Fin 1) y
  have h1 := Lay.chan_apply (1 : Fin 2) B.uUp slices_S1x2048x2_o0_0_1_S1x2048x1 shapeCasts_S1x2048x1_S1x2048 (0 : Fin 1) y
  unfold v322 v247 v302 v304 v306 v236 v242 v244 bStarUp cStar
  rw [v239_eq, v235_eq, v240_eq, ← hf, ← hr, ← h0, ← h1, ← inv_tau_eq]
  rfl

theorem v356_apply (y : Fin 2048) : v356 B (ix2 (0 : Fin 1) y) = bStarDn B y 3 := by
  have hf := Lay.chan_apply (3 : Fin 9) B.fDn slices_S1x2048x9_o0_0_3_S1x2048x1 shapeCasts_S1x2048x1_S1x2048 (0 : Fin 1) y
  have hr := Lay.dropLast_apply B.rhoDn shapeCasts_S1x2048x1_S1x2048 (0 : Fin 1) y
  have h0 := Lay.chan_apply (0 : Fin 2) B.uDn slices_S1x2048x2_o0_0_0_S1x2048x1 shapeCasts_S1x2048x1_S1x2048 (0 : Fin 1) y
  have h1 := Lay.chan_apply (1 : Fin 2) B.uDn slices_S1x2048x2_o0_0_1_S1x2048x1 shapeCasts_S1x2048x1_S1x2048 (0 : Fin 1) y
  unfold v356 v338 v349 v238 bStarDn cStar
  rw [v323_eq, v237_eq, v324_eq, ← hf, ← hr, ← h0, ← h1, ← inv_tau_eq]
  rfl

theorem v381_apply (y : Fin 2048) : v381 B (ix2 (0 : Fin 1) y) = bStarDn B y 6 := by
  have hf := Lay.chan_apply (6 : Fin 9) B.fDn slices_S1x2048x9_o0_0_6_S1x2048x1 shapeCasts_S1x2048x1_S1x2048 (0 : Fin 1) y
  have hr := Lay.dropLast_apply B.rhoDn shapeCasts_S1x2048x1_S1x2048 (0 : Fin 1) y
  have h0 := Lay.chan_apply (0 : Fin 2) B.uDn slices_S1x2048x2_o0_0_0_S1x2048x1 shapeCasts_S1x2048x1_S1x2048 (0 : Fin 1) y
  have h1 := Lay.chan_apply (1 : Fin 2) B.uDn slices_S1x2048x2_o0_0_1_S1x2048x1 shapeCasts_S1x2048x1_S1x2048 (0 : Fin 1) y
  unfold v381 v238 v326 v328 v331 bStarDn cStar
  rw [v323_eq, v237_eq, v324_eq, ← hf, ← hr, ← h0, ← h1, ← inv_tau_eq]
  rfl

theorem v406_apply (y : Fin 2048) : v406 B (ix2 (0 : Fin 1) y) = bStarDn B y 7 := by
  have hf := Lay.chan_apply (7 : Fin 9) B.fDn slices_S1x2048x9_o0_0_7_S1x2048x1 shapeCasts_S1x2048x1_S1x2048 (0 : Fin 1) y
  have hr := Lay.dropLast_apply B.rhoDn shapeCasts_S1x2048x1_S1x2048 (0 : Fin 1) y
  have h0 := Lay.chan_apply (0 : Fin 2) B.uDn slices_S1x2048x2_o0_0_0_S1x2048x1 shapeCasts_S1x2048x1_S1x2048 (0 : Fin 1) y
  have h1 := Lay.chan_apply (1 : Fin 2) B.uDn slices_S1x2048x2_o0_0_1_S1x2048x1 shapeCasts_S1x2048x1_S1x2048 (0 : Fin 1) y
  unfold v406 v331 v386 v388 v392 v394 v326 v328 v238 bStarDn cStar
  rw [v323_eq, v237_eq, v324_eq, ← hf, ← hr, ← h0, ← h1, ← inv_tau_eq]
  rfl

end Cert.KernelIdeal.Hand

end
-- ==== Proof.KValNew.lean ====
/-
  The nine new populations the kernel's body stores, read at a cell.

  The streamed source of a direction is the collided population one step against its lattice velocity: the 64 rows
  moved one row down or up with the single row from outside the block put in at the free end, then rotated along
  the columns; the mask chooses between it and the cell's own collided population of the opposite direction.
-/
import proofs.«140047_j18760417149386_2_alg».proof.Proof.KValSpec
import proofs.«140047_j18760417149386_2_alg».proof.Proof.KValLay
import proofs.«140047_j18760417149386_2_alg».proof.Proof.KValStar

noncomputable section

namespace Cert.KernelIdeal.Hand

open Idealize.ShloMosaic Idealize.ShloMosaic.ValueIdx Idealize.SL.Sem Cert.KernelIdeal Cert.KernelIdeal.Gen

variable (B : Blocks Ideal)

/-! ## The streamed source, case by case -/

theorem bSrc_of_same (r : Fin 64) (y : Fin 2048) (q : Fin 9) (h1 : Cert.Lbm.sx q ≠ 1) (h2 : Cert.Lbm.sx q ≠ 2047) :
    bSrc B r y q = bStar B r (y - Cert.Lbm.sy q) q := by
  unfold bSrc; rw [if_neg h1, if_neg h2]

theorem bSrc_of_up (r : Fin 64) (y : Fin 2048) (q : Fin 9) (h1 : Cert.Lbm.sx q = 1) :
    bSrc B r y q = bRowUp B r (y - Cert.Lbm.sy q) q := by
  unfold bSrc; rw [if_pos h1]

theorem bSrc_of_dn (r : Fin 64) (y : Fin 2048) (q : Fin 9) (h1 : Cert.Lbm.sx q ≠ 1) (h2 : Cert.Lbm.sx q = 2047) :
    bSrc B r y q = bRowDn B r (y - Cert.Lbm.sy q) q := by
  unfold bSrc; rw [if_neg h1, if_pos h2]

/-- The 64 rows of a direction's collided population moved one row down, the row above put in on top. -/
theorem rowUp_apply (q : Fin 9) (up : FVec Ideal S1x2048 .f32) (X : FVec Ideal S64x2048 .f32)
    (hup : ∀ y, up (ix2 (0 : Fin 1) y) = bStarUp B y q) (hX : ∀ r y, X (ix2 r y) = bStar B r y q)
    (r : Fin 64) (y : Fin 2048) :
    concatenate S64x2048 0 [⟨S1x2048, up⟩, ⟨S63x2048, extractStridedSlice S63x2048 ![0, 0] X slices_S64x2048_o0_0_S63x2048⟩]
        concatenates_S1x2048_S63x2048_S64x2048_d0 (ix2 r y) = bRowUp B r y q := by
  refine (Lay.shiftDown_apply up X _ _ r y).trans ?_
  unfold bRowUp
  by_cases h : r.val = 0
  · rw [dif_pos h, dif_pos h]; exact hup y
  · rw [dif_neg h, dif_neg h]; exact hX _ y

/-- The 64 rows of a direction's collided population moved one row up, the row below put in at the bottom. -/
theorem rowDn_apply (q : Fin 9) (dn : FVec Ideal S1x2048 .f32) (X : FVec Ideal S64x2048 .f32)
    (hdn : ∀ y, dn (ix2 (0 : Fin 1) y) = bStarDn B y q) (hX : ∀ r y, X (ix2 r y) = bStar B r y q)
    (r : Fin 64) (y : Fin 2048) :
    concatenate S64x2048 0 [⟨S63x2048, extractStridedSlice S63x2048 ![1, 0] X slices_S64x2048_o1_0_S63x2048⟩, ⟨S1x2048, dn⟩]
        concatenates_S63x2048_S1x2048_S64x2048_d0 (ix2 r y) = bRowDn B r y q := by
  refine (Lay.shiftUp_apply dn X _ _ r y).trans ?_
  unfold bRowDn
  by_cases h : r.val = 63
  · rw [dif_pos h, dif_pos h]; exact hdn y
  · rw [dif_neg h, dif_neg h]; exact hX _ y

/-- The choice by the mask between the bounced-back and the streamed population. -/
theorem new_apply (q : Fin 9) (bb src : FVec Ideal S64x2048 .f32) (r : Fin 64) (y : Fin 2048)
    (hbb : bb (ix2 r y) = bStar B r y (Cert.Lbm.opp q)) (hsrc : src (ix2 r y) = bSrc B r y q) :
    select (v408 B) bb src (ix2 r y) = bNew B r y q := by
  refine (Lay.select_ne_zero (v407 B (ix2 r y)) _ _).trans ?_
  unfold bNew
  rw [v407_eq, hbb, hsrc]

/-! ## The nine new populations as matrices -/

def n0 : FVec Ideal S64x2048 .f32 := k0_pay55 (v34 B) (v407 B)
def n1 : FVec Ideal S64x2048 .f32 := k0_pay57 (v59 B) (v109 B) (v272 B) (v407 B)
def n2 : FVec Ideal S64x2048 .f32 := k0_pay60 (v84 B) (v134 B) (v407 B)
def n3 : FVec Ideal S64x2048 .f32 := k0_pay63 (v59 B) (v109 B) (v356 B) (v408 B)
def n4 : FVec Ideal S64x2048 .f32 := k0_pay65 (v84 B) (v134 B) (v408 B)
def n5 : FVec Ideal S64x2048 .f32 := k0_pay67 (v159 B) (v209 B) (v297 B) (v408 B)
def n6 : FVec Ideal S64x2048 .f32 := v472 B
def n7 : FVec Ideal S64x2048 .f32 := k0_pay74 (v159 B) (v209 B) (v406 B) (v408 B)
def n8 : FVec Ideal S64x2048 .f32 := k0_pay76 (v184 B) (v234 B) (v322 B) (v408 B)

theorem n0_apply (r : Fin 64) (y : Fin 2048) : n0 B (ix2 r y) = bNew B r y 0 := by
  refine new_apply B 0 (v34 B) (v34 B) r y (v34_apply B r y) ?_
  rw [bSrc_of_same B r y 0 (by decide) (by decide), show Cert.Lbm.sy 0 = 0 from rfl, sub_zero]
  exact v34_apply B r y

theorem n1_apply (r : Fin 64) (y : Fin 2048) : n1 B (ix2 r y) = bNew B r y 1 := by
  refine new_apply B 1 (v109 B) _ r y (v109_apply B r y) ?_
  rw [bSrc_of_up B r y 1 (by decide), show Cert.Lbm.sy 1 = 0 from rfl, sub_zero]
  exact rowUp_apply B 1 (v272 B) (v59 B) (v272_apply B) (v59_apply B) r y

theorem n2_apply (r : Fin 64) (y : Fin 2048) : n2 B (ix2 r y) = bNew B r y 2 := by
  refine new_apply B 2 (v134 B) _ r y (v134_apply B r y) ?_
  rw [bSrc_of_same B r y 2 (by decide) (by decide)]
  refine (Lay.rot_apply 1#32 (Cert.Lbm.sy 2) rfl (v84 B) _ r y).trans ?_
  exact v84_apply B r _

theorem n3_apply (r : Fin 64) (y : Fin 2048) : n3 B (ix2 r y) = bNew B r y 3 := by
  refine new_apply B 3 (v59 B) _ r y (v59_apply B r y) ?_
  rw [bSrc_of_dn B r y 3 (by decide) (by decide), show Cert.Lbm.sy 3 = 0 from rfl, sub_zero]
  exact rowDn_apply B 3 (v356 B) (v109 B) (v356_apply B) (v109_apply B) r y

theorem n4_apply (r : Fin 64) (y : Fin 2048) : n4 B (ix2 r y) = bNew B r y 4 := by
  refine new_apply B 4 (v84 B) _ r y (v84_apply B r y) ?_
  rw [bSrc_of_same B r y 4 (by decide) (by decide)]
  refine (Lay.rot_apply 2047#32 (Cert.Lbm.sy 4) rfl (v134 B) _ r y).trans ?_
  exact v134_apply B r _

theorem n5_apply (r : Fin 64) (y : Fin 2048) : n5 B (ix2 r y) = bNew B r y 5 := by
  refine new_apply B 5 (v209 B) _ r y (v209_apply B r y) ?_
  rw [bSrc_of_up B r y 5 (by decide)]
  refine (Lay.rot_apply 1#32 (Cert.Lbm.sy 5) rfl _ _ r y).trans ?_
  exact rowUp_apply B 5 (v297 B) (v159 B) (v297_apply B) (v159_apply B) r _

theorem n6_apply (r : Fin 64) (y : Fin 2048) : n6 B (ix2 r y) = bNew B r y 6 := by
  refine new_apply B 6 (v234 B) _ r y (v234_apply B r y) ?_
  rw [bSrc_of_dn B r y 6 (by decide) (by decide)]
  refine (Lay.rot_apply 1#32 (Cert.Lbm.sy 6) rfl _ _ r y).trans ?_
  exact rowDn_apply B 6 (v381 B) (v184 B) (v381_apply B) (v184_apply B) r _

theorem n7_apply (r : Fin 64) (y : Fin 2048) : n7 B (ix2 r y) = bNew B r y 7 := by
  refine new_apply B 7 (v159 B) _ r y (v159_apply B r y) ?_
  rw [bSrc_of_dn B r y 7 (by decide) (by decide)]
  refine (Lay.rot_apply 2047#32 (Cert.Lbm.sy 7) rfl _ _ r y).trans ?_
  exact rowDn_apply B 7 (v406 B) (v209 B) (v406_apply B) (v209_apply B) r _

theorem n8_apply (r : Fin 64) (y : Fin 2048) : n8 B (ix2 r y) = bNew B r y 8 := by
  refine new_apply B 8 (v184 B) _ r y (v184_apply B r y) ?_
  rw [bSrc_of_up B r y 8 (by decide)]
  refine (Lay.rot_apply 2047#32 (Cert.Lbm.sy 8) rfl _ _ r y).trans ?_
  exact rowUp_apply B 8 (v322 B) (v234 B) (v322_apply B) (v234_apply B) r _

end Cert.KernelIdeal.Hand

end
-- ==== Proof.KValSum.lean ====
/-
  The running sums of the kernel's body, read at a cell: the new density and the two components of the new
  momentum.

  The body adds the nine new populations one by one to a zero vector, and for a momentum component adds only the
  populations whose lattice velocity has that component, each times +1 or −1. The specification sums over all nine
  directions, each term times the velocity's component: the terms the body leaves out are the products by zero.
-/
import proofs.«140047_j18760417149386_2_alg».proof.Proof.KValSpec
import proofs.«140047_j18760417149386_2_alg».proof.Proof.KValLay
import proofs.«140047_j18760417149386_2_alg».proof.Proof.KValNew
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

variable (B : Blocks Ideal)

/-- A sum over the nine directions, written out. -/
theorem sum9 (g : Fin 9 → EReal) : ∑ q : Fin 9, g q = g 0 + g 1 + g 2 + g 3 + g 4 + g 5 + g 6 + g 7 + g 8 := by
  rw [Fin.sum_univ_castSucc, Fin.sum_univ_eight]; rfl

/-- A lattice velocity's component whose word is the zero word is zero. -/
theorem e_zero (q : Fin 9) (d : Fin 2) (h : Cert.Lbm.eWord q d = 0x00000000#32) : Cert.Lbm.e q d = 0 := by
  unfold Cert.Lbm.e; rw [h]; exact Ideal.ofBits_zero_f32

theorem v504_apply (r : Fin 64) (y : Fin 2048) : v504 B (ix2 r y) = bRho B r y := by
  have e : v504 B (ix2 r y) = Ideal.ofBits .f32 0x00000000#32 + n0 B (ix2 r y) + n1 B (ix2 r y) + n2 B (ix2 r y)
      + n3 B (ix2 r y) + n4 B (ix2 r y) + n5 B (ix2 r y) + n6 B (ix2 r y) + n7 B (ix2 r y) + n8 B (ix2 r y) := rfl
  rw [e, n0_apply, n1_apply, n2_apply, n3_apply, n4_apply, n5_apply, n6_apply, n7_apply, n8_apply,
    Ideal.ofBits_zero_f32, zero_add]
  unfold bRho
  rw [sum9]

theorem v507_apply (r : Fin 64) (y : Fin 2048) : v507 B (ix2 r y) = bMom B 0 r y := by
  have e : v507 B (ix2 r y) = Ideal.ofBits .f32 0x00000000#32
      + n1 B (ix2 r y) * Ideal.ofBits .f32 0x3F800000#32 + n3 B (ix2 r y) * Ideal.ofBits .f32 0xBF800000#32
      + n5 B (ix2 r y) * Ideal.ofBits .f32 0x3F800000#32 + n6 B (ix2 r y) * Ideal.ofBits .f32 0xBF800000#32
      + n7 B (ix2 r y) * Ideal.ofBits .f32 0xBF800000#32 + n8 B (ix2 r y) * Ideal.ofBits .f32 0x3F800000#32 := rfl
  rw [e, n1_apply, n3_apply, n5_apply, n6_apply, n7_apply, n8_apply, Ideal.ofBits_zero_f32, zero_add]
  unfold bMom
  rw [sum9, e_zero 0 0 rfl, e_zero 2 0 rfl, e_zero 4 0 rfl]
  simp only [mul_zero, zero_add, add_zero]
  rfl

theorem v510_apply (r : Fin 64) (y : Fin 2048) : v510 B (ix2 r y) = bMom B 1 r y := by
  have e : v510 B (ix2 r y) = Ideal.ofBits .f32 0x00000000#32
      + n2 B (ix2 r y) * Ideal.ofBits .f32 0x3F800000#32 + n4 B (ix2 r y) * Ideal.ofBits .f32 0xBF800000#32
      + n5 B (ix2 r y) * Ideal.ofBits .f32 0x3F800000#32 + n6 B (ix2 r y) * Ideal.ofBits .f32 0x3F800000#32
      + n7 B (ix2 r y) * Ideal.ofBits .f32 0xBF800000#32 + n8 B (ix2 r y) * Ideal.ofBits .f32 0xBF800000#32 := rfl
  rw [e, n2_apply, n4_apply, n5_apply, n6_apply, n7_apply, n8_apply, Ideal.ofBits_zero_f32, zero_add]
  unfold bMom
  rw [sum9, e_zero 0 1 rfl, e_zero 1 1 rfl, e_zero 3 1 rfl]
  simp only [mul_zero, zero_add, add_zero]
  rfl

end Cert.KernelIdeal.Hand

end
-- ==== Proof.KValOut.lean ====
/-
  The output block of one grid point, read at a cell and a channel.

  The body stores each of the twelve channels once, through the rectangle that selects that channel of the whole
  block, so the block it leaves is one function of the index: channel `k` at `(r, y)` is the `k`-th of the nine
  new populations, the new density, and the two components of momentum over density.
-/
import proofs.«140047_j18760417149386_2_alg».proof.Proof.KValSpec
import proofs.«140047_j18760417149386_2_alg».proof.Proof.KValLay
import proofs.«140047_j18760417149386_2_alg».proof.Proof.KValSum
import Idealize.ShloMosaic.Lib.Ring
import Idealize.ShloMosaic.Lib.Tactic

noncomputable section

namespace Cert.KernelIdeal.Hand

open Idealize.ShloMosaic Idealize.ShloMosaic.Tactic Idealize.ShloMosaic.ValueIdx Idealize.SL.Sem Cert.KernelIdeal Cert.KernelIdeal.Gen

variable (B : Blocks Ideal)

/-! ## The twelve stored channels -/

theorem ch0_apply (r : Fin 64) (y : Fin 2048) (z : Fin 1) : ch0 B (ix3 r y z) = bNew B r y 0 :=
  (Lay.addLast_apply (n0 B) shapeCasts_S64x2048_S64x2048x1 r y z).trans (n0_apply B r y)

theorem ch1_apply (r : Fin 64) (y : Fin 2048) (z : Fin 1) : ch1 B (ix3 r y z) = bNew B r y 1 :=
  (Lay.addLast_apply (n1 B) shapeCasts_S64x2048_S64x2048x1 r y z).trans (n1_apply B r y)

theorem ch2_apply (r : Fin 64) (y : Fin 2048) (z : Fin 1) : ch2 B (ix3 r y z) = bNew B r y 2 :=
  (Lay.addLast_apply (n2 B) shapeCasts_S64x2048_S64x2048x1 r y z).trans (n2_apply B r y)

theorem ch3_apply (r : Fin 64) (y : Fin 2048) (z : Fin 1) : ch3 B (ix3 r y z) = bNew B r y 3 :=
  (Lay.addLast_apply (n3 B) shapeCasts_S64x2048_S64x2048x1 r y z).trans (n3_apply B r y)

theorem ch4_apply (r : Fin 64) (y : Fin 2048) (z : Fin 1) : ch4 B (ix3 r y z) = bNew B r y 4 :=
  (Lay.addLast_apply (n4 B) shapeCasts_S64x2048_S64x2048x1 r y z).trans (n4_apply B r y)

theorem ch5_apply (r : Fin 64) (y : Fin 2048) (z : Fin 1) : ch5 B (ix3 r y z) = bNew B r y 5 :=
  (Lay.addLast_apply (n5 B) shapeCasts_S64x2048_S64x2048x1 r y z).trans (n5_apply B r y)

theorem ch6_apply (r : Fin 64) (y : Fin 2048) (z : Fin 1) : ch6 B (ix3 r y z) = bNew B r y 6 :=
  (Lay.addLast_apply (n6 B) shapeCasts_S64x2048_S64x2048x1 r y z).trans (n6_apply B r y)

theorem ch7_apply (r : Fin 64) (y : Fin 2048) (z : Fin 1) : ch7 B (ix3 r y z) = bNew B r y 7 :=
  (Lay.addLast_apply (n7 B) shapeCasts_S64x2048_S64x2048x1 r y z).trans (n7_apply B r y)

theorem ch8_apply (r : Fin 64) (y : Fin 2048) (z : Fin 1) : ch8 B (ix3 r y z) = bNew B r y 8 :=
  (Lay.addLast_apply (n8 B) shapeCasts_S64x2048_S64x2048x1 r y z).trans (n8_apply B r y)

theorem ch9_apply (r : Fin 64) (y : Fin 2048) (z : Fin 1) : ch9 B (ix3 r y z) = bRho B r y :=
  (Lay.addLast_apply (v504 B) shapeCasts_S64x2048_S64x2048x1 r y z).trans (v504_apply B r y)

theorem ch10_apply (r : Fin 64) (y : Fin 2048) (z : Fin 1) :
    ch10 B (ix3 r y z) = Ideal.div (bMom B 0 r y) (bRho B r y) := by
  refine (Lay.addLast_apply (divf (v507 B) (v504 B)) shapeCasts_S64x2048_S64x2048x1 r y z).trans ?_
  rw [divf_apply, v507_apply, v504_apply]

theorem ch11_apply (r : Fin 64) (y : Fin 2048) (z : Fin 1) :
    ch11 B (ix3 r y z) = Ideal.div (bMom B 1 r y) (bRho B r y) := by
  refine (Lay.addLast_apply (divf (v510 B) (v504 B)) shapeCasts_S64x2048_S64x2048x1 r y z).trans ?_
  rw [divf_apply, v510_apply, v504_apply]

/-! ## The specification's case split at each channel -/

theorem bAt_lt (r : Fin 64) (y : Fin 2048) (k : Fin 12) (h : k.val < 9) : bAt B r y k = bNew B r y ⟨k.val, h⟩ := by
  unfold bAt; rw [dif_pos h]

theorem bAt_9 (r : Fin 64) (y : Fin 2048) : bAt B r y 9 = bRho B r y := by
  unfold bAt; rw [dif_neg (by decide), if_pos (by decide)]

theorem bAt_10 (r : Fin 64) (y : Fin 2048) : bAt B r y 10 = Ideal.div (bMom B 0 r y) (bRho B r y) := by
  unfold bAt; rw [dif_neg (by decide), if_neg (by decide), if_pos (by decide)]

theorem bAt_11 (r : Fin 64) (y : Fin 2048) : bAt B r y 11 = Ideal.div (bMom B 1 r y) (bRho B r y) := by
  unfold bAt; rw [dif_neg (by decide), if_neg (by decide), if_neg (by decide)]

/-! ## The block as one function of the index -/

/-- The output block as a function of its index. -/
def Gout : S64x2048x12.Idx → Elt Ideal .f32 := fun i => bAt B (i 0) (i 1) (i 2)

/-- The rectangle of channel `k` places `(r, y, 0)` at `(r, y, k)`. -/
theorem emb_chan (k : Nat) (hk : k < 12) (inb : ∀ a, (![0, 0, k] : Fin 3 → Nat) a + S64x2048x1.size a ≤ S64x2048x12.size a)
    (r : Fin 64) (y : Fin 2048) (z : Fin 1) :
    (Rect.unit (s := S64x2048x12) ![0, 0, k] S64x2048x1.size inb).emb (ix3 r y z) = ix3 r y (⟨k, hk⟩ : Fin 12) := by
  funext a
  apply Fin.ext
  match a with
  | ⟨0, _⟩ => show 0 + 1 * r.val = r.val; omega
  | ⟨1, _⟩ => show 0 + 1 * y.val = y.val; omega
  | ⟨2, _⟩ => show k + 1 * z.val = k; have := z.isLt; omega

/-- A channel's slab that reads the specification's channel `k` at every cell is the block's function under the
    rectangle of channel `k`. -/
theorem piece_eq (k : Nat) (hk : k < 12) (inb : ∀ a, (![0, 0, k] : Fin 3 → Nat) a + S64x2048x1.size a ≤ S64x2048x12.size a)
    (c : FVec Ideal S64x2048x1 .f32) (hc : ∀ r y z, c (ix3 r y z) = bAt B r y (⟨k, hk⟩ : Fin 12)) :
    ∀ x : (Rect.unit (s := S64x2048x12) ![0, 0, k] S64x2048x1.size inb).shape.Idx,
      c x = Gout B ((Rect.unit (s := S64x2048x12) ![0, 0, k] S64x2048x1.size inb).emb x) := by
  intro x
  obtain ⟨r, y, z, rfl⟩ : ∃ (r : Fin 64) (y : Fin 2048) (z : Fin 1), x = ix3 r y z := ⟨x 0, x 1, x 2, eq_ix3 x⟩
  rw [emb_chan k hk inb r y z]
  exact hc r y z

/-- The twelve stores, last first. -/
def outL : List (View.Piece (Elt Ideal) S64x2048x12 .f32) :=
  [⟨rO11, ch11 B⟩, ⟨rO10, ch10 B⟩, ⟨rO9, ch9 B⟩, ⟨rO8, ch8 B⟩, ⟨rO7, ch7 B⟩, ⟨rO6, ch6 B⟩,
    ⟨rO5, ch5 B⟩, ⟨rO4, ch4 B⟩, ⟨rO3, ch3 B⟩, ⟨rO2, ch2 B⟩, ⟨rO1, ch1 B⟩, ⟨rO0, ch0 B⟩]

theorem out10_eq : out10 B = View.canon (outL B) := rfl

theorem outL_pieces : ∀ p ∈ outL B, ∀ x : p.1.shape.Idx, p.2 x = Gout B (p.1.emb x) := by
  intro p hp
  unfold outL at hp
  simp only [List.mem_cons, List.not_mem_nil, or_false] at hp
  rcases hp with rfl | rfl | rfl | rfl | rfl | rfl | rfl | rfl | rfl | rfl | rfl | rfl
  · exact piece_eq B 11 (by decide) inb_S64x2048x12_S64x2048x1_0_0_11 (ch11 B) (fun r y z => (ch11_apply B r y z).trans (bAt_11 B r y).symm)
  · exact piece_eq B 10 (by decide) inb_S64x2048x12_S64x2048x1_0_0_10 (ch10 B) (fun r y z => (ch10_apply B r y z).trans (bAt_10 B r y).symm)
  · exact piece_eq B 9 (by decide) inb_S64x2048x12_S64x2048x1_0_0_9 (ch9 B) (fun r y z => (ch9_apply B r y z).trans (bAt_9 B r y).symm)
  · exact piece_eq B 8 (by decide) inb_S64x2048x12_S64x2048x1_0_0_8 (ch8 B) (fun r y z => (ch8_apply B r y z).trans (bAt_lt B r y 8 (by decide)).symm)
  · exact piece_eq B 7 (by decide) inb_S64x2048x12_S64x2048x1_0_0_7 (ch7 B) (fun r y z => (ch7_apply B r y z).trans (bAt_lt B r y 7 (by decide)).symm)
  · exact piece_eq B 6 (by decide) inb_S64x2048x12_S64x2048x1_0_0_6 (ch6 B) (fun r y z => (ch6_apply B r y z).trans (bAt_lt B r y 6 (by decide)).symm)
  · exact piece_eq B 5 (by decide) inb_S64x2048x12_S64x2048x1_0_0_5 (ch5 B) (fun r y z => (ch5_apply B r y z).trans (bAt_lt B r y 5 (by decide)).symm)
  · exact piece_eq B 4 (by decide) inb_S64x2048x12_S64x2048x1_0_0_4 (ch4 B) (fun r y z => (ch4_apply B r y z).trans (bAt_lt B r y 4 (by decide)).symm)
  · exact piece_eq B 3 (by decide) inb_S64x2048x12_S64x2048x1_0_0_3 (ch3 B) (fun r y z => (ch3_apply B r y z).trans (bAt_lt B r y 3 (by decide)).symm)
  · exact piece_eq B 2 (by decide) inb_S64x2048x12_S64x2048x1_0_0_2 (ch2 B) (fun r y z => (ch2_apply B r y z).trans (bAt_lt B r y 2 (by decide)).symm)
  · exact piece_eq B 1 (by decide) inb_S64x2048x12_S64x2048x1_0_0_1 (ch1 B) (fun r y z => (ch1_apply B r y z).trans (bAt_lt B r y 1 (by decide)).symm)
  · exact piece_eq B 0 (by decide) inb_S64x2048x12_S64x2048x1_0_0_0 (ch0 B) (fun r y z => (ch0_apply B r y z).trans (bAt_lt B r y 0 (by decide)).symm)

/-- The twelve rectangles tile the block. -/
theorem outL_cover : ∀ i : S64x2048x12.Idx, ∃ p ∈ outL B, i ∈ p.1.set :=
  View.cover_of_tiledL (outL B) S64x2048x1.size (by sl_kernel_rfl)

/-- The output block at row `r`, column `y`, channel `k`. -/
theorem out10_apply (r : Fin 64) (y : Fin 2048) (k : Fin 12) : out10 B (ix3 r y k) = bAt B r y k := by
  rw [out10_eq]
  exact View.canon_apply_of_pieces (Gout B) (outL B) (outL_pieces B) (ix3 r y k) (outL_cover B (ix3 r y k))

end Cert.KernelIdeal.Hand

end
-- ==== Proof.LaunchDefs.lean ====
/-
  The proof data of the kernel's one pipelined region.

  The region stages eleven windows. Ten are inputs: 64 lattice rows of the populations, the density, the velocity
  and the widened obstacle mask, and for each of populations, density and velocity the single row above and the
  single row below those 64 rows. Several of them read the SAME array (the populations through three windows, the
  velocity through three, the broadcast density through two), so the full share of such an array is dealt among the
  windows on it: the first window takes the left half, the other two the halves of the right half (for two
  windows: the two halves). The eleventh window is the output; after the body it holds the canon of the twelve
  channel stores over the ten input blocks.
-/
import proofs.«140047_j18760417149386_2_alg».proof.Proof.Pieces
import proofs.«140047_j18760417149386_2_alg».proof.Proof.Gen.KernelIdeal.Launch
import proofs.«140047_j18760417149386_2_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F] [Named F]

variable (m : (ℓ : Loc nD τ sig) → Buf (Elt F) ℓ)

/-! ## The arrays when the region is entered -/

/-- Core `c`'s TensorCore buffers when the region is entered: the launch memory after the two host operations
    (the density broadcast to a trailing unit axis, the mask widened to 32-bit integers). -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ten input blocks of point `t`, bundled in window order. -/
def blocks (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t⟩

/-! ## The share each input window holds of its array -/

/-- The populations' array is read by windows 0, 4, 5, the velocity's by windows 2, 8, 9, the broadcast density's by
    windows 6, 7; the density's and the widened mask's by one window each. -/
def qW : Fin 11 → PosShare TreeShare
  | ⟨0, _⟩ => fullShare.left
  | ⟨1, _⟩ => fullShare
  | ⟨2, _⟩ => fullShare.left
  | ⟨3, _⟩ => fullShare
  | ⟨4, _⟩ => fullShare.right.left
  | ⟨5, _⟩ => fullShare.right.right
  | ⟨6, _⟩ => fullShare.left
  | ⟨7, _⟩ => fullShare.right
  | ⟨8, _⟩ => fullShare.right.left
  | ⟨9, _⟩ => fullShare.right.right
  | _ => fullShare

/-! ## The pipeline's proof data -/

/-- The proof data of the one pipeline on core `c`: the arrays as the region finds them (`V`); after the body at
    point `t` each input's buffer at its block and the output's at `out10` of the input blocks; the invariant the
    core's scoped buffers that are no staging buffer, each at some contents (the body touches none, and does not
    draw on the generator register); nothing owed; the shares `qW`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (blocks m c t)
  Φ _ := Pipeline.scopedRest spec0 c
  q := qW
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 (blocks m c t) := by dsimp only [dats]

/-- The shares, and that nothing is owed. -/
theorem q_eq (c : Dev nD) (w : Fin cfg0.W) : (dats m 0 c).q w = qW w := by dsimp only [dats]
theorem owed_eq (c : Dev nD) (t : Fin (cfg0.N + 1)) : (dats m 0 c).owed t = 0 := by dsimp only [dats]
theorem Φ_eq (c : Dev nD) (t : Fin (cfg0.N + 1)) : (dats m 0 c).Φ t = Pipeline.scopedRest spec0 c := by dsimp only [dats]

end Cert.KernelIdeal.Hand

end
-- ==== Proof.Launch.lean ====
/-
  The frame run of the kernel program: the host prefix, the one pipelined region around the body, and the frame.

  The program broadcasts the density to a trailing unit axis and widens the obstacle mask, then runs one
  pipelined region of 32 points over eleven windows. Given the body's triple as a hypothesis, this file proves the
  body obligation at every point (each input's staging buffer holds its block there, fetched or not), deals the
  full share of each array read through several windows among those windows, and concludes that every weakly fair
  execution terminates with every windowed array at what the proof data computes and the four argument arrays
  unchanged.
-/
import proofs.«140047_j18760417149386_2_alg».proof.Proof.LaunchDefs
import proofs.«140047_j18760417149386_2_alg».proof.Proof.BodySpec
import proofs.«140047_j18760417149386_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main up to the region: the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-! ## Each input's staging buffer holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so the body's triple applies; the invariant and
    the core's `owes` pass through unread. -/
theorem sound_body (hk : SoundKernel F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold blocks
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hk c Set.univ (grid0.coords t) _ _ _ _ _ _ _ _ _ _ _ _ _ _ _ _ _ _ _ _ _ _
    ⟨iblk m c 0 t, iblk m c 1 t, iblk m c 2 t, iblk m c 3 t, iblk m c 4 t, iblk m c 5 t, iblk m c 6 t, iblk m c 7 t, iblk m c 8 t, iblk m c 9 t⟩ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (hk : SoundKernel F) (c : Dev nD) : BodyObligation (dats (F := F) m 0 c) (defs₀ (F := F)) Variants.none () Set.univ := fun t => by
  rw [bigSep_W0, bigSep_W0]
  exact sound_body m hk c t

/-! ## The arrays at entry: each shared array's full share dealt among the windows on it -/

/-- The distinct buffers behind the windows' arrays, listed. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_v1) ↦{fullShare} V m c main_v1)
          ∗ (((c.tc : Thread nD τ).loc main_v0) ↦{fullShare} V m c main_v0)
          ∗ (((c.tc : Thread nD τ).loc main_v2) ↦{fullShare} V m c main_v2)) := by
  unfold Pipeline.arrBufs
  exact bigSep_eq_bigSepL_of_eq [main_arg0, main_arg1, main_arg2, main_v1, main_v0, main_v2] (by decide) (by decide) _

/-- One window's array as the proof data holds it at entry: the whole buffer behind it, at the window's share, at the
    region-entry contents. -/
theorem arr_at (c : Dev nD) (w : Fin cfg0.W) (q : PosShare TreeShare) (hq : (dats m 0 c).share w = q) :
    (((cfg0.win w).arr.view.loc (c.tc : Thread nD τ) ↦[(cfg0.win w).arr.view.set]{(dats m 0 c).share w} (dats m 0 c).arrAt w 0) : sProp 𝕄)
      = (((c.tc : Thread nD τ).loc (Pipeline.arrRef spec0 w)) ↦{q} V m c (Pipeline.arrRef spec0 w)) := by
  rw [(arr_whole0 w).set_eq_univ, hq]
  rw [show (dats m 0 c).arrAt w 0 = (dats m 0 c).A w from rfl, A_eq]

/-- An input window holds its array at the share `qW` names. -/
theorem share_in (c : Dev nD) (w : Fin cfg0.W) (hw : (cfg0.win w).isOut = false) : (dats m 0 c).share w = qW w := by
  unfold Dat.share
  rw [hw, q_eq]; rfl

/-- The output window holds its array at the full share. -/
theorem share_out (c : Dev nD) : (dats m 0 c).share 10 = fullShare := by
  unfold Dat.share
  rw [show (cfg0.win 10).isOut = true from rfl]; rfl

/-- The buffers behind the arrays, each whole at the full share at the region-entry contents, make up the proof data's
    windowed arrays at entry: the populations' full share is halved and its right half halved again for windows 0,
    4, 5, the velocity's likewise for windows 2, 8, 9, the broadcast density's is halved for windows 6, 7. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [show (Pipeline.arrBufs (Ix := Unit) (Name := ℕ) (U := UR sig nD τ) (Lvl := ℕ) (cfgs 0).spec c (V m c) : sProp 𝕄) = _ from arrBufs_eq m c]
  unfold Dat.arrays
  rw [bigSep_W0]
  rw [arr_at m c 0 _ (share_in m c 0 rfl), arr_at m c 1 _ (share_in m c 1 rfl), arr_at m c 2 _ (share_in m c 2 rfl),
    arr_at m c 3 _ (share_in m c 3 rfl), arr_at m c 4 _ (share_in m c 4 rfl), arr_at m c 5 _ (share_in m c 5 rfl),
    arr_at m c 6 _ (share_in m c 6 rfl), arr_at m c 7 _ (share_in m c 7 rfl), arr_at m c 8 _ (share_in m c 8 rfl),
    arr_at m c 9 _ (share_in m c 9 rfl), arr_at m c 10 _ (share_out m c)]
  iintro ⟨H0, H1, H2, H3, H4, H5⟩
  ihave H0 := (pointsTo_share (PosShare.mem_left_op_right fullShare)).1 $$ H0
  icases H0 with ⟨H0a, H0r⟩
  ihave H0r := (pointsTo_share (PosShare.mem_left_op_right fullShare.right)).1 $$ H0r
  icases H0r with ⟨H0b, H0c⟩
  ihave H2 := (pointsTo_share (PosShare.mem_left_op_right fullShare)).1 $$ H2
  icases H2 with ⟨H2a, H2r⟩
  ihave H2r := (pointsTo_share (PosShare.mem_left_op_right fullShare.right)).1 $$ H2r
  icases H2r with ⟨H2b, H2c⟩
  ihave H4 := (pointsTo_share (PosShare.mem_left_op_right fullShare)).1 $$ H4
  icases H4 with ⟨H4a, H4b⟩
  isplitl [H0a]; · iexact H0a
  isplitl [H1]; · iexact H1
  isplitl [H2a]; · iexact H2a
  isplitl [H3]; · iexact H3
  isplitl [H0b]; · iexact H0b
  isplitl [H0c]; · iexact H0c
  isplitl [H4a]; · iexact H4a
  isplitl [H4b]; · iexact H4b
  isplitl [H2b]; · iexact H2b
  isplitl [H2c]; · iexact H2c
  iexact H5

/-! ## The invariant at entry and exit -/

theorem hin (c : Dev nD) :
    (Pipeline.scopedRest (Ix := Unit) (Name := ℕ) (U := UR sig nD τ) (Lvl := ℕ) (Val := Elt F) (cfgs 0).spec c : sProp 𝕄) ⊢ (dats m 0 c).Φ 0 :=
  Entails.of_eq (Φ_eq m c 0).symm

theorem hout (c : Dev nD) :
    (dats m 0 c).Φ (Fin.last (cfgs 0).N) ⊢ (Pipeline.scopedRest (Ix := Unit) (Name := ℕ) (U := UR sig nD τ) (Lvl := ℕ) (Val := Elt F) (cfgs 0).spec c : sProp 𝕄) :=
  Entails.of_eq (Φ_eq m c _)

/-! ## The run and the frame -/

/-- The frame run's post read at the four argument arrays: the populations, the density and the velocity are windows'
    arrays (input windows 0, 1, 2: never written back, so as the region found them), the unwidened mask is no
    window's array and bypasses the region; the host prefix writes none of the four. -/
theorem kept_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main (hk : SoundKernel F) :
    θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m hk c).loose) (fun c t => owed_eq m c t)
    (V m) (hmain m Variants.none) (hsplit m) (hin m) (hout m)

/-- THE FRAME: the program runs and its four argument arrays end unchanged. -/
theorem frame (hk : SoundKernel F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_of_post m r h c) (run_main m ρ hk)

end Cert.KernelIdeal.Hand

end
-- ==== Proof.KGlobal.lean ====
/-
  From a block to the lattice.

  Grid point `t` (of 32) works on lattice rows 64·t … 64·t + 63; the row handed in above the block is lattice row
  64·t − 1 and the row below is lattice row 64·t + 64, both taken around the end of the periodic axis. When the ten
  blocks hold exactly those parts of the four arrays, what the block-local formulas give at row `r` of the block is
  what the whole-lattice specification gives at lattice row 64·t + r: stepping one row up or down inside the block is
  stepping one lattice row, and at the block's first and last row the step lands on the row handed in.
-/
import proofs.«140047_j18760417149386_2_alg».proof.Proof.KValSpec

noncomputable section

namespace Cert.KernelIdeal.Hand

open Idealize.ShloMosaic Idealize.ShloMosaic.ValueIdx Cert.KernelIdeal Cert.Lbm

/-- Lattice row of row `r` of grid point `t`'s block. -/
def rowOf (t : Fin 32) (r : Fin 64) : Fin 2048 := ⟨64 * t.val + r.val, by have := t.isLt; have := r.isLt; omega⟩
/-- The lattice row just above grid point `t`'s block, around the end. -/
def rowUp (t : Fin 32) : Fin 2048 := ⟨(t.val * 64 + 2047) % 2048, Nat.mod_lt _ (by norm_num)⟩
/-- The lattice row just below grid point `t`'s block, around the end. -/
def rowDn (t : Fin 32) : Fin 2048 := ⟨(t.val * 64 + 64) % 2048, Nat.mod_lt _ (by norm_num)⟩

theorem fin2048_sub_val (a b : Fin 2048) : (a - b).val = (2048 - b.val + a.val) % 2048 := Fin.sub_def a b ▸ rfl

theorem rowOf_sub_one_zero (t : Fin 32) (r : Fin 64) (h : r.val = 0) : rowOf t r - 1 = rowUp t := by
  apply Fin.ext
  rw [fin2048_sub_val]
  show (2048 - 1 + (64 * t.val + r.val)) % 2048 = (t.val * 64 + 2047) % 2048
  have := t.isLt
  omega

theorem rowOf_sub_one_pos (t : Fin 32) (r : Fin 64) (h : ¬ r.val = 0) :
    rowOf t r - 1 = rowOf t ⟨r.val - 1, by have := r.isLt; omega⟩ := by
  apply Fin.ext
  rw [fin2048_sub_val]
  show (2048 - 1 + (64 * t.val + r.val)) % 2048 = 64 * t.val + (r.val - 1)
  have := t.isLt; have := r.isLt
  omega

theorem rowOf_sub_neg_last (t : Fin 32) (r : Fin 64) (h : r.val = 63) : rowOf t r - 2047 = rowDn t := by
  apply Fin.ext
  rw [fin2048_sub_val]
  show (2048 - 2047 + (64 * t.val + r.val)) % 2048 = (t.val * 64 + 64) % 2048
  have := t.isLt
  omega

theorem rowOf_sub_neg_inner (t : Fin 32) (r : Fin 64) (h : ¬ r.val = 63) :
    rowOf t r - 2047 = rowOf t ⟨r.val + 1, by have := r.isLt; omega⟩ := by
  apply Fin.ext
  rw [fin2048_sub_val]
  show (2048 - 2047 + (64 * t.val + r.val)) % 2048 = 64 * t.val + (r.val + 1)
  have := t.isLt; have := r.isLt
  omega

theorem fin2048_sub_zero (a : Fin 2048) : a - 0 = a := by
  apply Fin.ext
  rw [fin2048_sub_val]
  show (2048 - 0 + a.val) % 2048 = a.val
  have := a.isLt
  omega

section
variable (B : Blocks Ideal) (f : SF.Idx → EReal) (rho : SR.Idx → EReal) (u : SU.Idx → EReal) (solid : SR.Idx → BitVec 1)
  (t : Fin 32)

/-- The ten blocks are the parts of the four arrays that grid point `t` is handed. -/
structure Restricts : Prop where
  hf : ∀ (r : Fin 64) (y : Fin 2048) (q : Fin 9), B.f (ix3 r y q) = f (ix3 (rowOf t r) y q)
  hrho : ∀ (r : Fin 64) (y : Fin 2048), B.rho (ix2 r y) = rho (ix2 (rowOf t r) y)
  hu : ∀ (r : Fin 64) (y : Fin 2048) (d : Fin 2), B.u (ix3 r y d) = u (ix3 (rowOf t r) y d)
  hobs : ∀ (r : Fin 64) (y : Fin 2048), B.obs (ix2 r y) ≠ 0#32 ↔ solid (ix2 (rowOf t r) y) = 1#1
  hfUp : ∀ (y : Fin 2048) (q : Fin 9), B.fUp (ix3 (0 : Fin 1) y q) = f (ix3 (rowUp t) y q)
  hrhoUp : ∀ (y : Fin 2048), B.rhoUp (ix3 (0 : Fin 1) y (0 : Fin 1)) = rho (ix2 (rowUp t) y)
  huUp : ∀ (y : Fin 2048) (d : Fin 2), B.uUp (ix3 (0 : Fin 1) y d) = u (ix3 (rowUp t) y d)
  hfDn : ∀ (y : Fin 2048) (q : Fin 9), B.fDn (ix3 (0 : Fin 1) y q) = f (ix3 (rowDn t) y q)
  hrhoDn : ∀ (y : Fin 2048), B.rhoDn (ix3 (0 : Fin 1) y (0 : Fin 1)) = rho (ix2 (rowDn t) y)
  huDn : ∀ (y : Fin 2048) (d : Fin 2), B.uDn (ix3 (0 : Fin 1) y d) = u (ix3 (rowDn t) y d)

variable {B f rho u solid t} (h : Restricts B f rho u solid t)
include h

theorem bStar_eq (r : Fin 64) (y : Fin 2048) (q : Fin 9) : bStar B r y q = fstar f rho u (rowOf t r) y q := by
  rw [fstar_eq_cStar]; unfold bStar; rw [h.hf, h.hrho, h.hu, h.hu]

theorem bStarUp_eq (y : Fin 2048) (q : Fin 9) : bStarUp B y q = fstar f rho u (rowUp t) y q := by
  rw [fstar_eq_cStar]; unfold bStarUp; rw [h.hfUp, h.hrhoUp, h.huUp, h.huUp]

theorem bStarDn_eq (y : Fin 2048) (q : Fin 9) : bStarDn B y q = fstar f rho u (rowDn t) y q := by
  rw [fstar_eq_cStar]; unfold bStarDn; rw [h.hfDn, h.hrhoDn, h.huDn, h.huDn]

theorem bRowUp_eq (r : Fin 64) (y : Fin 2048) (q : Fin 9) : bRowUp B r y q = fstar f rho u (rowOf t r - 1) y q := by
  unfold bRowUp
  by_cases hr : r.val = 0
  · rw [dif_pos hr, bStarUp_eq h, rowOf_sub_one_zero t r hr]
  · rw [dif_neg hr, bStar_eq h, rowOf_sub_one_pos t r hr]

theorem bRowDn_eq (r : Fin 64) (y : Fin 2048) (q : Fin 9) : bRowDn B r y q = fstar f rho u (rowOf t r - 2047) y q := by
  unfold bRowDn
  by_cases hr : r.val = 63
  · rw [dif_pos hr, bStarDn_eq h, rowOf_sub_neg_last t r hr]
  · rw [dif_neg hr, bStar_eq h, rowOf_sub_neg_inner t r hr]

theorem bSrc_eq (r : Fin 64) (y : Fin 2048) (q : Fin 9) :
    bSrc B r y q = fstar f rho u (rowOf t r - sx q) (y - sy q) q := by
  unfold bSrc
  by_cases h1 : sx q = 1
  · rw [if_pos h1, bRowUp_eq h, h1]
  · rw [if_neg h1]
    by_cases h2 : sx q = 2047
    · rw [if_pos h2, bRowDn_eq h, h2]
    · rw [if_neg h2, bStar_eq h]
      have h0 : sx q = 0 := by
        revert h1 h2
        fin_cases q <;> simp [sx]
      rw [h0, fin2048_sub_zero]

theorem bNew_eq (r : Fin 64) (y : Fin 2048) (q : Fin 9) : bNew B r y q = fnew f rho u solid (rowOf t r) y q := by
  unfold bNew fnew
  by_cases hs : solid (ix2 (rowOf t r) y) = 1#1
  · rw [if_pos ((h.hobs r y).mpr hs), if_pos hs, bStar_eq h]
  · rw [if_neg (fun hb => hs ((h.hobs r y).mp hb)), if_neg hs, bSrc_eq h]

theorem bRho_eq (r : Fin 64) (y : Fin 2048) : bRho B r y = rhoNew f rho u solid (rowOf t r) y := by
  unfold bRho rhoNew
  exact Finset.sum_congr rfl fun q _ => bNew_eq h r y q

theorem bMom_eq (d : Fin 2) (r : Fin 64) (y : Fin 2048) : bMom B d r y = mom f rho u solid d (rowOf t r) y := by
  unfold bMom mom
  exact Finset.sum_congr rfl fun q _ => by rw [bNew_eq h r y q]

/-- A block's channel `k` at `(r, y)` is the specification at lattice row 64·t + r. -/
theorem bAt_eq_Gat (r : Fin 64) (y : Fin 2048) (k : Fin 12) : bAt B r y k = Gat f rho u solid (rowOf t r) y k := by
  unfold bAt Gat
  simp only [bNew_eq h, bRho_eq h, bMom_eq h]

end

end Cert.KernelIdeal.Hand

end
-- ==== Proof.KRun.lean ====
/-
  The output array after the kernel's run is the specification of the argument arrays.

  Grid point `t` writes back lattice rows 64·t … 64·t + 63 of the twelve-channel output; its ten input blocks
  are those rows of the populations, the density, the velocity and the widened mask, and the wrapped neighbour rows
  64·t − 1 and 64·t + 64 of populations, density and velocity — the density through its copy with a trailing unit
  axis, the mask through its copy widened to 32 bits (a word that is non-zero exactly at a solid cell). So what
  the point writes back is the specification read through the point's block, and the 32 blocks tile the array.
-/
import proofs.«140047_j18760417149386_2_alg».proof.Proof.LaunchDefs
import proofs.«140047_j18760417149386_2_alg».proof.Proof.KGlobal
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Lbm

variable (m : (ℓ : Loc nD τ sig) → Buf (Elt Ideal) ℓ)

/-! ## The printed index maps, decided over the 32 grid points -/

theorem idx_facts : ∀ t : Fin cfg0.N,
    win0_10.index t (0 : Fin 3) = t.val ∧ win0_10.index t (1 : Fin 3) = 0 ∧ win0_10.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 3) = (t.val * 64 + 2047) % 2048 ∧ win0_4.index t (1 : Fin 3) = 0 ∧ win0_4.index t (2 : Fin 3) = 0
    ∧ win0_5.index t (0 : Fin 3) = (t.val * 64 + 64) % 2048 ∧ win0_5.index t (1 : Fin 3) = 0 ∧ win0_5.index t (2 : Fin 3) = 0
    ∧ win0_6.index t (0 : Fin 3) = (t.val * 64 + 2047) % 2048 ∧ win0_6.index t (1 : Fin 3) = 0 ∧ win0_6.index t (2 : Fin 3) = 0
    ∧ win0_7.index t (0 : Fin 3) = (t.val * 64 + 64) % 2048 ∧ win0_7.index t (1 : Fin 3) = 0 ∧ win0_7.index t (2 : Fin 3) = 0
    ∧ win0_8.index t (0 : Fin 3) = (t.val * 64 + 2047) % 2048 ∧ win0_8.index t (1 : Fin 3) = 0 ∧ win0_8.index t (2 : Fin 3) = 0
    ∧ win0_9.index t (0 : Fin 3) = (t.val * 64 + 64) % 2048 ∧ win0_9.index t (1 : Fin 3) = 0 ∧ win0_9.index t (2 : Fin 3) = 0 :=
  (by decide +kernel : ∀ t : Fin grid0.N, _)

/-- A grid point as a number below 32. -/
def pt (t : Fin cfg0.N) : Fin 32 := ⟨t.val, Nat.lt_of_lt_of_eq t.isLt (N_0 : cfg0.N = 32)⟩

/-! ## The arrays as the region finds them -/

theorem V_arg0 (c : Dev nD) : V m c main_arg0 = m ((c : Thread nD τ).loc main_arg0) := by
  dsimp only [V, hostOps0]; after_results
theorem V_arg1 (c : Dev nD) : V m c main_arg1 = m ((c : Thread nD τ).loc main_arg1) := by
  dsimp only [V, hostOps0]; after_results
theorem V_arg2 (c : Dev nD) : V m c main_arg2 = m ((c : Thread nD τ).loc main_arg2) := by
  dsimp only [V, hostOps0]; after_results
/-- The density with a trailing unit axis. -/
theorem V_v0 (c : Dev nD) : (V m c main_v0 : S2048x2048x1.Idx → EReal)
    = broadcastInDim S2048x2048x1 ![0, 1] bcast_S2048x2048_S2048x2048x1_0_1 (m ((c : Thread nD τ).loc main_arg1)) := by
  dsimp only [V, hostOps0]; after_results
/-- The mask widened to 32 bits. -/
theorem V_v1 (c : Dev nD) : (V m c main_v1 : S2048x2048.Idx → BitVec 32)
    = extui 32 (m ((c : Thread nD τ).loc main_arg3)) natLt_1_32 := by
  dsimp only [V, hostOps0]; after_results

/-- A one-bit value widened to 32 bits is non-zero exactly when the bit is set. -/
theorem setWidth_ne_zero_iff (b : BitVec 1) : b.setWidth 32 ≠ 0#32 ↔ b = 1#1 := by
  revert b; decide

/-! ## Point `t`'s blocks are the parts of the arrays the specification reads -/

theorem emb0 (t : Fin cfg0.N) (r : Fin 64) (y : Fin 2048) (q : Fin 9) :
    ((cfg0.win 0).blk t).view.emb (ix3 r y q) = ix3 (rowOf (pt t) r) y q := by
  obtain ⟨e10a, e10b, e10c, e0a, e0b, e0c, -⟩ := idx_facts t
  exact funext fun a => Fin.ext (by
      match a with
      | ⟨0, _⟩ => show win0_0.index t (0 : Fin 3) * 64 + 1 * r.val = 64 * t.val + r.val; omega
      | ⟨1, _⟩ => show win0_0.index t (1 : Fin 3) * 2048 + 1 * y.val = y.val; omega
      | ⟨2, _⟩ => show win0_0.index t (2 : Fin 3) * 9 + 1 * q.val = q.val; omega)

theorem emb1 (t : Fin cfg0.N) (r : Fin 64) (y : Fin 2048) :
    ((cfg0.win 1).blk t).view.emb (ix2 r y) = ix2 (rowOf (pt t) r) y := by
  obtain ⟨e10a, e10b, e10c, e0a, e0b, e0c, e1a, e1b, -⟩ := idx_facts t
  exact funext fun a => Fin.ext (by
      match a with
      | ⟨0, _⟩ => show win0_1.index t (0 : Fin 2) * 64 + 1 * r.val = 64 * t.val + r.val; omega
      | ⟨1, _⟩ => show win0_1.index t (1 : Fin 2) * 2048 + 1 * y.val = y.val; omega)

theorem emb2 (t : Fin cfg0.N) (r : Fin 64) (y : Fin 2048) (d : Fin 2) :
    ((cfg0.win 2).blk t).view.emb (ix3 r y d) = ix3 (rowOf (pt t) r) y d := by
  obtain ⟨e10a, e10b, e10c, e0a, e0b, e0c, e1a, e1b, e2a, e2b, e2c, -⟩ := idx_facts t
  exact funext fun a => Fin.ext (by
      match a with
      | ⟨0, _⟩ => show win0_2.index t (0 : Fin 3) * 64 + 1 * r.val = 64 * t.val + r.val; omega
      | ⟨1, _⟩ => show win0_2.index t (1 : Fin 3) * 2048 + 1 * y.val = y.val; omega
      | ⟨2, _⟩ => show win0_2.index t (2 : Fin 3) * 2 + 1 * d.val = d.val; omega)

theorem emb3 (t : Fin cfg0.N) (r : Fin 64) (y : Fin 2048) :
    ((cfg0.win 3).blk t).view.emb (ix2 r y) = ix2 (rowOf (pt t) r) y := by
  obtain ⟨e10a, e10b, e10c, e0a, e0b, e0c, e1a, e1b, e2a, e2b, e2c, e3a, e3b, -⟩ := idx_facts t
  exact funext fun a => Fin.ext (by
      match a with
      | ⟨0, _⟩ => show win0_3.index t (0 : Fin 2) * 64 + 1 * r.val = 64 * t.val + r.val; omega
      | ⟨1, _⟩ => show win0_3.index t (1 : Fin 2) * 2048 + 1 * y.val = y.val; omega)

theorem emb4 (t : Fin cfg0.N) (y : Fin 2048) (q : Fin 9) :
    ((cfg0.win 4).blk t).view.emb (ix3 (0 : Fin 1) y q) = ix3 (rowUp (pt t)) y q := by
  obtain ⟨e10a, e10b, e10c, e0a, e0b, e0c, e1a, e1b, e2a, e2b, e2c, e3a, e3b, e4a, e4b, e4c, -⟩ := idx_facts t
  exact funext fun a => Fin.ext (by
      match a with
      | ⟨0, _⟩ => show win0_4.index t (0 : Fin 3) * 1 + 1 * 0 = (t.val * 64 + 2047) % 2048; omega
      | ⟨1, _⟩ => show win0_4.index t (1 : Fin 3) * 2048 + 1 * y.val = y.val; omega
      | ⟨2, _⟩ => show win0_4.index t (2 : Fin 3) * 9 + 1 * q.val = q.val; omega)

theorem emb5 (t : Fin cfg0.N) (y : Fin 2048) (q : Fin 9) :
    ((cfg0.win 5).blk t).view.emb (ix3 (0 : Fin 1) y q) = ix3 (rowDn (pt t)) y q := by
  obtain ⟨e10a, e10b, e10c, e0a, e0b, e0c, e1a, e1b, e2a, e2b, e2c, e3a, e3b, e4a, e4b, e4c, e5a, e5b, e5c, -⟩ := idx_facts t
  exact funext fun a => Fin.ext (by
      match a with
      | ⟨0, _⟩ => show win0_5.index t (0 : Fin 3) * 1 + 1 * 0 = (t.val * 64 + 64) % 2048; omega
      | ⟨1, _⟩ => show win0_5.index t (1 : Fin 3) * 2048 + 1 * y.val = y.val; omega
      | ⟨2, _⟩ => show win0_5.index t (2 : Fin 3) * 9 + 1 * q.val = q.val; omega)

theorem emb6 (t : Fin cfg0.N) (y : Fin 2048) :
    ((cfg0.win 6).blk t).view.emb (ix3 (0 : Fin 1) y (0 : Fin 1)) = ix3 (rowUp (pt t)) y (0 : Fin 1) := by
  obtain ⟨e10a, e10b, e10c, e0a, e0b, e0c, e1a, e1b, e2a, e2b, e2c, e3a, e3b, e4a, e4b, e4c, e5a, e5b, e5c, e6a, e6b, e6c, -⟩ := idx_facts t
  exact funext fun a => Fin.ext (by
      match a with
      | ⟨0, _⟩ => show win0_6.index t (0 : Fin 3) * 1 + 1 * 0 = (t.val * 64 + 2047) % 2048; omega
      | ⟨1, _⟩ => show win0_6.index t (1 : Fin 3) * 2048 + 1 * y.val = y.val; omega
      | ⟨2, _⟩ => show win0_6.index t (2 : Fin 3) * 1 + 1 * 0 = 0; omega)

theorem emb7 (t : Fin cfg0.N) (y : Fin 2048) :
    ((cfg0.win 7).blk t).view.emb (ix3 (0 : Fin 1) y (0 : Fin 1)) = ix3 (rowDn (pt t)) y (0 : Fin 1) := by
  obtain ⟨e10a, e10b, e10c, e0a, e0b, e0c, e1a, e1b, e2a, e2b, e2c, e3a, e3b, e4a, e4b, e4c, e5a, e5b, e5c, e6a, e6b, e6c, e7a, e7b, e7c, -⟩ := idx_facts t
  exact funext fun a => Fin.ext (by
      match a with
      | ⟨0, _⟩ => show win0_7.index t (0 : Fin 3) * 1 + 1 * 0 = (t.val * 64 + 64) % 2048; omega
      | ⟨1, _⟩ => show win0_7.index t (1 : Fin 3) * 2048 + 1 * y.val = y.val; omega
      | ⟨2, _⟩ => show win0_7.index t (2 : Fin 3) * 1 + 1 * 0 = 0; omega)

theorem emb8 (t : Fin cfg0.N) (y : Fin 2048) (d : Fin 2) :
    ((cfg0.win 8).blk t).view.emb (ix3 (0 : Fin 1) y d) = ix3 (rowUp (pt t)) y d := by
  obtain ⟨e10a, e10b, e10c, e0a, e0b, e0c, e1a, e1b, e2a, e2b, e2c, e3a, e3b, e4a, e4b, e4c, e5a, e5b, e5c, e6a, e6b, e6c, e7a, e7b, e7c, e8a, e8b, e8c, -⟩ := idx_facts t
  exact funext fun a => Fin.ext (by
      match a with
      | ⟨0, _⟩ => show win0_8.index t (0 : Fin 3) * 1 + 1 * 0 = (t.val * 64 + 2047) % 2048; omega
      | ⟨1, _⟩ => show win0_8.index t (1 : Fin 3) * 2048 + 1 * y.val = y.val; omega
      | ⟨2, _⟩ => show win0_8.index t (2 : Fin 3) * 2 + 1 * d.val = d.val; omega)

theorem emb9 (t : Fin cfg0.N) (y : Fin 2048) (d : Fin 2) :
    ((cfg0.win 9).blk t).view.emb (ix3 (0 : Fin 1) y d) = ix3 (rowDn (pt t)) y d := by
  obtain ⟨e10a, e10b, e10c, e0a, e0b, e0c, e1a, e1b, e2a, e2b, e2c, e3a, e3b, e4a, e4b, e4c, e5a, e5b, e5c, e6a, e6b, e6c, e7a, e7b, e7c, e8a, e8b, e8c, e9a, e9b, e9c⟩ := idx_facts t
  exact funext fun a => Fin.ext (by
      match a with
      | ⟨0, _⟩ => show win0_9.index t (0 : Fin 3) * 1 + 1 * 0 = (t.val * 64 + 64) % 2048; omega
      | ⟨1, _⟩ => show win0_9.index t (1 : Fin 3) * 2048 + 1 * y.val = y.val; omega
      | ⟨2, _⟩ => show win0_9.index t (2 : Fin 3) * 2 + 1 * d.val = d.val; omega)

theorem emb10 (t : Fin cfg0.N) (r : Fin 64) (y : Fin 2048) (k : Fin 12) :
    ((cfg0.win 10).blk t).view.emb (ix3 r y k) = ix3 (rowOf (pt t) r) y k := by
  obtain ⟨e10a, e10b, e10c, -⟩ := idx_facts t
  exact funext fun a => Fin.ext (by
      match a with
      | ⟨0, _⟩ => show win0_10.index t (0 : Fin 3) * 64 + 1 * r.val = 64 * t.val + r.val; omega
      | ⟨1, _⟩ => show win0_10.index t (1 : Fin 3) * 2048 + 1 * y.val = y.val; omega
      | ⟨2, _⟩ => show win0_10.index t (2 : Fin 3) * 12 + 1 * k.val = k.val; omega)

/-- The density's copy with a trailing unit axis, read at a cell, is the density there. -/
theorem rho3_apply (rho : S2048x2048.Idx → EReal) (x y : Fin 2048) :
    broadcastInDim S2048x2048x1 ![0, 1] bcast_S2048x2048_S2048x2048x1_0_1 rho (ix3 x y (0 : Fin 1)) = rho (ix2 x y) := by
  refine broadcastInDim_apply _ _ rho _ (ix2 x y) fun a => ?_
  match a with
  | ⟨0, _⟩ => rfl
  | ⟨1, _⟩ => rfl

theorem restricts (c : Dev nD) (t : Fin cfg0.N) :
    Restricts (blocks m c t) (m ((c : Thread nD τ).loc main_arg0)) (m ((c : Thread nD τ).loc main_arg1))
      (m ((c : Thread nD τ).loc main_arg2)) (m ((c : Thread nD τ).loc main_arg3)) (pt t) where
  hf r y q := by
    show V m c main_arg0 (((cfg0.win 0).blk t).view.emb (ix3 r y q)) = _
    rw [V_arg0, emb0]
  hrho r y := by
    show V m c main_arg1 (((cfg0.win 1).blk t).view.emb (ix2 r y)) = _
    rw [V_arg1, emb1]
  hu r y d := by
    show V m c main_arg2 (((cfg0.win 2).blk t).view.emb (ix3 r y d)) = _
    rw [V_arg2, emb2]
  hobs r y := by
    show V m c main_v1 (((cfg0.win 3).blk t).view.emb (ix2 r y)) ≠ 0#32 ↔ _
    rw [V_v1, emb3]
    exact setWidth_ne_zero_iff _
  hfUp y q := by
    show V m c main_arg0 (((cfg0.win 4).blk t).view.emb (ix3 (0 : Fin 1) y q)) = _
    rw [V_arg0, emb4]
  hrhoUp y := by
    show V m c main_v0 (((cfg0.win 6).blk t).view.emb (ix3 (0 : Fin 1) y (0 : Fin 1))) = _
    rw [V_v0, emb6, rho3_apply]
  huUp y d := by
    show V m c main_arg2 (((cfg0.win 8).blk t).view.emb (ix3 (0 : Fin 1) y d)) = _
    rw [V_arg2, emb8]
  hfDn y q := by
    show V m c main_arg0 (((cfg0.win 5).blk t).view.emb (ix3 (0 : Fin 1) y q)) = _
    rw [V_arg0, emb5]
  hrhoDn y := by
    show V m c main_v0 (((cfg0.win 7).blk t).view.emb (ix3 (0 : Fin 1) y (0 : Fin 1))) = _
    rw [V_v0, emb7, rho3_apply]
  huDn y d := by
    show V m c main_arg2 (((cfg0.win 9).blk t).view.emb (ix3 (0 : Fin 1) y d)) = _
    rw [V_arg2, emb9]

/-! ## What a point writes back, the cover, the whole array -/

/-- The specification of the launch memory's four argument arrays. -/
abbrev Gm (c : Dev nD) : S2048x2048x12.Idx → EReal :=
  Cert.Lbm.G (m ((c : Thread nD τ).loc main_arg0)) (m ((c : Thread nD τ).loc main_arg1)) (m ((c : Thread nD τ).loc main_arg2)) (m ((c : Thread nD τ).loc main_arg3))

section
variable (hout : ∀ (B : Blocks Ideal) (r : Fin 64) (y : Fin 2048) (k : Fin 12), out10 B (ix3 r y k) = bAt B r y k)
include hout

/-- What point `t` writes back is the specification read through the point's block. -/
theorem flushed_eq (c : Dev nD) (t : Fin cfg0.N) :
    (dats m 0 c).flushed 10 t = ((cfg0.win 10).blk t).view.read (Elt Ideal) (Gm m c) := by
  show (cfg0.win 10).cut (grid0.coords t) ((dats m 0 c).after 10 t) = _
  rw [after0_10]
  funext j
  obtain ⟨r, y, k, rfl⟩ : ∃ (r : Fin 64) (y : Fin 2048) (k : Fin 12), j = ix3 r y k := ⟨j 0, j 1, j 2, eq_ix3 j⟩
  show out10 (blocks m c t) (ix3 r y k) = Gm m c (((cfg0.win 10).blk t).view.emb (ix3 r y k))
  rw [hout, bAt_eq_Gat (restricts m c t), emb10]
  rfl

end

/-- An index of the output array is in point `t`'s block iff each coordinate is in the block's range. -/
theorem mem_blk10 (t : Fin cfg0.N) (i : S2048x2048x12.Idx) :
    i ∈ ((cfg0.win 10).blk t).view.set ↔ ∀ a : Fin 3, win0_10.index t a * S64x2048x12.size a ≤ (i a).val
      ∧ (i a).val < win0_10.index t a * S64x2048x12.size a + S64x2048x12.size a := by
  show i ∈ ((View.whole main_v2).slice (win0_10.rect t)).set ↔ _
  rw [View.set_slice_whole, Rect.mem_set_unit]
  exact Iff.rfl

/-- Every index of the output array lies in the block of the point that owns its lattice row. -/
theorem cover10 (i : S2048x2048x12.Idx) :
    ∃ t : Fin cfg0.N, (cfg0.win 10).flush t = true ∧ i ∈ ((cfg0.win 10).blk t).view.set := by
  have hi0 : (i 0).val < 2048 := (i 0).isLt
  have hi1 : (i 1).val < 2048 := (i 1).isLt
  have hi2 : (i 2).val < 12 := (i 2).isLt
  have hlt : (i 0).val / 64 < cfg0.N := by rw [show cfg0.N = 32 from N_0]; omega
  obtain ⟨e0, e1, e2, -⟩ := idx_facts ⟨(i 0).val / 64, hlt⟩
  refine ⟨⟨(i 0).val / 64, hlt⟩, flush0_10 _, ?_⟩
  rw [mem_blk10]
  intro a
  match a with
  | ⟨0, _⟩ =>
    show win0_10.index ⟨(i 0).val / 64, hlt⟩ (0 : Fin 3) * 64 ≤ (i 0).val
      ∧ (i 0).val < win0_10.index ⟨(i 0).val / 64, hlt⟩ (0 : Fin 3) * 64 + 64
    have : (⟨(i 0).val / 64, hlt⟩ : Fin cfg0.N).val = (i 0).val / 64 := rfl
    omega
  | ⟨1, _⟩ =>
    show win0_10.index ⟨(i 0).val / 64, hlt⟩ (1 : Fin 3) * 2048 ≤ (i 1).val
      ∧ (i 1).val < win0_10.index ⟨(i 0).val / 64, hlt⟩ (1 : Fin 3) * 2048 + 2048
    omega
  | ⟨2, _⟩ =>
    show win0_10.index ⟨(i 0).val / 64, hlt⟩ (2 : Fin 3) * 12 ≤ (i 2).val
      ∧ (i 2).val < win0_10.index ⟨(i 0).val / 64, hlt⟩ (2 : Fin 3) * 12 + 12
    omega

/-- The output array after the last grid point is the specification of the argument arrays. -/
theorem final (hout : ∀ (B : Blocks Ideal) (r : Fin 64) (y : Fin 2048) (k : Fin 12), out10 B (ix3 r y k) = bAt B r y k)
    (c : Dev nD) : (dats m 0 c).arrAt 10 cfg0.N = Gm m c :=
  (dats m 0 c).arrAt_eq_of_cover 10 (Gm m c) (fun t _ => flushed_eq m hout c t) cover10

end Cert.KernelIdeal.Hand

end
-- ==== Proof.KFinal.lean ====
/-
  The kernel program's run with its result named: every execution ends with the output array holding the
  specification of the four argument arrays, and the arguments unchanged — given the body's triple and the
  reading of one output block at an index.
-/
import proofs.«140047_j18760417149386_2_alg».proof.Proof.Launch
import proofs.«140047_j18760417149386_2_alg».proof.Proof.KRun

noncomputable section

namespace Cert.KernelIdeal.Hand

open Idealize.ShloMosaic Idealize.ShloMosaic.TcCoe Idealize.ShloMosaic.ValueIdx Idealize.SL.Sem
open Cert.KernelIdeal Cert.KernelIdeal.Gen

theorem value_run (m : (ℓ : Loc nD τ sig) → Buf (Elt Ideal) ℓ) (ρ : Dev nD → PrngReg) (hk : SoundKernel Ideal)
    (hout : ∀ (B : Blocks Ideal) (r : Fin 64) (y : Fin 2048) (k : Fin 12), out10 B (ix3 r y k) = bAt B r y k) :
    θ_run defs (onTc (τ := τ) (main (F := Ideal))) ⟨m, fun _ => 0, ρ⟩ (fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 10).trans (final m hout c), kept_of_post m r h c⟩) (run_main m ρ hk)

end Cert.KernelIdeal.Hand

end
-- ==== Proof.RefOps.lean ====
/-
  The reference program's @main as one list of host operations, in program order.

  @main is a straight line of tensor operations; ten of its statements are calls of module-local functions
  (nine periodic shifts of a 2048 × 2048 plane, each two slices and a concatenation along one axis followed by
  two slices and a concatenation along the other, and one elementwise choice between two arrays). A call
  executes the callee's body on the operands' buffers, so the list below writes each callee's operations at
  the call site, over that call's own buffers: 138 operations in all. The list is the program's data only;
  the statement that @main runs exactly these operations, and what the buffers hold afterwards, is proved in
  the module that imports this one.
-/
import proofs.«140047_j18760417149386_2_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- @main's 138 operations, in order, the called functions' operations written at their call sites. -/
abbrev ops : List (HloOp τ sig (Elt F)) :=
  [ StableHlo.nullary main_cst (fun i => FloatOps.ofBits .f32 (lit0 (S9x2.rowMajor i))),
    StableHlo.nullary main_cst_0 (fun i => FloatOps.ofBits .f32 (lit1 (S9.rowMajor i))),
    StableHlo.nullary main_c (fun i => lit2 (S9.rowMajor i)),
    StableHlo.nullary main_cst_1 (fun i => FloatOps.ofBits .f32 (lit3 (S9x2.rowMajor i))),
    StableHlo.binary main_arg2 main_cst main_v0 ((fun l r => Host.dotGeneral dot_S2048x2048x2_S9x2_S2048x2048x9_2_1_01_0_n_n none l r) : (⟨S2048x2048x2, .f32⟩ : BufTy).Contents (Elt F) → (⟨S9x2, .f32⟩ : BufTy).Contents (Elt F) → (⟨S2048x2048x9, .f32⟩ : BufTy).Contents (Elt F)),
    StableHlo.binary main_arg2 main_arg2 main_v1 (mulf : (⟨S2048x2048x2, .f32⟩ : BufTy).Contents (Elt F) → (⟨S2048x2048x2, .f32⟩ : BufTy).Contents (Elt F) → (⟨S2048x2048x2, .f32⟩ : BufTy).Contents (Elt F)),
    StableHlo.nullary main_cst_2 (constant S_ .f32 0x00000000#32),
    StableHlo.binary main_v1 main_cst_2 main_v2 ((fun x v => Host.reduceAdd x v reducesTo_S2048x2048x2_S2048x2048_d2 h_S_) : (⟨S2048x2048x2, .f32⟩ : BufTy).Contents (Elt F) → (⟨S_, .f32⟩ : BufTy).Contents (Elt F) → (⟨S2048x2048, .f32⟩ : BufTy).Contents (Elt F)),
    StableHlo.unary main_v2 main_v3 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_arg1 main_v4 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_cst_0 main_v5 (broadcastInDim S1x1x9 ![2] bcast_S9_S1x1x9_2 : (⟨S9, .f32⟩ : BufTy).Contents (Elt F) → (⟨S1x1x9, .f32⟩ : BufTy).Contents (Elt F)),
    StableHlo.unary main_v5 main_v6 (broadcastInDim S2048x2048x9 ![0, 1, 2] bcast_S1x1x9_S2048x2048x9_0_1_2 : (⟨S1x1x9, .f32⟩ : BufTy).Contents (Elt F) → (⟨S2048x2048x9, .f32⟩ : BufTy).Contents (Elt F)),
    StableHlo.unary main_v4 main_v7 (broadcastInDim S2048x2048x9 ![0, 1, 2] bcast_S2048x2048x1_S2048x2048x9_0_1_2 : (⟨S2048x2048x1, .f32⟩ : BufTy).Contents (Elt F) → (⟨S2048x2048x9, .f32⟩ : BufTy).Contents (Elt F)),
    StableHlo.binary main_v6 main_v7 main_v8 (mulf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_3 (constant S_ .f32 0x40400000#32),
    StableHlo.unary main_cst_3 main_v9 (broadcastInDim S2048x2048x9 ![] bcast_S_S2048x2048x9 : (⟨S_, .f32⟩ : BufTy).Contents (Elt F) → (⟨S2048x2048x9, .f32⟩ : BufTy).Contents (Elt F)),
    StableHlo.binary main_v9 main_v0 main_v10 (mulf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_4 (constant S_ .f32 0x3F800000#32),
    StableHlo.unary main_cst_4 main_v11 (broadcastInDim S2048x2048x9 ![] bcast_S_S2048x2048x9 : (⟨S_, .f32⟩ : BufTy).Contents (Elt F) → (⟨S2048x2048x9, .f32⟩ : BufTy).Contents (Elt F)),
    StableHlo.binary main_v11 main_v10 main_v12 (addf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_5 (constant S_ .f32 0x40900000#32),
    StableHlo.unary main_cst_5 main_v13 (broadcastInDim S2048x2048x9 ![] bcast_S_S2048x2048x9 : (⟨S_, .f32⟩ : BufTy).Contents (Elt F) → (⟨S2048x2048x9, .f32⟩ : BufTy).Contents (Elt F)),
    StableHlo.binary main_v13 main_v0 main_v14 (mulf : (⟨S2048x2048x9, .f32⟩ : BufTy).Contents (Elt F) → (⟨S2048x2048x9, .f32⟩ : BufTy).Contents (Elt F) → (⟨S2048x2048x9, .f32⟩ : BufTy).Contents (Elt F)),
    StableHlo.binary main_v14 main_v0 main_v15 (mulf : (⟨S2048x2048x9, .f32⟩ : BufTy).Contents (Elt F) → (⟨S2048x2048x9, .f32⟩ : BufTy).Contents (Elt F) → (⟨S2048x2048x9, .f32⟩ : BufTy).Contents (Elt F)),
    StableHlo.binary main_v12 main_v15 main_v16 (addf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_6 (constant S_ .f32 0x3FC00000#32),
    StableHlo.unary main_cst_6 main_v17 (broadcastInDim S2048x2048x1 ![] bcast_S_S2048x2048x1 : (⟨S_, .f32⟩ : BufTy).Contents (Elt F) → (⟨S2048x2048x1, .f32⟩ : BufTy).Contents (Elt F)),
    StableHlo.binary main_v17 main_v3 main_v18 (mulf : (⟨S2048x2048x1, .f32⟩ : BufTy).Contents (Elt F) → (⟨S2048x2048x1, .f32⟩ : BufTy).Contents (Elt F) → (⟨S2048x2048x1, .f32⟩ : BufTy).Contents (Elt F)),
    StableHlo.unary main_v18 main_v19 (broadcastInDim S2048x2048x9 ![0, 1, 2] bcast_S2048x2048x1_S2048x2048x9_0_1_2 : (⟨S2048x2048x1, .f32⟩ : BufTy).Contents (Elt F) → (⟨S2048x2048x9, .f32⟩ : BufTy).Contents (Elt F)),
    StableHlo.binary main_v16 main_v19 main_v20 (subf : (⟨S2048x2048x9, .f32⟩ : BufTy).Contents (Elt F) → (⟨S2048x2048x9, .f32⟩ : BufTy).Contents (Elt F) → (⟨S2048x2048x9, .f32⟩ : BufTy).Contents (Elt F)),
    StableHlo.binary main_v8 main_v20 main_v21 (mulf : (⟨S2048x2048x9, .f32⟩ : BufTy).Contents (Elt F) → (⟨S2048x2048x9, .f32⟩ : BufTy).Contents (Elt F) → (⟨S2048x2048x9, .f32⟩ : BufTy).Contents (Elt F)),
    StableHlo.binary main_arg0 main_v21 main_v22 (subf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_7 (constant S_ .f32 0x3F19999A#32),
    StableHlo.unary main_cst_7 main_v23 (broadcastInDim S2048x2048x9 ![] bcast_S_S2048x2048x9 : (⟨S_, .f32⟩ : BufTy).Contents (Elt F) → (⟨S2048x2048x9, .f32⟩ : BufTy).Contents (Elt F)),
    StableHlo.binary main_v22 main_v23 main_v24 (Host.divf : (⟨S2048x2048x9, .f32⟩ : BufTy).Contents (Elt F) → (⟨S2048x2048x9, .f32⟩ : BufTy).Contents (Elt F) → (⟨S2048x2048x9, .f32⟩ : BufTy).Contents (Elt F)),
    StableHlo.binary main_arg0 main_v24 main_v25 (subf : (⟨S2048x2048x9, .f32⟩ : BufTy).Contents (Elt F) → (⟨S2048x2048x9, .f32⟩ : BufTy).Contents (Elt F) → (⟨S2048x2048x9, .f32⟩ : BufTy).Contents (Elt F)),
    StableHlo.unary main_v25 main_v26 ((extractStridedSlice S2048x2048x1 ![0, 0, 0] · slices_S2048x2048x9_S2048x2048x1_0_0_0) : (⟨S2048x2048x9, .f32⟩ : BufTy).Contents (Elt F) → (⟨S2048x2048x1, .f32⟩ : BufTy).Contents (Elt F)),
    StableHlo.reshape main_v26 main_v27 rfl shapeCasts_S2048x2048x1_S2048x2048,
    StableHlo.TRef.unary (StableHlo.TRef.of main_v27 : StableHlo.TRef sig ⟨S2048x2048, .f32⟩) main_call0.v0 (extractStridedSlice S2048x2048 ![0, 0] · slices_S2048x2048_S2048x2048_0_0),
    StableHlo.TRef.unary (StableHlo.TRef.of main_v27 : StableHlo.TRef sig ⟨S2048x2048, .f32⟩) main_call0.v1 (extractStridedSlice S0x2048 ![0, 0] · slices_S2048x2048_S0x2048_0_0),
    StableHlo.TRef.binary main_call0.v0 main_call0.v1 main_call0.v2 (fun a b => concatenate S2048x2048 0 [⟨S2048x2048, a⟩, ⟨S0x2048, b⟩] concatenates_S2048x2048_S0x2048_S2048x2048_d0),
    StableHlo.TRef.unary main_call0.v2 main_call0.v3 (extractStridedSlice S2048x2048 ![0, 0] · slices_S2048x2048_S2048x2048_0_0),
    StableHlo.TRef.unary main_call0.v2 main_call0.v4 (extractStridedSlice S2048x0 ![0, 0] · slices_S2048x2048_S2048x0_0_0),
    StableHlo.TRef.binary main_call0.v3 main_call0.v4 main_call0.v5 (fun a b => concatenate S2048x2048 1 [⟨S2048x2048, a⟩, ⟨S2048x0, b⟩] concatenates_S2048x2048_S2048x0_S2048x2048_d1),
    StableHlo.unary main_v25 main_v29 ((extractStridedSlice S2048x2048x1 ![0, 0, 1] · slices_S2048x2048x9_S2048x2048x1_0_0_1) : (⟨S2048x2048x9, .f32⟩ : BufTy).Contents (Elt F) → (⟨S2048x2048x1, .f32⟩ : BufTy).Contents (Elt F)),
    StableHlo.reshape main_v29 main_v30 rfl shapeCasts_S2048x2048x1_S2048x2048,
    StableHlo.TRef.unary (StableHlo.TRef.of main_v30 : StableHlo.TRef sig ⟨S2048x2048, .f32⟩) main_call1.v0 (extractStridedSlice S1x2048 ![2047, 0] · slices_S2048x2048_S1x2048_2047_0),
    StableHlo.TRef.unary (StableHlo.TRef.of main_v30 : StableHlo.TRef sig ⟨S2048x2048, .f32⟩) main_call1.v1 (extractStridedSlice S2047x2048 ![0, 0] · slices_S2048x2048_S2047x2048_0_0),
    StableHlo.TRef.binary main_call1.v0 main_call1.v1 main_call1.v2 (fun a b => concatenate S2048x2048 0 [⟨S1x2048, a⟩, ⟨S2047x2048, b⟩] concatenates_S1x2048_S2047x2048_S2048x2048_d0),
    StableHlo.TRef.unary main_call1.v2 main_call1.v3 (extractStridedSlice S2048x2048 ![0, 0] · slices_S2048x2048_S2048x2048_0_0),
    StableHlo.TRef.unary main_call1.v2 main_call1.v4 (extractStridedSlice S2048x0 ![0, 0] · slices_S2048x2048_S2048x0_0_0),
    StableHlo.TRef.binary main_call1.v3 main_call1.v4 main_call1.v5 (fun a b => concatenate S2048x2048 1 [⟨S2048x2048, a⟩, ⟨S2048x0, b⟩] concatenates_S2048x2048_S2048x0_S2048x2048_d1),
    StableHlo.unary main_v25 main_v32 ((extractStridedSlice S2048x2048x1 ![0, 0, 2] · slices_S2048x2048x9_S2048x2048x1_0_0_2) : (⟨S2048x2048x9, .f32⟩ : BufTy).Contents (Elt F) → (⟨S2048x2048x1, .f32⟩ : BufTy).Contents (Elt F)),
    StableHlo.reshape main_v32 main_v33 rfl shapeCasts_S2048x2048x1_S2048x2048,
    StableHlo.TRef.unary (StableHlo.TRef.of main_v33 : StableHlo.TRef sig ⟨S2048x2048, .f32⟩) main_call2.v0 (extractStridedSlice S2048x2048 ![0, 0] · slices_S2048x2048_S2048x2048_0_0),
    StableHlo.TRef.unary (StableHlo.TRef.of main_v33 : StableHlo.TRef sig ⟨S2048x2048, .f32⟩) main_call2.v1 (extractStridedSlice S0x2048 ![0, 0] · slices_S2048x2048_S0x2048_0_0),
    StableHlo.TRef.binary main_call2.v0 main_call2.v1 main_call2.v2 (fun a b => concatenate S2048x2048 0 [⟨S2048x2048, a⟩, ⟨S0x2048, b⟩] concatenates_S2048x2048_S0x2048_S2048x2048_d0),
    StableHlo.TRef.unary main_call2.v2 main_call2.v3 (extractStridedSlice S2048x1 ![0, 2047] · slices_S2048x2048_S2048x1_0_2047),
    StableHlo.TRef.unary main_call2.v2 main_call2.v4 (extractStridedSlice S2048x2047 ![0, 0] · slices_S2048x2048_S2048x2047_0_0),
    StableHlo.TRef.binary main_call2.v3 main_call2.v4 main_call2.v5 (fun a b => concatenate S2048x2048 1 [⟨S2048x1, a⟩, ⟨S2048x2047, b⟩] concatenates_S2048x1_S2048x2047_S2048x2048_d1),
    StableHlo.unary main_v25 main_v35 ((extractStridedSlice S2048x2048x1 ![0, 0, 3] · slices_S2048x2048x9_S2048x2048x1_0_0_3) : (⟨S2048x2048x9, .f32⟩ : BufTy).Contents (Elt F) → (⟨S2048x2048x1, .f32⟩ : BufTy).Contents (Elt F)),
    StableHlo.reshape main_v35 main_v36 rfl shapeCasts_S2048x2048x1_S2048x2048,
    StableHlo.TRef.unary (StableHlo.TRef.of main_v36 : StableHlo.TRef sig ⟨S2048x2048, .f32⟩) main_call3.v0 (extractStridedSlice S2047x2048 ![1, 0] · slices_S2048x2048_S2047x2048_1_0),
    StableHlo.TRef.unary (StableHlo.TRef.of main_v36 : StableHlo.TRef sig ⟨S2048x2048, .f32⟩) main_call3.v1 (extractStridedSlice S1x2048 ![0, 0] · slices_S2048x2048_S1x2048_0_0),
    StableHlo.TRef.binary main_call3.v0 main_call3.v1 main_call3.v2 (fun a b => concatenate S2048x2048 0 [⟨S2047x2048, a⟩, ⟨S1x2048, b⟩] concatenates_S2047x2048_S1x2048_S2048x2048_d0),
    StableHlo.TRef.unary main_call3.v2 main_call3.v3 (extractStridedSlice S2048x2048 ![0, 0] · slices_S2048x2048_S2048x2048_0_0),
    StableHlo.TRef.unary main_call3.v2 main_call3.v4 (extractStridedSlice S2048x0 ![0, 0] · slices_S2048x2048_S2048x0_0_0),
    StableHlo.TRef.binary main_call3.v3 main_call3.v4 main_call3.v5 (fun a b => concatenate S2048x2048 1 [⟨S2048x2048, a⟩, ⟨S2048x0, b⟩] concatenates_S2048x2048_S2048x0_S2048x2048_d1),
    StableHlo.unary main_v25 main_v38 ((extractStridedSlice S2048x2048x1 ![0, 0, 4] · slices_S2048x2048x9_S2048x2048x1_0_0_4) : (⟨S2048x2048x9, .f32⟩ : BufTy).Contents (Elt F) → (⟨S2048x2048x1, .f32⟩ : BufTy).Contents (Elt F)),
    StableHlo.reshape main_v38 main_v39 rfl shapeCasts_S2048x2048x1_S2048x2048,
    StableHlo.TRef.unary (StableHlo.TRef.of main_v39 : StableHlo.TRef sig ⟨S2048x2048, .f32⟩) main_call4.v0 (extractStridedSlice S2048x2048 ![0, 0] · slices_S2048x2048_S2048x2048_0_0),
    StableHlo.TRef.unary (StableHlo.TRef.of main_v39 : StableHlo.TRef sig ⟨S2048x2048, .f32⟩) main_call4.v1 (extractStridedSlice S0x2048 ![0, 0] · slices_S2048x2048_S0x2048_0_0),
    StableHlo.TRef.binary main_call4.v0 main_call4.v1 main_call4.v2 (fun a b => concatenate S2048x2048 0 [⟨S2048x2048, a⟩, ⟨S0x2048, b⟩] concatenates_S2048x2048_S0x2048_S2048x2048_d0),
    StableHlo.TRef.unary main_call4.v2 main_call4.v3 (extractStridedSlice S2048x2047 ![0, 1] · slices_S2048x2048_S2048x2047_0_1),
    StableHlo.TRef.unary main_call4.v2 main_call4.v4 (extractStridedSlice S2048x1 ![0, 0] · slices_S2048x2048_S2048x1_0_0),
    StableHlo.TRef.binary main_call4.v3 main_call4.v4 main_call4.v5 (fun a b => concatenate S2048x2048 1 [⟨S2048x2047, a⟩, ⟨S2048x1, b⟩] concatenates_S2048x2047_S2048x1_S2048x2048_d1),
    StableHlo.unary main_v25 main_v41 ((extractStridedSlice S2048x2048x1 ![0, 0, 5] · slices_S2048x2048x9_S2048x2048x1_0_0_5) : (⟨S2048x2048x9, .f32⟩ : BufTy).Contents (Elt F) → (⟨S2048x2048x1, .f32⟩ : BufTy).Contents (Elt F)),
    StableHlo.reshape main_v41 main_v42 rfl shapeCasts_S2048x2048x1_S2048x2048,
    StableHlo.TRef.unary (StableHlo.TRef.of main_v42 : StableHlo.TRef sig ⟨S2048x2048, .f32⟩) main_call5.v0 (extractStridedSlice S1x2048 ![2047, 0] · slices_S2048x2048_S1x2048_2047_0),
    StableHlo.TRef.unary (StableHlo.TRef.of main_v42 : StableHlo.TRef sig ⟨S2048x2048, .f32⟩) main_call5.v1 (extractStridedSlice S2047x2048 ![0, 0] · slices_S2048x2048_S2047x2048_0_0),
    StableHlo.TRef.binary main_call5.v0 main_call5.v1 main_call5.v2 (fun a b => concatenate S2048x2048 0 [⟨S1x2048, a⟩, ⟨S2047x2048, b⟩] concatenates_S1x2048_S2047x2048_S2048x2048_d0),
    StableHlo.TRef.unary main_call5.v2 main_call5.v3 (extractStridedSlice S2048x1 ![0, 2047] · slices_S2048x2048_S2048x1_0_2047),
    StableHlo.TRef.unary main_call5.v2 main_call5.v4 (extractStridedSlice S2048x2047 ![0, 0] · slices_S2048x2048_S2048x2047_0_0),
    StableHlo.TRef.binary main_call5.v3 main_call5.v4 main_call5.v5 (fun a b => concatenate S2048x2048 1 [⟨S2048x1, a⟩, ⟨S2048x2047, b⟩] concatenates_S2048x1_S2048x2047_S2048x2048_d1),
    StableHlo.unary main_v25 main_v44 ((extractStridedSlice S2048x2048x1 ![0, 0, 6] · slices_S2048x2048x9_S2048x2048x1_0_0_6) : (⟨S2048x2048x9, .f32⟩ : BufTy).Contents (Elt F) → (⟨S2048x2048x1, .f32⟩ : BufTy).Contents (Elt F)),
    StableHlo.reshape main_v44 main_v45 rfl shapeCasts_S2048x2048x1_S2048x2048,
    StableHlo.TRef.unary (StableHlo.TRef.of main_v45 : StableHlo.TRef sig ⟨S2048x2048, .f32⟩) main_call6.v0 (extractStridedSlice S2047x2048 ![1, 0] · slices_S2048x2048_S2047x2048_1_0),
    StableHlo.TRef.unary (StableHlo.TRef.of main_v45 : StableHlo.TRef sig ⟨S2048x2048, .f32⟩) main_call6.v1 (extractStridedSlice S1x2048 ![0, 0] · slices_S2048x2048_S1x2048_0_0),
    StableHlo.TRef.binary main_call6.v0 main_call6.v1 main_call6.v2 (fun a b => concatenate S2048x2048 0 [⟨S2047x2048, a⟩, ⟨S1x2048, b⟩] concatenates_S2047x2048_S1x2048_S2048x2048_d0),
    StableHlo.TRef.unary main_call6.v2 main_call6.v3 (extractStridedSlice S2048x1 ![0, 2047] · slices_S2048x2048_S2048x1_0_2047),
    StableHlo.TRef.unary main_call6.v2 main_call6.v4 (extractStridedSlice S2048x2047 ![0, 0] · slices_S2048x2048_S2048x2047_0_0),
    StableHlo.TRef.binary main_call6.v3 main_call6.v4 main_call6.v5 (fun a b => concatenate S2048x2048 1 [⟨S2048x1, a⟩, ⟨S2048x2047, b⟩] concatenates_S2048x1_S2048x2047_S2048x2048_d1),
    StableHlo.unary main_v25 main_v47 ((extractStridedSlice S2048x2048x1 ![0, 0, 7] · slices_S2048x2048x9_S2048x2048x1_0_0_7) : (⟨S2048x2048x9, .f32⟩ : BufTy).Contents (Elt F) → (⟨S2048x2048x1, .f32⟩ : BufTy).Contents (Elt F)),
    StableHlo.reshape main_v47 main_v48 rfl shapeCasts_S2048x2048x1_S2048x2048,
    StableHlo.TRef.unary (StableHlo.TRef.of main_v48 : StableHlo.TRef sig ⟨S2048x2048, .f32⟩) main_call7.v0 (extractStridedSlice S2047x2048 ![1, 0] · slices_S2048x2048_S2047x2048_1_0),
    StableHlo.TRef.unary (StableHlo.TRef.of main_v48 : StableHlo.TRef sig ⟨S2048x2048, .f32⟩) main_call7.v1 (extractStridedSlice S1x2048 ![0, 0] · slices_S2048x2048_S1x2048_0_0),
    StableHlo.TRef.binary main_call7.v0 main_call7.v1 main_call7.v2 (fun a b => concatenate S2048x2048 0 [⟨S2047x2048, a⟩, ⟨S1x2048, b⟩] concatenates_S2047x2048_S1x2048_S2048x2048_d0),
    StableHlo.TRef.unary main_call7.v2 main_call7.v3 (extractStridedSlice S2048x2047 ![0, 1] · slices_S2048x2048_S2048x2047_0_1),
    StableHlo.TRef.unary main_call7.v2 main_call7.v4 (extractStridedSlice S2048x1 ![0, 0] · slices_S2048x2048_S2048x1_0_0),
    StableHlo.TRef.binary main_call7.v3 main_call7.v4 main_call7.v5 (fun a b => concatenate S2048x2048 1 [⟨S2048x2047, a⟩, ⟨S2048x1, b⟩] concatenates_S2048x2047_S2048x1_S2048x2048_d1),
    StableHlo.unary main_v25 main_v50 ((extractStridedSlice S2048x2048x1 ![0, 0, 8] · slices_S2048x2048x9_S2048x2048x1_0_0_8) : (⟨S2048x2048x9, .f32⟩ : BufTy).Contents (Elt F) → (⟨S2048x2048x1, .f32⟩ : BufTy).Contents (Elt F)),
    StableHlo.reshape main_v50 main_v51 rfl shapeCasts_S2048x2048x1_S2048x2048,
    StableHlo.TRef.unary (StableHlo.TRef.of main_v51 : StableHlo.TRef sig ⟨S2048x2048, .f32⟩) main_call8.v0 (extractStridedSlice S1x2048 ![2047, 0] · slices_S2048x2048_S1x2048_2047_0),
    StableHlo.TRef.unary (StableHlo.TRef.of main_v51 : StableHlo.TRef sig ⟨S2048x2048, .f32⟩) main_call8.v1 (extractStridedSlice S2047x2048 ![0, 0] · slices_S2048x2048_S2047x2048_0_0),
    StableHlo.TRef.binary main_call8.v0 main_call8.v1 main_call8.v2 (fun a b => concatenate S2048x2048 0 [⟨S1x2048, a⟩, ⟨S2047x2048, b⟩] concatenates_S1x2048_S2047x2048_S2048x2048_d0),
    StableHlo.TRef.unary main_call8.v2 main_call8.v3 (extractStridedSlice S2048x2047 ![0, 1] · slices_S2048x2048_S2048x2047_0_1),
    StableHlo.TRef.unary main_call8.v2 main_call8.v4 (extractStridedSlice S2048x1 ![0, 0] · slices_S2048x2048_S2048x1_0_0),
    StableHlo.TRef.binary main_call8.v3 main_call8.v4 main_call8.v5 (fun a b => concatenate S2048x2048 1 [⟨S2048x2047, a⟩, ⟨S2048x1, b⟩] concatenates_S2048x2047_S2048x1_S2048x2048_d1),
    StableHlo.unary main_v28 main_v53 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v31 main_v54 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v34 main_v55 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v37 main_v56 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v40 main_v57 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v43 main_v58 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v46 main_v59 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v49 main_v60 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v52 main_v61 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.nary ![main_v53, main_v54, main_v55, main_v56, main_v57, main_v58, main_v59, main_v60, main_v61] main_v62 (fun u => concatenate S2048x2048x9 2 [⟨S2048x2048x1, u 0⟩, ⟨S2048x2048x1, u 1⟩, ⟨S2048x2048x1, u 2⟩, ⟨S2048x2048x1, u 3⟩, ⟨S2048x2048x1, u 4⟩, ⟨S2048x2048x1, u 5⟩, ⟨S2048x2048x1, u 6⟩, ⟨S2048x2048x1, u 7⟩, ⟨S2048x2048x1, u 8⟩] concatenates_S2048x2048x1_S2048x2048x1_S2048x2048x1_S2048x2048x1_S2048x2048x1_S2048x2048x1_S2048x2048x1_S2048x2048x1_S2048x2048x1_S2048x2048x9_d2),
    StableHlo.nullary main_c_8 (constantI S_ 32 0#32),
    StableHlo.unary main_c_8 main_v63 (broadcastInDim S9 ![] bcast_S_S9 : (⟨S_, .i32⟩ : BufTy).Contents (Elt F) → (⟨S9, .i32⟩ : BufTy).Contents (Elt F)),
    StableHlo.binary main_c main_v63 main_v64 (cmpi .slt : (⟨S9, .i32⟩ : BufTy).Contents (Elt F) → (⟨S9, .i32⟩ : BufTy).Contents (Elt F) → (⟨S9, .i1⟩ : BufTy).Contents (Elt F)),
    StableHlo.nullary main_c_9 (constantI S_ 32 9#32),
    StableHlo.unary main_c_9 main_v65 (broadcastInDim S9 ![] bcast_S_S9 : (⟨S_, .i32⟩ : BufTy).Contents (Elt F) → (⟨S9, .i32⟩ : BufTy).Contents (Elt F)),
    StableHlo.binary main_c main_v65 main_v66 (addi : (⟨S9, .i32⟩ : BufTy).Contents (Elt F) → (⟨S9, .i32⟩ : BufTy).Contents (Elt F) → (⟨S9, .i32⟩ : BufTy).Contents (Elt F)),
    StableHlo.ternary main_v64 main_v66 main_c main_v67 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    StableHlo.unary main_v67 main_v68 (broadcastInDim S9x1 ![0] bcast_S9_S9x1_0 : (⟨S9, .i32⟩ : BufTy).Contents (Elt F) → (⟨S9x1, .i32⟩ : BufTy).Contents (Elt F)),
    StableHlo.binary main_v25 main_v68 main_v69 ((fun x i => Host.gather gather_S2048x2048x9_S9x1_S2048x2048x9_01_2_n_n_2_1_204820481 x i) : (⟨S2048x2048x9, .f32⟩ : BufTy).Contents (Elt F) → (⟨S9x1, .i32⟩ : BufTy).Contents (Elt F) → (⟨S2048x2048x9, .f32⟩ : BufTy).Contents (Elt F)),
    StableHlo.unary main_arg3 main_v70 (broadcastInDim S2048x2048x1 ![0, 1] bcast_S2048x2048_S2048x2048x1_0_1 : (⟨S2048x2048, .i1⟩ : BufTy).Contents (Elt F) → (⟨S2048x2048x1, .i1⟩ : BufTy).Contents (Elt F)),
    StableHlo.TRef.unary (StableHlo.TRef.of main_v70 : StableHlo.TRef sig ⟨S2048x2048x1, .i1⟩) main_call9.v0 (broadcastInDim S2048x2048x9 ![0, 1, 2] bcast_S2048x2048x1_S2048x2048x9_0_1_2),
    StableHlo.TRef.ternary main_call9.v0 (StableHlo.TRef.of main_v69 : StableHlo.TRef sig ⟨S2048x2048x9, .f32⟩) (StableHlo.TRef.of main_v62 : StableHlo.TRef sig ⟨S2048x2048x9, .f32⟩) main_call9.v1 select,
    StableHlo.nullary main_cst_10 (constant S_ .f32 0x00000000#32),
    StableHlo.binary main_v71 main_cst_10 main_v72 ((fun x v => Host.reduceAdd x v reducesTo_S2048x2048x9_S2048x2048_d2 h_S_) : (⟨S2048x2048x9, .f32⟩ : BufTy).Contents (Elt F) → (⟨S_, .f32⟩ : BufTy).Contents (Elt F) → (⟨S2048x2048, .f32⟩ : BufTy).Contents (Elt F)),
    StableHlo.binary main_v71 main_cst_1 main_v73 ((fun l r => Host.dotGeneral dot_S2048x2048x9_S9x2_S2048x2048x2_2_0_01_1_n_n none l r) : (⟨S2048x2048x9, .f32⟩ : BufTy).Contents (Elt F) → (⟨S9x2, .f32⟩ : BufTy).Contents (Elt F) → (⟨S2048x2048x2, .f32⟩ : BufTy).Contents (Elt F)),
    StableHlo.unary main_v72 main_v74 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v74 main_v75 (broadcastInDim S2048x2048x2 ![0, 1, 2] bcast_S2048x2048x1_S2048x2048x2_0_1_2 : (⟨S2048x2048x1, .f32⟩ : BufTy).Contents (Elt F) → (⟨S2048x2048x2, .f32⟩ : BufTy).Contents (Elt F)),
    StableHlo.binary main_v73 main_v75 main_v76 (Host.divf : (⟨S2048x2048x2, .f32⟩ : BufTy).Contents (Elt F) → (⟨S2048x2048x2, .f32⟩ : BufTy).Contents (Elt F) → (⟨S2048x2048x2, .f32⟩ : BufTy).Contents (Elt F)),
    StableHlo.unary main_v72 main_v77 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.nary ![main_v71, main_v77, main_v76] main_v78 (fun u => concatenate S2048x2048x12 2 [⟨S2048x2048x9, u 0⟩, ⟨S2048x2048x1, u 1⟩, ⟨S2048x2048x2, u 2⟩] concatenates_S2048x2048x9_S2048x2048x1_S2048x2048x2_S2048x2048x12_d2) ]

end Cert.ReferenceIdeal.Hand

end
-- ==== Proof.RefRun.lean ====
/-
  The reference program's run, read back as a fold.

  @main is a straight line: its two windows run one after the other, and each call of a module-local function
  runs the callee's operations on the call's own buffers. Unfolding the windows and the callees and reassociating
  the sequencing leaves exactly the list `ops` run in order. The library's theorem for a straight line then gives:
  from any memory with zero counters every weakly fair execution terminates, and every buffer ends at the fold of
  the operations' results over the contents it was launched with. No operation writes an argument buffer, so the
  four arguments end as they began.
-/
import proofs.«140047_j18760417149386_2_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

-- one hundred and thirty-eight binds reassociated: the rewriting recurses once per statement
set_option maxRecDepth 16384 in
set_option maxHeartbeats 4000000 in
/-- @main is the straight line `ops`: the windows and the called functions unfolded, the call records read at
    their fields, and the sequencing reassociated (`bind_assoc`, `pure_bind`), both sides are one chain of steps. -/
theorem main_eq (c : Dev nD) : main (F := F) c = seq ops := by
  simp only [main, main_part0, main_part1, fn_roll_static.body, fn_roll_static_0.body, fn_roll_static_1.body, fn_roll_static_2.body, fn_roll_static_3.body, fn_roll_static_4.body, fn_roll_static_5.body, fn_roll_static_6.body, fn_roll_static_7.body, fn_where.body, seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., binary_bufs_sub .., binary_bufs_sub ..,
    nullary_bufs_sub .., binary_bufs_sub .., unary_bufs_sub .., unary_bufs_sub .., unary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., binary_bufs_sub .., nullary_bufs_sub .., unary_bufs_sub .., binary_bufs_sub .., binary_bufs_sub ..,
    unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., unary_bufs_sub ..,
    binary_bufs_sub .., unary_bufs_sub .., unary_bufs_sub .., binary_bufs_sub .., unary_bufs_sub .., reshape_bufs_sub ..,
    unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., unary_bufs_sub ..,
    binary_bufs_sub .., unary_bufs_sub .., unary_bufs_sub .., binary_bufs_sub .., unary_bufs_sub .., reshape_bufs_sub ..,
    unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., unary_bufs_sub ..,
    binary_bufs_sub .., unary_bufs_sub .., unary_bufs_sub .., binary_bufs_sub .., unary_bufs_sub .., reshape_bufs_sub ..,
    unary_bufs_sub .., unary_bufs_sub .., binary_bufs_sub .., unary_bufs_sub .., unary_bufs_sub .., binary_bufs_sub ..,
    unary_bufs_sub .., unary_bufs_sub .., unary_bufs_sub .., unary_bufs_sub .., unary_bufs_sub .., unary_bufs_sub ..,
    unary_bufs_sub .., unary_bufs_sub .., unary_bufs_sub .., nary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., ternary_bufs_sub .., nullary_bufs_sub .., binary_bufs_sub ..,
    binary_bufs_sub .., unary_bufs_sub .., unary_bufs_sub .., binary_bufs_sub .., unary_bufs_sub .., nary_bufs_sub ..⟩

/-- On every device, for any float values, from any memory with zero counters: every weakly fair execution of
    @main terminates with the result buffer at the fold of the operations over the launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = after (ops (F := F)) (launchContents m c) (main_v78 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v78,
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.Hand

end
-- ==== Proof.RefVSeg.lean ====
/-
  The reference's list of operations cut into three consecutive runs: the collision (through the collided
  populations), the nine periodic shifts of its channels, and the rest (the shifted channels laid side by side, the
  bounce-back gather, the choice by the obstacle mask, the moments and the packed result). The contents after a
  list run in order are those after its second part, started from those after its first part.
-/
import proofs.«140047_j18760417149386_2_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- The collision: the constant tables and %0 … %25. -/
abbrev opsA : List (HloOp τ sig (Elt F)) :=
  [ StableHlo.nullary main_cst (fun i => FloatOps.ofBits .f32 (lit0 (S9x2.rowMajor i))),
    StableHlo.nullary main_cst_0 (fun i => FloatOps.ofBits .f32 (lit1 (S9.rowMajor i))),
    StableHlo.nullary main_c (fun i => lit2 (S9.rowMajor i)),
    StableHlo.nullary main_cst_1 (fun i => FloatOps.ofBits .f32 (lit3 (S9x2.rowMajor i))),
    StableHlo.binary main_arg2 main_cst main_v0 ((fun l r => Host.dotGeneral dot_S2048x2048x2_S9x2_S2048x2048x9_2_1_01_0_n_n none l r) : (⟨S2048x2048x2, .f32⟩ : BufTy).Contents (Elt F) → (⟨S9x2, .f32⟩ : BufTy).Contents (Elt F) → (⟨S2048x2048x9, .f32⟩ : BufTy).Contents (Elt F)),
    StableHlo.binary main_arg2 main_arg2 main_v1 (mulf : (⟨S2048x2048x2, .f32⟩ : BufTy).Contents (Elt F) → (⟨S2048x2048x2, .f32⟩ : BufTy).Contents (Elt F) → (⟨S2048x2048x2, .f32⟩ : BufTy).Contents (Elt F)),
    StableHlo.nullary main_cst_2 (constant S_ .f32 0x00000000#32),
    StableHlo.binary main_v1 main_cst_2 main_v2 ((fun x v => Host.reduceAdd x v reducesTo_S2048x2048x2_S2048x2048_d2 h_S_) : (⟨S2048x2048x2, .f32⟩ : BufTy).Contents (Elt F) → (⟨S_, .f32⟩ : BufTy).Contents (Elt F) → (⟨S2048x2048, .f32⟩ : BufTy).Contents (Elt F)),
    StableHlo.unary main_v2 main_v3 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_arg1 main_v4 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_cst_0 main_v5 (broadcastInDim S1x1x9 ![2] bcast_S9_S1x1x9_2 : (⟨S9, .f32⟩ : BufTy).Contents (Elt F) → (⟨S1x1x9, .f32⟩ : BufTy).Contents (Elt F)),
    StableHlo.unary main_v5 main_v6 (broadcastInDim S2048x2048x9 ![0, 1, 2] bcast_S1x1x9_S2048x2048x9_0_1_2 : (⟨S1x1x9, .f32⟩ : BufTy).Contents (Elt F) → (⟨S2048x2048x9, .f32⟩ : BufTy).Contents (Elt F)),
    StableHlo.unary main_v4 main_v7 (broadcastInDim S2048x2048x9 ![0, 1, 2] bcast_S2048x2048x1_S2048x2048x9_0_1_2 : (⟨S2048x2048x1, .f32⟩ : BufTy).Contents (Elt F) → (⟨S2048x2048x9, .f32⟩ : BufTy).Contents (Elt F)),
    StableHlo.binary main_v6 main_v7 main_v8 (mulf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_3 (constant S_ .f32 0x40400000#32),
    StableHlo.unary main_cst_3 main_v9 (broadcastInDim S2048x2048x9 ![] bcast_S_S2048x2048x9 : (⟨S_, .f32⟩ : BufTy).Contents (Elt F) → (⟨S2048x2048x9, .f32⟩ : BufTy).Contents (Elt F)),
    StableHlo.binary main_v9 main_v0 main_v10 (mulf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_4 (constant S_ .f32 0x3F800000#32),
    StableHlo.unary main_cst_4 main_v11 (broadcastInDim S2048x2048x9 ![] bcast_S_S2048x2048x9 : (⟨S_, .f32⟩ : BufTy).Contents (Elt F) → (⟨S2048x2048x9, .f32⟩ : BufTy).Contents (Elt F)),
    StableHlo.binary main_v11 main_v10 main_v12 (addf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_5 (constant S_ .f32 0x40900000#32),
    StableHlo.unary main_cst_5 main_v13 (broadcastInDim S2048x2048x9 ![] bcast_S_S2048x2048x9 : (⟨S_, .f32⟩ : BufTy).Contents (Elt F) → (⟨S2048x2048x9, .f32⟩ : BufTy).Contents (Elt F)),
    StableHlo.binary main_v13 main_v0 main_v14 (mulf : (⟨S2048x2048x9, .f32⟩ : BufTy).Contents (Elt F) → (⟨S2048x2048x9, .f32⟩ : BufTy).Contents (Elt F) → (⟨S2048x2048x9, .f32⟩ : BufTy).Contents (Elt F)),
    StableHlo.binary main_v14 main_v0 main_v15 (mulf : (⟨S2048x2048x9, .f32⟩ : BufTy).Contents (Elt F) → (⟨S2048x2048x9, .f32⟩ : BufTy).Contents (Elt F) → (⟨S2048x2048x9, .f32⟩ : BufTy).Contents (Elt F)),
    StableHlo.binary main_v12 main_v15 main_v16 (addf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_6 (constant S_ .f32 0x3FC00000#32),
    StableHlo.unary main_cst_6 main_v17 (broadcastInDim S2048x2048x1 ![] bcast_S_S2048x2048x1 : (⟨S_, .f32⟩ : BufTy).Contents (Elt F) → (⟨S2048x2048x1, .f32⟩ : BufTy).Contents (Elt F)),
    StableHlo.binary main_v17 main_v3 main_v18 (mulf : (⟨S2048x2048x1, .f32⟩ : BufTy).Contents (Elt F) → (⟨S2048x2048x1, .f32⟩ : BufTy).Contents (Elt F) → (⟨S2048x2048x1, .f32⟩ : BufTy).Contents (Elt F)),
    StableHlo.unary main_v18 main_v19 (broadcastInDim S2048x2048x9 ![0, 1, 2] bcast_S2048x2048x1_S2048x2048x9_0_1_2 : (⟨S2048x2048x1, .f32⟩ : BufTy).Contents (Elt F) → (⟨S2048x2048x9, .f32⟩ : BufTy).Contents (Elt F)),
    StableHlo.binary main_v16 main_v19 main_v20 (subf : (⟨S2048x2048x9, .f32⟩ : BufTy).Contents (Elt F) → (⟨S2048x2048x9, .f32⟩ : BufTy).Contents (Elt F) → (⟨S2048x2048x9, .f32⟩ : BufTy).Contents (Elt F)),
    StableHlo.binary main_v8 main_v20 main_v21 (mulf : (⟨S2048x2048x9, .f32⟩ : BufTy).Contents (Elt F) → (⟨S2048x2048x9, .f32⟩ : BufTy).Contents (Elt F) → (⟨S2048x2048x9, .f32⟩ : BufTy).Contents (Elt F)),
    StableHlo.binary main_arg0 main_v21 main_v22 (subf : (⟨S2048x2048x9, .f32⟩ : BufTy).Contents (Elt F) → (⟨S2048x2048x9, .f32⟩ : BufTy).Contents (Elt F) → (⟨S2048x2048x9, .f32⟩ : BufTy).Contents (Elt F)),
    StableHlo.nullary main_cst_7 (constant S_ .f32 0x3F19999A#32),
    StableHlo.unary main_cst_7 main_v23 (broadcastInDim S2048x2048x9 ![] bcast_S_S2048x2048x9 : (⟨S_, .f32⟩ : BufTy).Contents (Elt F) → (⟨S2048x2048x9, .f32⟩ : BufTy).Contents (Elt F)),
    StableHlo.binary main_v22 main_v23 main_v24 (Host.divf : (⟨S2048x2048x9, .f32⟩ : BufTy).Contents (Elt F) → (⟨S2048x2048x9, .f32⟩ : BufTy).Contents (Elt F) → (⟨S2048x2048x9, .f32⟩ : BufTy).Contents (Elt F)),
    StableHlo.binary main_arg0 main_v24 main_v25 (subf : (⟨S2048x2048x9, .f32⟩ : BufTy).Contents (Elt F) → (⟨S2048x2048x9, .f32⟩ : BufTy).Contents (Elt F) → (⟨S2048x2048x9, .f32⟩ : BufTy).Contents (Elt F)) ]

/-- The nine channels cut out of %25 and shifted: %26 … %52. -/
abbrev opsR : List (HloOp τ sig (Elt F)) :=
  [ StableHlo.unary main_v25 main_v26 ((extractStridedSlice S2048x2048x1 ![0, 0, 0] · slices_S2048x2048x9_S2048x2048x1_0_0_0) : (⟨S2048x2048x9, .f32⟩ : BufTy).Contents (Elt F) → (⟨S2048x2048x1, .f32⟩ : BufTy).Contents (Elt F)),
    StableHlo.reshape main_v26 main_v27 rfl shapeCasts_S2048x2048x1_S2048x2048,
    StableHlo.TRef.unary (StableHlo.TRef.of main_v27 : StableHlo.TRef sig ⟨S2048x2048, .f32⟩) main_call0.v0 (extractStridedSlice S2048x2048 ![0, 0] · slices_S2048x2048_S2048x2048_0_0),
    StableHlo.TRef.unary (StableHlo.TRef.of main_v27 : StableHlo.TRef sig ⟨S2048x2048, .f32⟩) main_call0.v1 (extractStridedSlice S0x2048 ![0, 0] · slices_S2048x2048_S0x2048_0_0),
    StableHlo.TRef.binary main_call0.v0 main_call0.v1 main_call0.v2 (fun a b => concatenate S2048x2048 0 [⟨S2048x2048, a⟩, ⟨S0x2048, b⟩] concatenates_S2048x2048_S0x2048_S2048x2048_d0),
    StableHlo.TRef.unary main_call0.v2 main_call0.v3 (extractStridedSlice S2048x2048 ![0, 0] · slices_S2048x2048_S2048x2048_0_0),
    StableHlo.TRef.unary main_call0.v2 main_call0.v4 (extractStridedSlice S2048x0 ![0, 0] · slices_S2048x2048_S2048x0_0_0),
    StableHlo.TRef.binary main_call0.v3 main_call0.v4 main_call0.v5 (fun a b => concatenate S2048x2048 1 [⟨S2048x2048, a⟩, ⟨S2048x0, b⟩] concatenates_S2048x2048_S2048x0_S2048x2048_d1),
    StableHlo.unary main_v25 main_v29 ((extractStridedSlice S2048x2048x1 ![0, 0, 1] · slices_S2048x2048x9_S2048x2048x1_0_0_1) : (⟨S2048x2048x9, .f32⟩ : BufTy).Contents (Elt F) → (⟨S2048x2048x1, .f32⟩ : BufTy).Contents (Elt F)),
    StableHlo.reshape main_v29 main_v30 rfl shapeCasts_S2048x2048x1_S2048x2048,
    StableHlo.TRef.unary (StableHlo.TRef.of main_v30 : StableHlo.TRef sig ⟨S2048x2048, .f32⟩) main_call1.v0 (extractStridedSlice S1x2048 ![2047, 0] · slices_S2048x2048_S1x2048_2047_0),
    StableHlo.TRef.unary (StableHlo.TRef.of main_v30 : StableHlo.TRef sig ⟨S2048x2048, .f32⟩) main_call1.v1 (extractStridedSlice S2047x2048 ![0, 0] · slices_S2048x2048_S2047x2048_0_0),
    StableHlo.TRef.binary main_call1.v0 main_call1.v1 main_call1.v2 (fun a b => concatenate S2048x2048 0 [⟨S1x2048, a⟩, ⟨S2047x2048, b⟩] concatenates_S1x2048_S2047x2048_S2048x2048_d0),
    StableHlo.TRef.unary main_call1.v2 main_call1.v3 (extractStridedSlice S2048x2048 ![0, 0] · slices_S2048x2048_S2048x2048_0_0),
    StableHlo.TRef.unary main_call1.v2 main_call1.v4 (extractStridedSlice S2048x0 ![0, 0] · slices_S2048x2048_S2048x0_0_0),
    StableHlo.TRef.binary main_call1.v3 main_call1.v4 main_call1.v5 (fun a b => concatenate S2048x2048 1 [⟨S2048x2048, a⟩, ⟨S2048x0, b⟩] concatenates_S2048x2048_S2048x0_S2048x2048_d1),
    StableHlo.unary main_v25 main_v32 ((extractStridedSlice S2048x2048x1 ![0, 0, 2] · slices_S2048x2048x9_S2048x2048x1_0_0_2) : (⟨S2048x2048x9, .f32⟩ : BufTy).Contents (Elt F) → (⟨S2048x2048x1, .f32⟩ : BufTy).Contents (Elt F)),
    StableHlo.reshape main_v32 main_v33 rfl shapeCasts_S2048x2048x1_S2048x2048,
    StableHlo.TRef.unary (StableHlo.TRef.of main_v33 : StableHlo.TRef sig ⟨S2048x2048, .f32⟩) main_call2.v0 (extractStridedSlice S2048x2048 ![0, 0] · slices_S2048x2048_S2048x2048_0_0),
    StableHlo.TRef.unary (StableHlo.TRef.of main_v33 : StableHlo.TRef sig ⟨S2048x2048, .f32⟩) main_call2.v1 (extractStridedSlice S0x2048 ![0, 0] · slices_S2048x2048_S0x2048_0_0),
    StableHlo.TRef.binary main_call2.v0 main_call2.v1 main_call2.v2 (fun a b => concatenate S2048x2048 0 [⟨S2048x2048, a⟩, ⟨S0x2048, b⟩] concatenates_S2048x2048_S0x2048_S2048x2048_d0),
    StableHlo.TRef.unary main_call2.v2 main_call2.v3 (extractStridedSlice S2048x1 ![0, 2047] · slices_S2048x2048_S2048x1_0_2047),
    StableHlo.TRef.unary main_call2.v2 main_call2.v4 (extractStridedSlice S2048x2047 ![0, 0] · slices_S2048x2048_S2048x2047_0_0),
    StableHlo.TRef.binary main_call2.v3 main_call2.v4 main_call2.v5 (fun a b => concatenate S2048x2048 1 [⟨S2048x1, a⟩, ⟨S2048x2047, b⟩] concatenates_S2048x1_S2048x2047_S2048x2048_d1),
    StableHlo.unary main_v25 main_v35 ((extractStridedSlice S2048x2048x1 ![0, 0, 3] · slices_S2048x2048x9_S2048x2048x1_0_0_3) : (⟨S2048x2048x9, .f32⟩ : BufTy).Contents (Elt F) → (⟨S2048x2048x1, .f32⟩ : BufTy).Contents (Elt F)),
    StableHlo.reshape main_v35 main_v36 rfl shapeCasts_S2048x2048x1_S2048x2048,
    StableHlo.TRef.unary (StableHlo.TRef.of main_v36 : StableHlo.TRef sig ⟨S2048x2048, .f32⟩) main_call3.v0 (extractStridedSlice S2047x2048 ![1, 0] · slices_S2048x2048_S2047x2048_1_0),
    StableHlo.TRef.unary (StableHlo.TRef.of main_v36 : StableHlo.TRef sig ⟨S2048x2048, .f32⟩) main_call3.v1 (extractStridedSlice S1x2048 ![0, 0] · slices_S2048x2048_S1x2048_0_0),
    StableHlo.TRef.binary main_call3.v0 main_call3.v1 main_call3.v2 (fun a b => concatenate S2048x2048 0 [⟨S2047x2048, a⟩, ⟨S1x2048, b⟩] concatenates_S2047x2048_S1x2048_S2048x2048_d0),
    StableHlo.TRef.unary main_call3.v2 main_call3.v3 (extractStridedSlice S2048x2048 ![0, 0] · slices_S2048x2048_S2048x2048_0_0),
    StableHlo.TRef.unary main_call3.v2 main_call3.v4 (extractStridedSlice S2048x0 ![0, 0] · slices_S2048x2048_S2048x0_0_0),
    StableHlo.TRef.binary main_call3.v3 main_call3.v4 main_call3.v5 (fun a b => concatenate S2048x2048 1 [⟨S2048x2048, a⟩, ⟨S2048x0, b⟩] concatenates_S2048x2048_S2048x0_S2048x2048_d1),
    StableHlo.unary main_v25 main_v38 ((extractStridedSlice S2048x2048x1 ![0, 0, 4] · slices_S2048x2048x9_S2048x2048x1_0_0_4) : (⟨S2048x2048x9, .f32⟩ : BufTy).Contents (Elt F) → (⟨S2048x2048x1, .f32⟩ : BufTy).Contents (Elt F)),
    StableHlo.reshape main_v38 main_v39 rfl shapeCasts_S2048x2048x1_S2048x2048,
    StableHlo.TRef.unary (StableHlo.TRef.of main_v39 : StableHlo.TRef sig ⟨S2048x2048, .f32⟩) main_call4.v0 (extractStridedSlice S2048x2048 ![0, 0] · slices_S2048x2048_S2048x2048_0_0),
    StableHlo.TRef.unary (StableHlo.TRef.of main_v39 : StableHlo.TRef sig ⟨S2048x2048, .f32⟩) main_call4.v1 (extractStridedSlice S0x2048 ![0, 0] · slices_S2048x2048_S0x2048_0_0),
    StableHlo.TRef.binary main_call4.v0 main_call4.v1 main_call4.v2 (fun a b => concatenate S2048x2048 0 [⟨S2048x2048, a⟩, ⟨S0x2048, b⟩] concatenates_S2048x2048_S0x2048_S2048x2048_d0),
    StableHlo.TRef.unary main_call4.v2 main_call4.v3 (extractStridedSlice S2048x2047 ![0, 1] · slices_S2048x2048_S2048x2047_0_1),
    StableHlo.TRef.unary main_call4.v2 main_call4.v4 (extractStridedSlice S2048x1 ![0, 0] · slices_S2048x2048_S2048x1_0_0),
    StableHlo.TRef.binary main_call4.v3 main_call4.v4 main_call4.v5 (fun a b => concatenate S2048x2048 1 [⟨S2048x2047, a⟩, ⟨S2048x1, b⟩] concatenates_S2048x2047_S2048x1_S2048x2048_d1),
    StableHlo.unary main_v25 main_v41 ((extractStridedSlice S2048x2048x1 ![0, 0, 5] · slices_S2048x2048x9_S2048x2048x1_0_0_5) : (⟨S2048x2048x9, .f32⟩ : BufTy).Contents (Elt F) → (⟨S2048x2048x1, .f32⟩ : BufTy).Contents (Elt F)),
    StableHlo.reshape main_v41 main_v42 rfl shapeCasts_S2048x2048x1_S2048x2048,
    StableHlo.TRef.unary (StableHlo.TRef.of main_v42 : StableHlo.TRef sig ⟨S2048x2048, .f32⟩) main_call5.v0 (extractStridedSlice S1x2048 ![2047, 0] · slices_S2048x2048_S1x2048_2047_0),
    StableHlo.TRef.unary (StableHlo.TRef.of main_v42 : StableHlo.TRef sig ⟨S2048x2048, .f32⟩) main_call5.v1 (extractStridedSlice S2047x2048 ![0, 0] · slices_S2048x2048_S2047x2048_0_0),
    StableHlo.TRef.binary main_call5.v0 main_call5.v1 main_call5.v2 (fun a b => concatenate S2048x2048 0 [⟨S1x2048, a⟩, ⟨S2047x2048, b⟩] concatenates_S1x2048_S2047x2048_S2048x2048_d0),
    StableHlo.TRef.unary main_call5.v2 main_call5.v3 (extractStridedSlice S2048x1 ![0, 2047] · slices_S2048x2048_S2048x1_0_2047),
    StableHlo.TRef.unary main_call5.v2 main_call5.v4 (extractStridedSlice S2048x2047 ![0, 0] · slices_S2048x2048_S2048x2047_0_0),
    StableHlo.TRef.binary main_call5.v3 main_call5.v4 main_call5.v5 (fun a b => concatenate S2048x2048 1 [⟨S2048x1, a⟩, ⟨S2048x2047, b⟩] concatenates_S2048x1_S2048x2047_S2048x2048_d1),
    StableHlo.unary main_v25 main_v44 ((extractStridedSlice S2048x2048x1 ![0, 0, 6] · slices_S2048x2048x9_S2048x2048x1_0_0_6) : (⟨S2048x2048x9, .f32⟩ : BufTy).Contents (Elt F) → (⟨S2048x2048x1, .f32⟩ : BufTy).Contents (Elt F)),
    StableHlo.reshape main_v44 main_v45 rfl shapeCasts_S2048x2048x1_S2048x2048,
    StableHlo.TRef.unary (StableHlo.TRef.of main_v45 : StableHlo.TRef sig ⟨S2048x2048, .f32⟩) main_call6.v0 (extractStridedSlice S2047x2048 ![1, 0] · slices_S2048x2048_S2047x2048_1_0),
    StableHlo.TRef.unary (StableHlo.TRef.of main_v45 : StableHlo.TRef sig ⟨S2048x2048, .f32⟩) main_call6.v1 (extractStridedSlice S1x2048 ![0, 0] · slices_S2048x2048_S1x2048_0_0),
    StableHlo.TRef.binary main_call6.v0 main_call6.v1 main_call6.v2 (fun a b => concatenate S2048x2048 0 [⟨S2047x2048, a⟩, ⟨S1x2048, b⟩] concatenates_S2047x2048_S1x2048_S2048x2048_d0),
    StableHlo.TRef.unary main_call6.v2 main_call6.v3 (extractStridedSlice S2048x1 ![0, 2047] · slices_S2048x2048_S2048x1_0_2047),
    StableHlo.TRef.unary main_call6.v2 main_call6.v4 (extractStridedSlice S2048x2047 ![0, 0] · slices_S2048x2048_S2048x2047_0_0),
    StableHlo.TRef.binary main_call6.v3 main_call6.v4 main_call6.v5 (fun a b => concatenate S2048x2048 1 [⟨S2048x1, a⟩, ⟨S2048x2047, b⟩] concatenates_S2048x1_S2048x2047_S2048x2048_d1),
    StableHlo.unary main_v25 main_v47 ((extractStridedSlice S2048x2048x1 ![0, 0, 7] · slices_S2048x2048x9_S2048x2048x1_0_0_7) : (⟨S2048x2048x9, .f32⟩ : BufTy).Contents (Elt F) → (⟨S2048x2048x1, .f32⟩ : BufTy).Contents (Elt F)),
    StableHlo.reshape main_v47 main_v48 rfl shapeCasts_S2048x2048x1_S2048x2048,
    StableHlo.TRef.unary (StableHlo.TRef.of main_v48 : StableHlo.TRef sig ⟨S2048x2048, .f32⟩) main_call7.v0 (extractStridedSlice S2047x2048 ![1, 0] · slices_S2048x2048_S2047x2048_1_0),
    StableHlo.TRef.unary (StableHlo.TRef.of main_v48 : StableHlo.TRef sig ⟨S2048x2048, .f32⟩) main_call7.v1 (extractStridedSlice S1x2048 ![0, 0] · slices_S2048x2048_S1x2048_0_0),
    StableHlo.TRef.binary main_call7.v0 main_call7.v1 main_call7.v2 (fun a b => concatenate S2048x2048 0 [⟨S2047x2048, a⟩, ⟨S1x2048, b⟩] concatenates_S2047x2048_S1x2048_S2048x2048_d0),
    StableHlo.TRef.unary main_call7.v2 main_call7.v3 (extractStridedSlice S2048x2047 ![0, 1] · slices_S2048x2048_S2048x2047_0_1),
    StableHlo.TRef.unary main_call7.v2 main_call7.v4 (extractStridedSlice S2048x1 ![0, 0] · slices_S2048x2048_S2048x1_0_0),
    StableHlo.TRef.binary main_call7.v3 main_call7.v4 main_call7.v5 (fun a b => concatenate S2048x2048 1 [⟨S2048x2047, a⟩, ⟨S2048x1, b⟩] concatenates_S2048x2047_S2048x1_S2048x2048_d1),
    StableHlo.unary main_v25 main_v50 ((extractStridedSlice S2048x2048x1 ![0, 0, 8] · slices_S2048x2048x9_S2048x2048x1_0_0_8) : (⟨S2048x2048x9, .f32⟩ : BufTy).Contents (Elt F) → (⟨S2048x2048x1, .f32⟩ : BufTy).Contents (Elt F)),
    StableHlo.reshape main_v50 main_v51 rfl shapeCasts_S2048x2048x1_S2048x2048,
    StableHlo.TRef.unary (StableHlo.TRef.of main_v51 : StableHlo.TRef sig ⟨S2048x2048, .f32⟩) main_call8.v0 (extractStridedSlice S1x2048 ![2047, 0] · slices_S2048x2048_S1x2048_2047_0),
    StableHlo.TRef.unary (StableHlo.TRef.of main_v51 : StableHlo.TRef sig ⟨S2048x2048, .f32⟩) main_call8.v1 (extractStridedSlice S2047x2048 ![0, 0] · slices_S2048x2048_S2047x2048_0_0),
    StableHlo.TRef.binary main_call8.v0 main_call8.v1 main_call8.v2 (fun a b => concatenate S2048x2048 0 [⟨S1x2048, a⟩, ⟨S2047x2048, b⟩] concatenates_S1x2048_S2047x2048_S2048x2048_d0),
    StableHlo.TRef.unary main_call8.v2 main_call8.v3 (extractStridedSlice S2048x2047 ![0, 1] · slices_S2048x2048_S2048x2047_0_1),
    StableHlo.TRef.unary main_call8.v2 main_call8.v4 (extractStridedSlice S2048x1 ![0, 0] · slices_S2048x2048_S2048x1_0_0),
    StableHlo.TRef.binary main_call8.v3 main_call8.v4 main_call8.v5 (fun a b => concatenate S2048x2048 1 [⟨S2048x2047, a⟩, ⟨S2048x1, b⟩] concatenates_S2048x2047_S2048x1_S2048x2048_d1) ]

/-- The rest: %53 … %78. -/
abbrev opsT : List (HloOp τ sig (Elt F)) :=
  [ StableHlo.unary main_v28 main_v53 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v31 main_v54 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v34 main_v55 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v37 main_v56 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v40 main_v57 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v43 main_v58 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v46 main_v59 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v49 main_v60 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v52 main_v61 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.nary ![main_v53, main_v54, main_v55, main_v56, main_v57, main_v58, main_v59, main_v60, main_v61] main_v62 (fun u => concatenate S2048x2048x9 2 [⟨S2048x2048x1, u 0⟩, ⟨S2048x2048x1, u 1⟩, ⟨S2048x2048x1, u 2⟩, ⟨S2048x2048x1, u 3⟩, ⟨S2048x2048x1, u 4⟩, ⟨S2048x2048x1, u 5⟩, ⟨S2048x2048x1, u 6⟩, ⟨S2048x2048x1, u 7⟩, ⟨S2048x2048x1, u 8⟩] concatenates_S2048x2048x1_S2048x2048x1_S2048x2048x1_S2048x2048x1_S2048x2048x1_S2048x2048x1_S2048x2048x1_S2048x2048x1_S2048x2048x1_S2048x2048x9_d2),
    StableHlo.nullary main_c_8 (constantI S_ 32 0#32),
    StableHlo.unary main_c_8 main_v63 (broadcastInDim S9 ![] bcast_S_S9 : (⟨S_, .i32⟩ : BufTy).Contents (Elt F) → (⟨S9, .i32⟩ : BufTy).Contents (Elt F)),
    StableHlo.binary main_c main_v63 main_v64 (cmpi .slt : (⟨S9, .i32⟩ : BufTy).Contents (Elt F) → (⟨S9, .i32⟩ : BufTy).Contents (Elt F) → (⟨S9, .i1⟩ : BufTy).Contents (Elt F)),
    StableHlo.nullary main_c_9 (constantI S_ 32 9#32),
    StableHlo.unary main_c_9 main_v65 (broadcastInDim S9 ![] bcast_S_S9 : (⟨S_, .i32⟩ : BufTy).Contents (Elt F) → (⟨S9, .i32⟩ : BufTy).Contents (Elt F)),
    StableHlo.binary main_c main_v65 main_v66 (addi : (⟨S9, .i32⟩ : BufTy).Contents (Elt F) → (⟨S9, .i32⟩ : BufTy).Contents (Elt F) → (⟨S9, .i32⟩ : BufTy).Contents (Elt F)),
    StableHlo.ternary main_v64 main_v66 main_c main_v67 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    StableHlo.unary main_v67 main_v68 (broadcastInDim S9x1 ![0] bcast_S9_S9x1_0 : (⟨S9, .i32⟩ : BufTy).Contents (Elt F) → (⟨S9x1, .i32⟩ : BufTy).Contents (Elt F)),
    StableHlo.binary main_v25 main_v68 main_v69 ((fun x i => Host.gather gather_S2048x2048x9_S9x1_S2048x2048x9_01_2_n_n_2_1_204820481 x i) : (⟨S2048x2048x9, .f32⟩ : BufTy).Contents (Elt F) → (⟨S9x1, .i32⟩ : BufTy).Contents (Elt F) → (⟨S2048x2048x9, .f32⟩ : BufTy).Contents (Elt F)),
    StableHlo.unary main_arg3 main_v70 (broadcastInDim S2048x2048x1 ![0, 1] bcast_S2048x2048_S2048x2048x1_0_1 : (⟨S2048x2048, .i1⟩ : BufTy).Contents (Elt F) → (⟨S2048x2048x1, .i1⟩ : BufTy).Contents (Elt F)),
    StableHlo.TRef.unary (StableHlo.TRef.of main_v70 : StableHlo.TRef sig ⟨S2048x2048x1, .i1⟩) main_call9.v0 (broadcastInDim S2048x2048x9 ![0, 1, 2] bcast_S2048x2048x1_S2048x2048x9_0_1_2),
    StableHlo.TRef.ternary main_call9.v0 (StableHlo.TRef.of main_v69 : StableHlo.TRef sig ⟨S2048x2048x9, .f32⟩) (StableHlo.TRef.of main_v62 : StableHlo.TRef sig ⟨S2048x2048x9, .f32⟩) main_call9.v1 select,
    StableHlo.nullary main_cst_10 (constant S_ .f32 0x00000000#32),
    StableHlo.binary main_v71 main_cst_10 main_v72 ((fun x v => Host.reduceAdd x v reducesTo_S2048x2048x9_S2048x2048_d2 h_S_) : (⟨S2048x2048x9, .f32⟩ : BufTy).Contents (Elt F) → (⟨S_, .f32⟩ : BufTy).Contents (Elt F) → (⟨S2048x2048, .f32⟩ : BufTy).Contents (Elt F)),
    StableHlo.binary main_v71 main_cst_1 main_v73 ((fun l r => Host.dotGeneral dot_S2048x2048x9_S9x2_S2048x2048x2_2_0_01_1_n_n none l r) : (⟨S2048x2048x9, .f32⟩ : BufTy).Contents (Elt F) → (⟨S9x2, .f32⟩ : BufTy).Contents (Elt F) → (⟨S2048x2048x2, .f32⟩ : BufTy).Contents (Elt F)),
    StableHlo.unary main_v72 main_v74 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v74 main_v75 (broadcastInDim S2048x2048x2 ![0, 1, 2] bcast_S2048x2048x1_S2048x2048x2_0_1_2 : (⟨S2048x2048x1, .f32⟩ : BufTy).Contents (Elt F) → (⟨S2048x2048x2, .f32⟩ : BufTy).Contents (Elt F)),
    StableHlo.binary main_v73 main_v75 main_v76 (Host.divf : (⟨S2048x2048x2, .f32⟩ : BufTy).Contents (Elt F) → (⟨S2048x2048x2, .f32⟩ : BufTy).Contents (Elt F) → (⟨S2048x2048x2, .f32⟩ : BufTy).Contents (Elt F)),
    StableHlo.unary main_v72 main_v77 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.nary ![main_v71, main_v77, main_v76] main_v78 (fun u => concatenate S2048x2048x12 2 [⟨S2048x2048x9, u 0⟩, ⟨S2048x2048x1, u 1⟩, ⟨S2048x2048x2, u 2⟩] concatenates_S2048x2048x9_S2048x2048x1_S2048x2048x2_S2048x2048x12_d2) ]

/-- The list of operations is the three runs in order. -/
theorem ops_eq : (ops : List (HloOp τ sig (Elt F))) = opsA ++ (opsR ++ opsT) := rfl

/-- The contents after two lists run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.ReferenceIdeal.Hand

end
-- ==== Proof.RefVNary.lean ====
/-
  The result of a host operation with three or with nine operands given as a literal family of references.

  An operation over a family of operand buffers leaves, at its result buffer, its function of the family of the
  operands' contents. When the family is a literal list, the contents are restated here operand by operand, each at
  its own reference, so that a pass rewriting every buffer's contents to the term that computed it goes on into the
  operands: under the family's binder an operand's reference is no literal, and no result lemma applies to it.
  The three-operand and nine-operand forms follow the library's four-operand one.
-/
import Idealize.ShloMosaic.Lib.StableHlo.Run

noncomputable section

/-! ## Rewriting inside the pieces of a concatenation

The evidence that the pieces' shapes concatenate to the result shape is stated over the list of pieces, so a
rewriting pass cannot by itself replace a piece by an equal one; for a literal list of two, three or nine pieces
the evidence only reads the shapes, and equal pieces give equal concatenations. The three facts are congruence
rules only inside this namespace, which the rewriting pass below opens for itself. -/

namespace Idealize.ShloMosaic.ConcatCongr

theorem concatenate2_congr {α : Type} {t : Shape} {a : Fin t.rank} {s0 s1 : Shape} {x0 y0 : s0.Idx → α} {x1 y1 : s1.Idx → α}
    (h : Shape.Concatenates [s0, s1] t a) (e0 : x0 = y0) (e1 : x1 = y1) :
    concatenate t a [⟨s0, x0⟩, ⟨s1, x1⟩] h = concatenate t a [⟨s0, y0⟩, ⟨s1, y1⟩] h := by
  subst e0; subst e1; rfl

theorem concatenate3_congr {α : Type} {t : Shape} {a : Fin t.rank} {s0 s1 s2 : Shape} {x0 y0 : s0.Idx → α} {x1 y1 : s1.Idx → α} {x2 y2 : s2.Idx → α}
    (h : Shape.Concatenates [s0, s1, s2] t a) (e0 : x0 = y0) (e1 : x1 = y1) (e2 : x2 = y2) :
    concatenate t a [⟨s0, x0⟩, ⟨s1, x1⟩, ⟨s2, x2⟩] h = concatenate t a [⟨s0, y0⟩, ⟨s1, y1⟩, ⟨s2, y2⟩] h := by
  subst e0; subst e1; subst e2; rfl

theorem concatenate9_congr {α : Type} {t : Shape} {a : Fin t.rank} {s0 s1 s2 s3 s4 s5 s6 s7 s8 : Shape} {x0 y0 : s0.Idx → α} {x1 y1 : s1.Idx → α} {x2 y2 : s2.Idx → α} {x3 y3 : s3.Idx → α} {x4 y4 : s4.Idx → α} {x5 y5 : s5.Idx → α} {x6 y6 : s6.Idx → α} {x7 y7 : s7.Idx → α} {x8 y8 : s8.Idx → α}
    (h : Shape.Concatenates [s0, s1, s2, s3, s4, s5, s6, s7, s8] t a) (e0 : x0 = y0) (e1 : x1 = y1) (e2 : x2 = y2) (e3 : x3 = y3) (e4 : x4 = y4) (e5 : x5 = y5) (e6 : x6 = y6) (e7 : x7 = y7) (e8 : x8 = y8) :
    concatenate t a [⟨s0, x0⟩, ⟨s1, x1⟩, ⟨s2, x2⟩, ⟨s3, x3⟩, ⟨s4, x4⟩, ⟨s5, x5⟩, ⟨s6, x6⟩, ⟨s7, x7⟩, ⟨s8, x8⟩] h = concatenate t a [⟨s0, y0⟩, ⟨s1, y1⟩, ⟨s2, y2⟩, ⟨s3, y3⟩, ⟨s4, y4⟩, ⟨s5, y5⟩, ⟨s6, y6⟩, ⟨s7, y7⟩, ⟨s8, y8⟩] h := by
  subst e0; subst e1; subst e2; subst e3; subst e4; subst e5; subst e6; subst e7; subst e8; rfl

attribute [scoped congr] concatenate2_congr concatenate3_congr concatenate9_congr

end Idealize.ShloMosaic.ConcatCongr

namespace Idealize.ShloMosaic.StableHlo

open Idealize.SL Idealize.SL.Sem

variable {τ : Topo} {sig : RefSig} {Val : EltTy → Type}
variable {x0 x1 x2 x3 x4 x5 x6 x7 x8 y : Ref sig .tc}

theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F

theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-! ## A literal family read at a literal position -/

theorem cons3_0 {α : Fin 3 → Type} (a0 : α 0) (a1 : α 1) (a2 : α 2) :
    ((Fin.cons a0 (Fin.cons a1 (Fin.cons a2 (fun i => i.elim0)))) : (k : Fin 3) → α k) 0 = a0 := rfl
theorem cons3_1 {α : Fin 3 → Type} (a0 : α 0) (a1 : α 1) (a2 : α 2) :
    ((Fin.cons a0 (Fin.cons a1 (Fin.cons a2 (fun i => i.elim0)))) : (k : Fin 3) → α k) 1 = a1 := rfl
theorem cons3_2 {α : Fin 3 → Type} (a0 : α 0) (a1 : α 1) (a2 : α 2) :
    ((Fin.cons a0 (Fin.cons a1 (Fin.cons a2 (fun i => i.elim0)))) : (k : Fin 3) → α k) 2 = a2 := rfl

theorem cons9_0 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 0 = a0 := rfl
theorem cons9_1 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 1 = a1 := rfl
theorem cons9_2 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 2 = a2 := rfl
theorem cons9_3 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 3 = a3 := rfl
theorem cons9_4 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 4 = a4 := rfl
theorem cons9_5 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 5 = a5 := rfl
theorem cons9_6 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 6 = a6 := rfl
theorem cons9_7 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 7 = a7 := rfl
theorem cons9_8 {α : Fin 9 → Type} (a0 : α 0) (a1 : α 1) (a2 : α 2) (a3 : α 3) (a4 : α 4) (a5 : α 5) (a6 : α 6) (a7 : α 7) (a8 : α 8) :
    ((Fin.cons a0 (Fin.cons a1 (Fin.cons a2 (Fin.cons a3 (Fin.cons a4 (Fin.cons a5 (Fin.cons a6 (Fin.cons a7 (Fin.cons a8 (fun i => i.elim0)))))))))) : (k : Fin 9) → α k) 8 = a8 := rfl

/-- One rewriting pass that rewrites each operation's result at its own buffer to its function's value and at any other
    buffer to what was there; an operation over a family of operands is rewritten only by the literal three-, four- and
    nine-operand forms, never by the general one, which would hide the operands' references under a binder, and the
    literal family is then read at each literal position. The types of a family's members are equal to the pieces'
    types only after unfolding the family, so the pass lets the unifier unfold in types. -/
macro "after_results_simp'" : tactic =>
  `(tactic| (set_option backward.isDefEq.respectTransparency.types false in
      open Idealize.ShloMosaic.ConcatCongr in simp (disch := decide) only [after_cons, after_nil,
      nullary_result', unary_result', binary_result', ternary_result', quaternary_result', reshape_result',
      nary3_result', nary9_result', nary4_result',
      cons3_0, cons3_1, cons3_2, cons9_0, cons9_1, cons9_2, cons9_3, cons9_4, cons9_5, cons9_6, cons9_7, cons9_8,
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefVCollide.lean ====
/-
  The collision step of the reference program, stage by stage, read at a lattice index.

  The reference computes, over whole arrays, the contraction of the velocity with the table of the nine lattice
  velocities (e_q · u), the squared speed (a sum over the two components from a zero initial value), the
  equilibrium population (w_q · rho) · (((1 + 3 e_q·u) + (4.5 e_q·u) e_q·u) − 1.5 u·u) through broadcasts of the
  weights, the density and the scalars, and the collided population f − (f − feq)/τ with τ the word 0x3F19999A.
  Each stage below is the operation applied to its operands' stages; read at (x, y, q) the last one is the
  specification's collided population, dividing by τ being multiplying by 1/τ.
-/
import proofs.«140047_j18760417149386_2_alg».proof.Proof.Gen.ReferenceIdeal
import proofs.«140047_j18760417149386_2_alg».proof.Proof.Spec
import Idealize.ShloMosaic.Lib.IdealHost
import Idealize.ShloMosaic.Lib.Pipeline.Value
import Idealize.ShloMosaic.Lib.ValueLayout

noncomputable section

namespace Cert.ReferenceIdeal.Val

open Idealize.ShloMosaic Idealize.ShloMosaic.ValueIdx Cert.ReferenceIdeal
open Cert.ReferenceIdeal.Facts₀
open scoped BigOperators

/-! ## Layout operations of the reference, read at an index given by coordinates -/

section Layout
variable {α : Type}

/-- A rank-2 array given a trailing unit axis reads the array at the two leading coordinates. -/
theorem bcast_ab_ab1_apply (x : S2048x2048.Idx → α) (i j : Fin 2048) (k : Fin 1) :
    broadcastInDim S2048x2048x1 ![0, 1] bcast_S2048x2048_S2048x2048x1_0_1 x (ix3 i j k) = x (ix2 i j) :=
  broadcastInDim_apply _ _ x _ _ fun a => match a with
    | ⟨0, _⟩ => rfl
    | ⟨1, _⟩ => rfl

/-- A trailing unit axis stretched to nine channels reads the unit channel. -/
theorem bcast_ab1_ab9_apply (x : S2048x2048x1.Idx → α) (i j : Fin 2048) (q : Fin 9) :
    broadcastInDim S2048x2048x9 ![0, 1, 2] bcast_S2048x2048x1_S2048x2048x9_0_1_2 x (ix3 i j q) = x (ix3 i j (0 : Fin 1)) :=
  broadcastInDim_apply _ _ x _ _ fun a => match a with
    | ⟨0, _⟩ => rfl
    | ⟨1, _⟩ => rfl
    | ⟨2, _⟩ => rfl

/-- A vector of nine given two leading unit axes. -/
theorem bcast_9_119_apply (x : S9.Idx → α) (a b : Fin 1) (q : Fin 9) :
    broadcastInDim S1x1x9 ![2] bcast_S9_S1x1x9_2 x (ix3 a b q) = x (ix1 q) :=
  broadcastInDim_apply _ _ x _ _ fun a => match a with
    | ⟨0, _⟩ => rfl

/-- Two leading unit axes stretched over the lattice. -/
theorem bcast_119_ab9_apply (x : S1x1x9.Idx → α) (i j : Fin 2048) (q : Fin 9) :
    broadcastInDim S2048x2048x9 ![0, 1, 2] bcast_S1x1x9_S2048x2048x9_0_1_2 x (ix3 i j q) = x (ix3 (0 : Fin 1) (0 : Fin 1) q) :=
  broadcastInDim_apply _ _ x _ _ fun a => match a with
    | ⟨0, _⟩ => rfl
    | ⟨1, _⟩ => rfl
    | ⟨2, _⟩ => rfl

end Layout

/-! ## The collision: stages %0 … %25 -/

variable (f : FVec Ideal S2048x2048x9 .f32) (rho : FVec Ideal S2048x2048 .f32) (u : FVec Ideal S2048x2048x2 .f32)

def cst : FVec Ideal S9x2 .f32 := fun i => FloatOps.ofBits .f32 (lit0 (S9x2.rowMajor i))
def cst_0 : FVec Ideal S9 .f32 := fun i => FloatOps.ofBits .f32 (lit1 (S9.rowMajor i))

def v0 : FVec Ideal S2048x2048x9 .f32 := Host.dotGeneral dot_S2048x2048x2_S9x2_S2048x2048x9_2_1_01_0_n_n none u cst
def v1 : FVec Ideal S2048x2048x2 .f32 := mulf u u
def cst_2 : FVec Ideal S_ .f32 := constant S_ .f32 0x00000000#32
def v2 : FVec Ideal S2048x2048 .f32 := Host.reduceAdd (v1 u) cst_2 reducesTo_S2048x2048x2_S2048x2048_d2 h_S_
def v3 : FVec Ideal S2048x2048x1 .f32 := broadcastInDim S2048x2048x1 ![0, 1] bcast_S2048x2048_S2048x2048x1_0_1 (v2 u)
def v4 : FVec Ideal S2048x2048x1 .f32 := broadcastInDim S2048x2048x1 ![0, 1] bcast_S2048x2048_S2048x2048x1_0_1 rho
def v5 : FVec Ideal S1x1x9 .f32 := broadcastInDim S1x1x9 ![2] bcast_S9_S1x1x9_2 cst_0
def v6 : FVec Ideal S2048x2048x9 .f32 := broadcastInDim S2048x2048x9 ![0, 1, 2] bcast_S1x1x9_S2048x2048x9_0_1_2 v5
def v7 : FVec Ideal S2048x2048x9 .f32 := broadcastInDim S2048x2048x9 ![0, 1, 2] bcast_S2048x2048x1_S2048x2048x9_0_1_2 (v4 rho)
def v8 : FVec Ideal S2048x2048x9 .f32 := mulf v6 (v7 rho)
def cst_3 : FVec Ideal S_ .f32 := constant S_ .f32 0x40400000#32
def v9 : FVec Ideal S2048x2048x9 .f32 := broadcastInDim S2048x2048x9 ![] bcast_S_S2048x2048x9 cst_3
def v10 : FVec Ideal S2048x2048x9 .f32 := mulf v9 (v0 u)
def cst_4 : FVec Ideal S_ .f32 := constant S_ .f32 0x3F800000#32
def v11 : FVec Ideal S2048x2048x9 .f32 := broadcastInDim S2048x2048x9 ![] bcast_S_S2048x2048x9 cst_4
def v12 : FVec Ideal S2048x2048x9 .f32 := addf v11 (v10 u)
def cst_5 : FVec Ideal S_ .f32 := constant S_ .f32 0x40900000#32
def v13 : FVec Ideal S2048x2048x9 .f32 := broadcastInDim S2048x2048x9 ![] bcast_S_S2048x2048x9 cst_5
def v14 : FVec Ideal S2048x2048x9 .f32 := mulf v13 (v0 u)
def v15 : FVec Ideal S2048x2048x9 .f32 := mulf (v14 u) (v0 u)
def v16 : FVec Ideal S2048x2048x9 .f32 := addf (v12 u) (v15 u)
def cst_6 : FVec Ideal S_ .f32 := constant S_ .f32 0x3FC00000#32
def v17 : FVec Ideal S2048x2048x1 .f32 := broadcastInDim S2048x2048x1 ![] bcast_S_S2048x2048x1 cst_6
def v18 : FVec Ideal S2048x2048x1 .f32 := mulf v17 (v3 u)
def v19 : FVec Ideal S2048x2048x9 .f32 := broadcastInDim S2048x2048x9 ![0, 1, 2] bcast_S2048x2048x1_S2048x2048x9_0_1_2 (v18 u)
def v20 : FVec Ideal S2048x2048x9 .f32 := subf (v16 u) (v19 u)
def v21 : FVec Ideal S2048x2048x9 .f32 := mulf (v8 rho) (v20 u)
def v22 : FVec Ideal S2048x2048x9 .f32 := subf f (v21 rho u)
def cst_7 : FVec Ideal S_ .f32 := constant S_ .f32 0x3F19999A#32
def v23 : FVec Ideal S2048x2048x9 .f32 := broadcastInDim S2048x2048x9 ![] bcast_S_S2048x2048x9 cst_7
def v24 : FVec Ideal S2048x2048x9 .f32 := Host.divf (v22 f rho u) v23
def v25 : FVec Ideal S2048x2048x9 .f32 := subf f (v24 f rho u)

/-- The table of lattice velocities, entry by entry. -/
theorem cst_apply (q : Fin 9) (d : Fin 2) : cst (ix2 q d) = Cert.Lbm.e q d := by
  unfold cst Cert.Lbm.e
  fin_cases q <;> fin_cases d <;> rfl

/-- The table of weights, entry by entry. -/
theorem cst_0_apply (q : Fin 9) : cst_0 (ix1 q) = Cert.Lbm.w q := by
  unfold cst_0 Cert.Lbm.w
  fin_cases q <;> rfl

abbrev D0 := dot_S2048x2048x2_S9x2_S2048x2048x9_2_1_01_0_n_n

theorem D0_lhs (x y : Fin 2048) (q : Fin 9) (k : Fin 2) :
    D0.lhsIdx (ix3 x y q) ((contrEquiv1 D0 2 rfl rfl).symm k) = ix3 x y k := by
  funext a
  match a with
  | ⟨0, _⟩ => exact Fin.ext rfl
  | ⟨1, _⟩ => exact Fin.ext rfl
  | ⟨2, _⟩ => exact Fin.ext rfl

theorem D0_rhs (x y : Fin 2048) (q : Fin 9) (k : Fin 2) :
    D0.rhsIdx (ix3 x y q) ((contrEquiv1 D0 2 rfl rfl).symm k) = ix2 q k := by
  funext a
  match a with
  | ⟨0, _⟩ => exact Fin.ext rfl
  | ⟨1, _⟩ => exact Fin.ext rfl

/-- %0: the velocity contracted against the table of lattice velocities. -/
theorem v0_apply (x y : Fin 2048) (q : Fin 9) : v0 u (ix3 x y q) = Cert.Lbm.eu u x y q := by
  unfold v0
  simp only [Host.dotGeneral]
  rw [Ideal.dotGeneral_apply, ← Equiv.sum_comp (contrEquiv1 D0 2 rfl rfl).symm, Fin.sum_univ_two]
  simp only [D0_lhs, D0_rhs, cst_apply]
  rfl

theorem red2 : S2048x2048x2.Reduces [2] S2048x2048 := by decide

theorem red2_lift (x y : Fin 2048) (k : Fin 2) : red2.lift (ix2 x y) k = ix3 x y k := by
  funext a
  match a with
  | ⟨0, _⟩ => exact Fin.ext rfl
  | ⟨1, _⟩ => exact Fin.ext rfl
  | ⟨2, _⟩ => exact Fin.ext rfl

/-- %2: the squared speed. -/
theorem v2_apply (x y : Fin 2048) : v2 u (ix2 x y) = Cert.Lbm.usq u x y := by
  unfold v2
  rw [hostReduceAdd_apply, Ideal.hostReduceAdd_single _ red2]
  show Ideal.ofBits .f32 0x00000000#32 + ∑ k : Fin 2, v1 u (red2.lift (ix2 x y) k) = _
  rw [Ideal.ofBits_zero_f32, zero_add, Fin.sum_univ_two, red2_lift, red2_lift]
  rfl

/-- %8: weight times density. -/
theorem v8_apply (x y : Fin 2048) (q : Fin 9) : v8 rho (ix3 x y q) = Cert.Lbm.w q * rho (ix2 x y) := by
  unfold v8 v6 v7 v5 v4
  rw [mulf_apply, bcast_119_ab9_apply, bcast_9_119_apply, cst_0_apply, bcast_ab1_ab9_apply, bcast_ab_ab1_apply]

/-- %20: the bracket of the equilibrium. -/
theorem v20_apply (x y : Fin 2048) (q : Fin 9) : v20 u (ix3 x y q) =
    ((Ideal.ofBits .f32 0x3F800000#32 + Ideal.ofBits .f32 0x40400000#32 * Cert.Lbm.eu u x y q)
        + (Ideal.ofBits .f32 0x40900000#32 * Cert.Lbm.eu u x y q) * Cert.Lbm.eu u x y q)
      - Ideal.ofBits .f32 0x3FC00000#32 * Cert.Lbm.usq u x y := by
  unfold v20 v19 v18 v17 v16 v15 v14 v13 v12 v11 v10 v9 v3
  simp only [subf_apply, addf_apply, mulf_apply]
  rw [bcast_ab1_ab9_apply, mulf_apply, bcast_ab_ab1_apply, v0_apply, v2_apply]
  repeat rw [broadcastInDim_scalar_apply]
  rfl

/-- %25: the collided populations. -/
theorem v25_apply (x y : Fin 2048) (q : Fin 9) : v25 f rho u (ix3 x y q) = Cert.Lbm.fstar f rho u x y q := by
  unfold v25 v24 v23 v22 v21
  simp only [subf_apply, mulf_apply, hostDivf_apply]
  rw [broadcastInDim_scalar_apply, v8_apply, v20_apply]
  unfold Cert.Lbm.fstar Cert.Lbm.feq
  rw [← Cert.Lbm.div_tau]
  rfl

end Cert.ReferenceIdeal.Val
end
-- ==== Proof.RefVShift.lean ====
/-
  The periodic shifts of the reference program: each outlined roll function is two one-axis steps, and each
  step lays two slices of the plane end to end.

  Along one axis, "the last row, then the first 2047 rows" read at row x is the plane at row x − 1 (row 2047 at
  x = 0); "the last 2047 rows, then the first row" is the plane at row x + 1, which on the periodic axis is
  x − 2047; "the whole plane, then an empty slice" is the plane itself. A roll function is one such step along
  the first axis followed by one along the second, so its result at (x, y) is its argument at
  (x − sx, y − sy) for the direction's step (sx, sy), read on the periodic axes.
-/
import proofs.«140047_j18760417149386_2_alg».proof.Proof.Gen.ReferenceIdeal
import proofs.«140047_j18760417149386_2_alg».proof.Proof.Spec
import Idealize.ShloMosaic.Lib.IdealHost
import Idealize.ShloMosaic.Lib.Pipeline.Value
import Idealize.ShloMosaic.Lib.ValueLayout

noncomputable section

namespace Cert.ReferenceIdeal.Val

open Idealize.ShloMosaic Idealize.ShloMosaic.ValueIdx Cert.ReferenceIdeal
open Cert.ReferenceIdeal.Facts₀
open scoped BigOperators

/-! ## Subtraction on the periodic axis -/

theorem sub1_val (x : Fin 2048) : (x - 1).val = if x.val = 0 then 2047 else x.val - 1 := by
  rw [Fin.coe_sub]
  show (2048 - 1 + x.val) % 2048 = _
  have := x.isLt
  split <;> omega

theorem sub2047_val (x : Fin 2048) : (x - 2047).val = if x.val = 2047 then 0 else x.val + 1 := by
  rw [Fin.coe_sub]
  show (2048 - 2047 + x.val) % 2048 = _
  have := x.isLt
  split <;> omega

section Roll
variable {α : Type}

/-! ## One axis at a time: two slices laid end to end -/

/-- Axis 0, no shift: the whole plane followed by an empty slice. -/
def ax0I (A : S2048x2048.Idx → α) : S2048x2048.Idx → α :=
  concatenate S2048x2048 0 [⟨S2048x2048, extractStridedSlice S2048x2048 ![0, 0] A slices_S2048x2048_S2048x2048_0_0⟩,
    ⟨S0x2048, extractStridedSlice S0x2048 ![0, 0] A slices_S2048x2048_S0x2048_0_0⟩] concatenates_S2048x2048_S0x2048_S2048x2048_d0
/-- Axis 0, one step forward: the last row, then the first 2047 rows. -/
def ax0P (A : S2048x2048.Idx → α) : S2048x2048.Idx → α :=
  concatenate S2048x2048 0 [⟨S1x2048, extractStridedSlice S1x2048 ![2047, 0] A slices_S2048x2048_S1x2048_2047_0⟩,
    ⟨S2047x2048, extractStridedSlice S2047x2048 ![0, 0] A slices_S2048x2048_S2047x2048_0_0⟩] concatenates_S1x2048_S2047x2048_S2048x2048_d0
/-- Axis 0, one step back: the last 2047 rows, then the first row. -/
def ax0M (A : S2048x2048.Idx → α) : S2048x2048.Idx → α :=
  concatenate S2048x2048 0 [⟨S2047x2048, extractStridedSlice S2047x2048 ![1, 0] A slices_S2048x2048_S2047x2048_1_0⟩,
    ⟨S1x2048, extractStridedSlice S1x2048 ![0, 0] A slices_S2048x2048_S1x2048_0_0⟩] concatenates_S2047x2048_S1x2048_S2048x2048_d0
/-- Axis 1, no shift. -/
def ax1I (A : S2048x2048.Idx → α) : S2048x2048.Idx → α :=
  concatenate S2048x2048 1 [⟨S2048x2048, extractStridedSlice S2048x2048 ![0, 0] A slices_S2048x2048_S2048x2048_0_0⟩,
    ⟨S2048x0, extractStridedSlice S2048x0 ![0, 0] A slices_S2048x2048_S2048x0_0_0⟩] concatenates_S2048x2048_S2048x0_S2048x2048_d1
/-- Axis 1, one step forward: the last column, then the first 2047 columns. -/
def ax1P (A : S2048x2048.Idx → α) : S2048x2048.Idx → α :=
  concatenate S2048x2048 1 [⟨S2048x1, extractStridedSlice S2048x1 ![0, 2047] A slices_S2048x2048_S2048x1_0_2047⟩,
    ⟨S2048x2047, extractStridedSlice S2048x2047 ![0, 0] A slices_S2048x2048_S2048x2047_0_0⟩] concatenates_S2048x1_S2048x2047_S2048x2048_d1
/-- Axis 1, one step back: the last 2047 columns, then the first column. -/
def ax1M (A : S2048x2048.Idx → α) : S2048x2048.Idx → α :=
  concatenate S2048x2048 1 [⟨S2048x2047, extractStridedSlice S2048x2047 ![0, 1] A slices_S2048x2048_S2048x2047_0_1⟩,
    ⟨S2048x1, extractStridedSlice S2048x1 ![0, 0] A slices_S2048x2048_S2048x1_0_0⟩] concatenates_S2048x2047_S2048x1_S2048x2048_d1

variable (A : S2048x2048.Idx → α)

theorem ax0I_apply (x y : Fin 2048) : ax0I A (ix2 x y) = A (ix2 x y) := by
  unfold ax0I
  refine (concatenate_pair_apply_left (s₁ := S2048x2048) (s₂ := S0x2048) (0 : Fin 2) _ _ _ (ix2 x y) rfl (ix2 x y) (fun b => rfl)).trans ?_
  refine extractStridedSlice_apply _ A _ _ (ix2 x y) (fun a => ?_)
  match a with
  | ⟨0, _⟩ => show x.val = 0 + x.val; omega
  | ⟨1, _⟩ => show y.val = 0 + y.val; omega

theorem ax1I_apply (x y : Fin 2048) : ax1I A (ix2 x y) = A (ix2 x y) := by
  unfold ax1I
  refine (concatenate_pair_apply_left (s₁ := S2048x2048) (s₂ := S2048x0) (1 : Fin 2) _ _ _ (ix2 x y) rfl (ix2 x y) (fun b => rfl)).trans ?_
  refine extractStridedSlice_apply _ A _ _ (ix2 x y) (fun a => ?_)
  match a with
  | ⟨0, _⟩ => show x.val = 0 + x.val; omega
  | ⟨1, _⟩ => show y.val = 0 + y.val; omega

theorem ax0P_apply (x y : Fin 2048) : ax0P A (ix2 x y) = A (ix2 (x - 1) y) := by
  unfold ax0P
  have hs := sub1_val x
  by_cases hx : x.val = 0
  · rw [if_pos hx] at hs
    refine (concatenate_pair_apply_left (s₁ := S1x2048) (s₂ := S2047x2048) (0 : Fin 2) _ _ _ (ix2 x y) rfl (ix2 (0 : Fin 1) y) (fun b => ?_)).trans ?_
    · match b with
      | ⟨0, _⟩ => show (0 : Nat) = x.val; omega
      | ⟨1, _⟩ => rfl
    · refine extractStridedSlice_apply _ A _ _ (ix2 (x - 1) y) (fun a => ?_)
      match a with
      | ⟨0, _⟩ => show (x - 1).val = 2047 + 0; omega
      | ⟨1, _⟩ => show y.val = 0 + y.val; omega
  · rw [if_neg hx] at hs
    have hx' := x.isLt
    refine (concatenate_pair_apply_right (s₁ := S1x2048) (s₂ := S2047x2048) (0 : Fin 2) _ _ _ (ix2 x y) rfl rfl
      (ix2 (⟨x.val - 1, by omega⟩ : Fin 2047) y) (fun b hb => ?_) ?_).trans ?_
    · match b with
      | ⟨0, _⟩ => exact absurd rfl hb
      | ⟨1, _⟩ => rfl
    · show x.val - 1 + 1 = x.val; omega
    · refine extractStridedSlice_apply _ A _ _ (ix2 (x - 1) y) (fun a => ?_)
      match a with
      | ⟨0, _⟩ => show (x - 1).val = 0 + (x.val - 1); omega
      | ⟨1, _⟩ => show y.val = 0 + y.val; omega

theorem ax0M_apply (x y : Fin 2048) : ax0M A (ix2 x y) = A (ix2 (x - 2047) y) := by
  unfold ax0M
  have hs := sub2047_val x
  have hx' := x.isLt
  by_cases hx : x.val = 2047
  · rw [if_pos hx] at hs
    refine (concatenate_pair_apply_right (s₁ := S2047x2048) (s₂ := S1x2048) (0 : Fin 2) _ _ _ (ix2 x y) rfl rfl
      (ix2 (0 : Fin 1) y) (fun b hb => ?_) ?_).trans ?_
    · match b with
      | ⟨0, _⟩ => exact absurd rfl hb
      | ⟨1, _⟩ => rfl
    · show 0 + 2047 = x.val; omega
    · refine extractStridedSlice_apply _ A _ _ (ix2 (x - 2047) y) (fun a => ?_)
      match a with
      | ⟨0, _⟩ => show (x - 2047).val = 0 + 0; omega
      | ⟨1, _⟩ => show y.val = 0 + y.val; omega
  · rw [if_neg hx] at hs
    refine (concatenate_pair_apply_left (s₁ := S2047x2048) (s₂ := S1x2048) (0 : Fin 2) _ _ _ (ix2 x y) rfl (ix2 (⟨x.val, by omega⟩ : Fin 2047) y) (fun b => ?_)).trans ?_
    · match b with
      | ⟨0, _⟩ => rfl
      | ⟨1, _⟩ => rfl
    · refine extractStridedSlice_apply _ A _ _ (ix2 (x - 2047) y) (fun a => ?_)
      match a with
      | ⟨0, _⟩ => show (x - 2047).val = 1 + x.val; omega
      | ⟨1, _⟩ => show y.val = 0 + y.val; omega

theorem ax1P_apply (x y : Fin 2048) : ax1P A (ix2 x y) = A (ix2 x (y - 1)) := by
  unfold ax1P
  have hs := sub1_val y
  by_cases hy : y.val = 0
  · rw [if_pos hy] at hs
    refine (concatenate_pair_apply_left (s₁ := S2048x1) (s₂ := S2048x2047) (1 : Fin 2) _ _ _ (ix2 x y) rfl (ix2 x (0 : Fin 1)) (fun b => ?_)).trans ?_
    · match b with
      | ⟨0, _⟩ => rfl
      | ⟨1, _⟩ => show (0 : Nat) = y.val; omega
    · refine extractStridedSlice_apply _ A _ _ (ix2 x (y - 1)) (fun a => ?_)
      match a with
      | ⟨0, _⟩ => show x.val = 0 + x.val; omega
      | ⟨1, _⟩ => show (y - 1).val = 2047 + 0; omega
  · rw [if_neg hy] at hs
    have hy' := y.isLt
    refine (concatenate_pair_apply_right (s₁ := S2048x1) (s₂ := S2048x2047) (1 : Fin 2) _ _ _ (ix2 x y) rfl rfl
      (ix2 x (⟨y.val - 1, by omega⟩ : Fin 2047)) (fun b hb => ?_) ?_).trans ?_
    · match b with
      | ⟨0, _⟩ => rfl
      | ⟨1, _⟩ => exact absurd rfl hb
    · show y.val - 1 + 1 = y.val; omega
    · refine extractStridedSlice_apply _ A _ _ (ix2 x (y - 1)) (fun a => ?_)
      match a with
      | ⟨0, _⟩ => show x.val = 0 + x.val; omega
      | ⟨1, _⟩ => show (y - 1).val = 0 + (y.val - 1); omega

theorem ax1M_apply (x y : Fin 2048) : ax1M A (ix2 x y) = A (ix2 x (y - 2047)) := by
  unfold ax1M
  have hs := sub2047_val y
  have hy' := y.isLt
  by_cases hy : y.val = 2047
  · rw [if_pos hy] at hs
    refine (concatenate_pair_apply_right (s₁ := S2048x2047) (s₂ := S2048x1) (1 : Fin 2) _ _ _ (ix2 x y) rfl rfl
      (ix2 x (0 : Fin 1)) (fun b hb => ?_) ?_).trans ?_
    · match b with
      | ⟨0, _⟩ => rfl
      | ⟨1, _⟩ => exact absurd rfl hb
    · show 0 + 2047 = y.val; omega
    · refine extractStridedSlice_apply _ A _ _ (ix2 x (y - 2047)) (fun a => ?_)
      match a with
      | ⟨0, _⟩ => show x.val = 0 + x.val; omega
      | ⟨1, _⟩ => show (y - 2047).val = 0 + 0; omega
  · rw [if_neg hy] at hs
    refine (concatenate_pair_apply_left (s₁ := S2048x2047) (s₂ := S2048x1) (1 : Fin 2) _ _ _ (ix2 x y) rfl (ix2 x (⟨y.val, by omega⟩ : Fin 2047)) (fun b => ?_)).trans ?_
    · match b with
      | ⟨0, _⟩ => rfl
      | ⟨1, _⟩ => rfl
    · refine extractStridedSlice_apply _ A _ _ (ix2 x (y - 2047)) (fun a => ?_)
      match a with
      | ⟨0, _⟩ => show x.val = 0 + x.val; omega
      | ⟨1, _⟩ => show (y - 2047).val = 1 + y.val; omega

end Roll

section Rolls
variable {α : Type} (A : S2048x2048.Idx → α)

/-- The nine roll functions, one per direction: the step along the first axis, then the step along the second. -/
def roll0 : S2048x2048.Idx → α := ax1I (ax0I A)
def roll1 : S2048x2048.Idx → α := ax1I (ax0P A)
def roll2 : S2048x2048.Idx → α := ax1P (ax0I A)
def roll3 : S2048x2048.Idx → α := ax1I (ax0M A)
def roll4 : S2048x2048.Idx → α := ax1M (ax0I A)
def roll5 : S2048x2048.Idx → α := ax1P (ax0P A)
def roll6 : S2048x2048.Idx → α := ax1P (ax0M A)
def roll7 : S2048x2048.Idx → α := ax1M (ax0M A)
def roll8 : S2048x2048.Idx → α := ax1M (ax0P A)

theorem roll0_apply (x y : Fin 2048) : roll0 A (ix2 x y) = A (ix2 (x - Cert.Lbm.sx 0) (y - Cert.Lbm.sy 0)) := by
  unfold roll0; rw [ax1I_apply, ax0I_apply]
  show A (ix2 x y) = A (ix2 (x - 0) (y - 0))
  rw [sub_zero, sub_zero]
theorem roll1_apply (x y : Fin 2048) : roll1 A (ix2 x y) = A (ix2 (x - Cert.Lbm.sx 1) (y - Cert.Lbm.sy 1)) := by
  unfold roll1; rw [ax1I_apply, ax0P_apply]
  show A (ix2 (x - 1) y) = A (ix2 (x - 1) (y - 0))
  rw [sub_zero]
theorem roll2_apply (x y : Fin 2048) : roll2 A (ix2 x y) = A (ix2 (x - Cert.Lbm.sx 2) (y - Cert.Lbm.sy 2)) := by
  unfold roll2; rw [ax1P_apply, ax0I_apply]
  show A (ix2 x (y - 1)) = A (ix2 (x - 0) (y - 1))
  rw [sub_zero]
theorem roll3_apply (x y : Fin 2048) : roll3 A (ix2 x y) = A (ix2 (x - Cert.Lbm.sx 3) (y - Cert.Lbm.sy 3)) := by
  unfold roll3; rw [ax1I_apply, ax0M_apply]
  show A (ix2 (x - 2047) y) = A (ix2 (x - 2047) (y - 0))
  rw [sub_zero]
theorem roll4_apply (x y : Fin 2048) : roll4 A (ix2 x y) = A (ix2 (x - Cert.Lbm.sx 4) (y - Cert.Lbm.sy 4)) := by
  unfold roll4; rw [ax1M_apply, ax0I_apply]
  show A (ix2 x (y - 2047)) = A (ix2 (x - 0) (y - 2047))
  rw [sub_zero]
theorem roll5_apply (x y : Fin 2048) : roll5 A (ix2 x y) = A (ix2 (x - Cert.Lbm.sx 5) (y - Cert.Lbm.sy 5)) := by
  unfold roll5; rw [ax1P_apply, ax0P_apply]; rfl
theorem roll6_apply (x y : Fin 2048) : roll6 A (ix2 x y) = A (ix2 (x - Cert.Lbm.sx 6) (y - Cert.Lbm.sy 6)) := by
  unfold roll6; rw [ax1P_apply, ax0M_apply]; rfl
theorem roll7_apply (x y : Fin 2048) : roll7 A (ix2 x y) = A (ix2 (x - Cert.Lbm.sx 7) (y - Cert.Lbm.sy 7)) := by
  unfold roll7; rw [ax1M_apply, ax0M_apply]; rfl
theorem roll8_apply (x y : Fin 2048) : roll8 A (ix2 x y) = A (ix2 (x - Cert.Lbm.sx 8) (y - Cert.Lbm.sy 8)) := by
  unfold roll8; rw [ax1M_apply, ax0P_apply]; rfl

end Rolls

end Cert.ReferenceIdeal.Val
end
-- ==== Proof.RefVGather.lean ====
/-
  The bounce-back's gather of the reference program, read at a lattice index.

  The reference keeps the table of opposite directions 0, 3, 4, 1, 2, 7, 8, 5, 6 as a vector of nine 32-bit integers.
  Before using it as gather indices it normalises possibly negative entries: an entry below zero has nine added, the
  others are kept. No entry of this table is negative, so the normalised table is the table. The gather then reads,
  for every cell and every direction q, the operand at the same cell and channel table[q]: the slice taken per index
  is a whole 2048 × 2048 plane of extent one along the channel axis, the start index on that axis is the table entry
  (inside 0 … 8, so the clamp does nothing), and the result's third coordinate selects which index is read.
  Each stage below is the operation applied to its operands' stages.
-/
import proofs.«140047_j18760417149386_2_alg».proof.Proof.Gen.ReferenceIdeal
import proofs.«140047_j18760417149386_2_alg».proof.Proof.Spec
import Idealize.ShloMosaic.Lib.IdealHost
import Idealize.ShloMosaic.Lib.Pipeline.Value
import Idealize.ShloMosaic.Lib.ValueLayout

noncomputable section

namespace Cert.ReferenceIdeal.Val

open Idealize.ShloMosaic Idealize.ShloMosaic.ValueIdx Cert.ReferenceIdeal
open Cert.ReferenceIdeal.Facts₀

/-! ## The index table: stages %c, %c_8, %63 … %68 -/

def c : IVec S9 32 := fun i => lit2 (S9.rowMajor i)
def c_8 : IVec S_ 32 := constantI S_ 32 0#32
def v63 : IVec S9 32 := broadcastInDim S9 ![] bcast_S_S9 c_8
def v64 : IVec S9 1 := cmpi .slt c v63
def c_9 : IVec S_ 32 := constantI S_ 32 9#32
def v65 : IVec S9 32 := broadcastInDim S9 ![] bcast_S_S9 c_9
def v66 : IVec S9 32 := addi c v65
def v67 : IVec S9 32 := select v64 v66 c
def v68 : IVec S9x1 32 := broadcastInDim S9x1 ![0] bcast_S9_S9x1_0 v67

/-- The normalised table is the table of opposite directions: no entry is negative, so none has nine added. -/
theorem v67_apply (q : Fin 9) : v67 (ix1 q) = BitVec.ofNat 32 (Cert.Lbm.opp q).val := by
  fin_cases q <;> rfl

/-- The table as a 9 × 1 array of index vectors of length one. -/
theorem v68_apply (q : Fin 9) (k : Fin 1) : v68 (ix2 q k) = v67 (ix1 q) :=
  broadcastInDim_apply _ _ v67 _ _ fun a => match a with
    | ⟨0, _⟩ => rfl

/-! ## The gather: stage %69 -/

abbrev G := gather_S2048x2048x9_S9x1_S2048x2048x9_01_2_n_n_2_1_204820481

def v69 (B : FVec Ideal S2048x2048x9 .f32) : FVec Ideal S2048x2048x9 .f32 := Host.gather G B v68

/-- The one component of the start index read for result index (x, y, q) sits at row q of the index array. -/
theorem G_siIdx (x y : Fin 2048) (q : Fin 9) (h2 : 2 < S2048x2048x9.rank)
    (h : List.idxOf (⟨2, h2⟩ : Fin S2048x2048x9.rank) G.startIndexMap < G.startIndexMap.length) :
    G.siIdx (ix3 x y q) ⟨List.idxOf (⟨2, h2⟩ : Fin S2048x2048x9.rank) G.startIndexMap, h⟩ = ix2 q (0 : Fin 1) := by
  funext b; refine Fin.ext ?_
  match b with
  | ⟨0, _⟩ => rfl
  | ⟨1, _⟩ => rfl

/-- %69: the operand at the same cell, in the channel of the opposite direction. -/
theorem v69_apply (B : FVec Ideal S2048x2048x9 .f32) (x y : Fin 2048) (q : Fin 9) :
    v69 B (ix3 x y q) = B (ix3 x y (Cert.Lbm.opp q)) := by
  unfold v69 Host.gather
  congr 1
  funext a
  refine Fin.ext ?_
  show G.start (ix3 x y q) v68 a + G.batchCoord (ix3 x y q) a + G.offCoord (ix3 x y q) a = _
  rw [GatherDims.batchCoord_eq_zero _ _ _ List.not_mem_nil, Nat.add_zero]
  match a with
  | ⟨0, _⟩ =>
    have hs : G.start (ix3 x y q) v68 ⟨0, by decide⟩ = 0 := by
      unfold GatherDims.start; exact dif_neg (by decide)
    have hk : (⟨0, by decide⟩ : Fin 3) ∈ G.sKept := by decide
    rw [hs, Nat.zero_add]
    unfold GatherDims.offCoord
    rw [dif_pos hk]
    rfl
  | ⟨1, _⟩ =>
    have hs : G.start (ix3 x y q) v68 ⟨1, by decide⟩ = 0 := by
      unfold GatherDims.start; exact dif_neg (by decide)
    have hk : (⟨1, by decide⟩ : Fin 3) ∈ G.sKept := by decide
    rw [hs, Nat.zero_add]
    unfold GatherDims.offCoord
    rw [dif_pos hk]
    rfl
  | ⟨2, _⟩ =>
    have hk : (⟨2, by decide⟩ : Fin 3) ∉ G.sKept := by decide
    have hm : (⟨2, by decide⟩ : Fin 3) ∈ G.startIndexMap := by decide
    rw [GatherDims.offCoord_eq_zero _ _ _ hk, Nat.add_zero]
    unfold GatherDims.start
    rw [dif_pos hm, G_siIdx, v68_apply, v67_apply]
    fin_cases q <;> rfl

end Cert.ReferenceIdeal.Val
end
-- ==== Proof.RefVBounce.lean ====
/-
  Streaming and bounce-back of the reference program, read at a lattice index.

  Each channel of the collided populations is cut out as a plane (a one-channel slice, reshaped), shifted by its
  direction's roll function, given back a unit channel axis, and the nine are laid side by side: channel q at
  (x, y) is the collided population of direction q at (x − sx q, y − sy q). The bounce-back copy gathers the
  channels through the table of opposite directions (read at an index in the module of the gather), so its
  channel q is the collided population of the opposite direction at the same cell. The choice between the two
  by the obstacle mask is the new population.
-/
import proofs.«140047_j18760417149386_2_alg».proof.Proof.Gen.ReferenceIdeal
import proofs.«140047_j18760417149386_2_alg».proof.Proof.Spec
import proofs.«140047_j18760417149386_2_alg».proof.Proof.RefVCollide
import proofs.«140047_j18760417149386_2_alg».proof.Proof.RefVShift
import proofs.«140047_j18760417149386_2_alg».proof.Proof.RefVGather
import Idealize.ShloMosaic.Lib.IdealHost
import Idealize.ShloMosaic.Lib.Pipeline.Value
import Idealize.ShloMosaic.Lib.ValueLayout

noncomputable section

namespace Cert.ReferenceIdeal.Val

open Idealize.ShloMosaic Idealize.ShloMosaic.ValueIdx Cert.ReferenceIdeal
open Cert.ReferenceIdeal.Facts₀
open scoped BigOperators

variable (B : FVec Ideal S2048x2048x9 .f32) (solid : IVec S2048x2048 1)

/-! ## One channel of the collided populations as a plane -/

/-- A one-channel slice along the last axis, reshaped to a plane, read at a cell. -/
theorem chan_apply (o : Nat) (h : S2048x2048x9.Slices ![0, 0, o] S2048x2048x1) (q : Fin 9) (hq : q.val = o) (x y : Fin 2048) :
    shapeCast S2048x2048 (extractStridedSlice S2048x2048x1 ![0, 0, o] B h) shapeCasts_S2048x2048x1_S2048x2048 (ix2 x y)
      = B (ix3 x y q) := by
  refine (shapeCast_apply _ _ (ix2 x y) (ix3 x y (0 : Fin 1)) ?_).trans ?_
  · have h3 := Shape.rowMajor_val_three (d := ![2048, 2048, 1]) (ix3 x y (0 : Fin 1))
    have h2 := Shape.rowMajor_val_two (d := ![2048, 2048]) (ix2 x y)
    show (S2048x2048x1.rowMajor _).val = (S2048x2048.rowMajor _).val
    rw [h3, h2]
    show (x.val * 2048 + y.val) * 1 + 0 = x.val * 2048 + y.val
    omega
  · refine extractStridedSlice_apply _ B h _ (ix3 x y q) (fun a => ?_)
    match a with
    | ⟨0, _⟩ => show x.val = 0 + x.val; omega
    | ⟨1, _⟩ => show y.val = 0 + y.val; omega
    | ⟨2, _⟩ => show q.val = o + 0; omega

def ch0 : FVec Ideal S2048x2048 .f32 :=
  shapeCast S2048x2048 (extractStridedSlice S2048x2048x1 ![0, 0, 0] B slices_S2048x2048x9_S2048x2048x1_0_0_0) shapeCasts_S2048x2048x1_S2048x2048
def ch1 : FVec Ideal S2048x2048 .f32 :=
  shapeCast S2048x2048 (extractStridedSlice S2048x2048x1 ![0, 0, 1] B slices_S2048x2048x9_S2048x2048x1_0_0_1) shapeCasts_S2048x2048x1_S2048x2048
def ch2 : FVec Ideal S2048x2048 .f32 :=
  shapeCast S2048x2048 (extractStridedSlice S2048x2048x1 ![0, 0, 2] B slices_S2048x2048x9_S2048x2048x1_0_0_2) shapeCasts_S2048x2048x1_S2048x2048
def ch3 : FVec Ideal S2048x2048 .f32 :=
  shapeCast S2048x2048 (extractStridedSlice S2048x2048x1 ![0, 0, 3] B slices_S2048x2048x9_S2048x2048x1_0_0_3) shapeCasts_S2048x2048x1_S2048x2048
def ch4 : FVec Ideal S2048x2048 .f32 :=
  shapeCast S2048x2048 (extractStridedSlice S2048x2048x1 ![0, 0, 4] B slices_S2048x2048x9_S2048x2048x1_0_0_4) shapeCasts_S2048x2048x1_S2048x2048
def ch5 : FVec Ideal S2048x2048 .f32 :=
  shapeCast S2048x2048 (extractStridedSlice S2048x2048x1 ![0, 0, 5] B slices_S2048x2048x9_S2048x2048x1_0_0_5) shapeCasts_S2048x2048x1_S2048x2048
def ch6 : FVec Ideal S2048x2048 .f32 :=
  shapeCast S2048x2048 (extractStridedSlice S2048x2048x1 ![0, 0, 6] B slices_S2048x2048x9_S2048x2048x1_0_0_6) shapeCasts_S2048x2048x1_S2048x2048
def ch7 : FVec Ideal S2048x2048 .f32 :=
  shapeCast S2048x2048 (extractStridedSlice S2048x2048x1 ![0, 0, 7] B slices_S2048x2048x9_S2048x2048x1_0_0_7) shapeCasts_S2048x2048x1_S2048x2048
def ch8 : FVec Ideal S2048x2048 .f32 :=
  shapeCast S2048x2048 (extractStridedSlice S2048x2048x1 ![0, 0, 8] B slices_S2048x2048x9_S2048x2048x1_0_0_8) shapeCasts_S2048x2048x1_S2048x2048

/-! ## The streamed channels: rolled, given a unit channel axis, laid side by side -/

def v53 : FVec Ideal S2048x2048x1 .f32 := broadcastInDim S2048x2048x1 ![0, 1] bcast_S2048x2048_S2048x2048x1_0_1 (roll0 (ch0 B))
def v54 : FVec Ideal S2048x2048x1 .f32 := broadcastInDim S2048x2048x1 ![0, 1] bcast_S2048x2048_S2048x2048x1_0_1 (roll1 (ch1 B))
def v55 : FVec Ideal S2048x2048x1 .f32 := broadcastInDim S2048x2048x1 ![0, 1] bcast_S2048x2048_S2048x2048x1_0_1 (roll2 (ch2 B))
def v56 : FVec Ideal S2048x2048x1 .f32 := broadcastInDim S2048x2048x1 ![0, 1] bcast_S2048x2048_S2048x2048x1_0_1 (roll3 (ch3 B))
def v57 : FVec Ideal S2048x2048x1 .f32 := broadcastInDim S2048x2048x1 ![0, 1] bcast_S2048x2048_S2048x2048x1_0_1 (roll4 (ch4 B))
def v58 : FVec Ideal S2048x2048x1 .f32 := broadcastInDim S2048x2048x1 ![0, 1] bcast_S2048x2048_S2048x2048x1_0_1 (roll5 (ch5 B))
def v59 : FVec Ideal S2048x2048x1 .f32 := broadcastInDim S2048x2048x1 ![0, 1] bcast_S2048x2048_S2048x2048x1_0_1 (roll6 (ch6 B))
def v60 : FVec Ideal S2048x2048x1 .f32 := broadcastInDim S2048x2048x1 ![0, 1] bcast_S2048x2048_S2048x2048x1_0_1 (roll7 (ch7 B))
def v61 : FVec Ideal S2048x2048x1 .f32 := broadcastInDim S2048x2048x1 ![0, 1] bcast_S2048x2048_S2048x2048x1_0_1 (roll8 (ch8 B))

def v62 : FVec Ideal S2048x2048x9 .f32 :=
  concatenate S2048x2048x9 2 [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩]
    concatenates_S2048x2048x1_S2048x2048x1_S2048x2048x1_S2048x2048x1_S2048x2048x1_S2048x2048x1_S2048x2048x1_S2048x2048x1_S2048x2048x1_S2048x2048x9_d2

theorem v53_apply (x y : Fin 2048) (z : Fin 1) :
    v53 B (ix3 x y z) = B (ix3 (x - Cert.Lbm.sx 0) (y - Cert.Lbm.sy 0) 0) := by
  unfold v53 ch0
  rw [bcast_ab_ab1_apply, roll0_apply]
  exact chan_apply B 0 _ 0 rfl _ _
theorem v54_apply (x y : Fin 2048) (z : Fin 1) :
    v54 B (ix3 x y z) = B (ix3 (x - Cert.Lbm.sx 1) (y - Cert.Lbm.sy 1) 1) := by
  unfold v54 ch1
  rw [bcast_ab_ab1_apply, roll1_apply]
  exact chan_apply B 1 _ 1 rfl _ _
theorem v55_apply (x y : Fin 2048) (z : Fin 1) :
    v55 B (ix3 x y z) = B (ix3 (x - Cert.Lbm.sx 2) (y - Cert.Lbm.sy 2) 2) := by
  unfold v55 ch2
  rw [bcast_ab_ab1_apply, roll2_apply]
  exact chan_apply B 2 _ 2 rfl _ _
theorem v56_apply (x y : Fin 2048) (z : Fin 1) :
    v56 B (ix3 x y z) = B (ix3 (x - Cert.Lbm.sx 3) (y - Cert.Lbm.sy 3) 3) := by
  unfold v56 ch3
  rw [bcast_ab_ab1_apply, roll3_apply]
  exact chan_apply B 3 _ 3 rfl _ _
theorem v57_apply (x y : Fin 2048) (z : Fin 1) :
    v57 B (ix3 x y z) = B (ix3 (x - Cert.Lbm.sx 4) (y - Cert.Lbm.sy 4) 4) := by
  unfold v57 ch4
  rw [bcast_ab_ab1_apply, roll4_apply]
  exact chan_apply B 4 _ 4 rfl _ _
theorem v58_apply (x y : Fin 2048) (z : Fin 1) :
    v58 B (ix3 x y z) = B (ix3 (x - Cert.Lbm.sx 5) (y - Cert.Lbm.sy 5) 5) := by
  unfold v58 ch5
  rw [bcast_ab_ab1_apply, roll5_apply]
  exact chan_apply B 5 _ 5 rfl _ _
theorem v59_apply (x y : Fin 2048) (z : Fin 1) :
    v59 B (ix3 x y z) = B (ix3 (x - Cert.Lbm.sx 6) (y - Cert.Lbm.sy 6) 6) := by
  unfold v59 ch6
  rw [bcast_ab_ab1_apply, roll6_apply]
  exact chan_apply B 6 _ 6 rfl _ _
theorem v60_apply (x y : Fin 2048) (z : Fin 1) :
    v60 B (ix3 x y z) = B (ix3 (x - Cert.Lbm.sx 7) (y - Cert.Lbm.sy 7) 7) := by
  unfold v60 ch7
  rw [bcast_ab_ab1_apply, roll7_apply]
  exact chan_apply B 7 _ 7 rfl _ _
theorem v61_apply (x y : Fin 2048) (z : Fin 1) :
    v61 B (ix3 x y z) = B (ix3 (x - Cert.Lbm.sx 8) (y - Cert.Lbm.sy 8) 8) := by
  unfold v61 ch8
  rw [bcast_ab_ab1_apply, roll8_apply]
  exact chan_apply B 8 _ 8 rfl _ _

theorem v62_apply_0 (x y : Fin 2048) :
    v62 B (ix3 x y (0 : Fin 9)) = B (ix3 (x - Cert.Lbm.sx 0) (y - Cert.Lbm.sy 0) 0) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (0 : Fin 9)) 0 (by show (0 : Nat) < 9; omega) S2048x2048x1 (v53 B) rfl rfl 0 rfl
      (ix3 x y (0 : Fin 1)) (fun b hb => ?_) rfl).trans (v53_apply B x y 0)
  match b with
  | ⟨0, _⟩ => rfl
  | ⟨1, _⟩ => rfl
  | ⟨2, _⟩ => exact absurd rfl hb
theorem v62_apply_1 (x y : Fin 2048) :
    v62 B (ix3 x y (1 : Fin 9)) = B (ix3 (x - Cert.Lbm.sx 1) (y - Cert.Lbm.sy 1) 1) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (1 : Fin 9)) 1 (by show (1 : Nat) < 9; omega) S2048x2048x1 (v54 B) rfl rfl 1 rfl
      (ix3 x y (0 : Fin 1)) (fun b hb => ?_) rfl).trans (v54_apply B x y 0)
  match b with
  | ⟨0, _⟩ => rfl
  | ⟨1, _⟩ => rfl
  | ⟨2, _⟩ => exact absurd rfl hb
theorem v62_apply_2 (x y : Fin 2048) :
    v62 B (ix3 x y (2 : Fin 9)) = B (ix3 (x - Cert.Lbm.sx 2) (y - Cert.Lbm.sy 2) 2) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (2 : Fin 9)) 2 (by show (2 : Nat) < 9; omega) S2048x2048x1 (v55 B) rfl rfl 2 rfl
      (ix3 x y (0 : Fin 1)) (fun b hb => ?_) rfl).trans (v55_apply B x y 0)
  match b with
  | ⟨0, _⟩ => rfl
  | ⟨1, _⟩ => rfl
  | ⟨2, _⟩ => exact absurd rfl hb
theorem v62_apply_3 (x y : Fin 2048) :
    v62 B (ix3 x y (3 : Fin 9)) = B (ix3 (x - Cert.Lbm.sx 3) (y - Cert.Lbm.sy 3) 3) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (3 : Fin 9)) 3 (by show (3 : Nat) < 9; omega) S2048x2048x1 (v56 B) rfl rfl 3 rfl
      (ix3 x y (0 : Fin 1)) (fun b hb => ?_) rfl).trans (v56_apply B x y 0)
  match b with
  | ⟨0, _⟩ => rfl
  | ⟨1, _⟩ => rfl
  | ⟨2, _⟩ => exact absurd rfl hb
theorem v62_apply_4 (x y : Fin 2048) :
    v62 B (ix3 x y (4 : Fin 9)) = B (ix3 (x - Cert.Lbm.sx 4) (y - Cert.Lbm.sy 4) 4) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (4 : Fin 9)) 4 (by show (4 : Nat) < 9; omega) S2048x2048x1 (v57 B) rfl rfl 4 rfl
      (ix3 x y (0 : Fin 1)) (fun b hb => ?_) rfl).trans (v57_apply B x y 0)
  match b with
  | ⟨0, _⟩ => rfl
  | ⟨1, _⟩ => rfl
  | ⟨2, _⟩ => exact absurd rfl hb
theorem v62_apply_5 (x y : Fin 2048) :
    v62 B (ix3 x y (5 : Fin 9)) = B (ix3 (x - Cert.Lbm.sx 5) (y - Cert.Lbm.sy 5) 5) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (5 : Fin 9)) 5 (by show (5 : Nat) < 9; omega) S2048x2048x1 (v58 B) rfl rfl 5 rfl
      (ix3 x y (0 : Fin 1)) (fun b hb => ?_) rfl).trans (v58_apply B x y 0)
  match b with
  | ⟨0, _⟩ => rfl
  | ⟨1, _⟩ => rfl
  | ⟨2, _⟩ => exact absurd rfl hb
theorem v62_apply_6 (x y : Fin 2048) :
    v62 B (ix3 x y (6 : Fin 9)) = B (ix3 (x - Cert.Lbm.sx 6) (y - Cert.Lbm.sy 6) 6) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (6 : Fin 9)) 6 (by show (6 : Nat) < 9; omega) S2048x2048x1 (v59 B) rfl rfl 6 rfl
      (ix3 x y (0 : Fin 1)) (fun b hb => ?_) rfl).trans (v59_apply B x y 0)
  match b with
  | ⟨0, _⟩ => rfl
  | ⟨1, _⟩ => rfl
  | ⟨2, _⟩ => exact absurd rfl hb
theorem v62_apply_7 (x y : Fin 2048) :
    v62 B (ix3 x y (7 : Fin 9)) = B (ix3 (x - Cert.Lbm.sx 7) (y - Cert.Lbm.sy 7) 7) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (7 : Fin 9)) 7 (by show (7 : Nat) < 9; omega) S2048x2048x1 (v60 B) rfl rfl 7 rfl
      (ix3 x y (0 : Fin 1)) (fun b hb => ?_) rfl).trans (v60_apply B x y 0)
  match b with
  | ⟨0, _⟩ => rfl
  | ⟨1, _⟩ => rfl
  | ⟨2, _⟩ => exact absurd rfl hb
theorem v62_apply_8 (x y : Fin 2048) :
    v62 B (ix3 x y (8 : Fin 9)) = B (ix3 (x - Cert.Lbm.sx 8) (y - Cert.Lbm.sy 8) 8) := by
  unfold v62
  refine (concatenate_apply_piece (2 : Fin 3) [⟨S2048x2048x1, v53 B⟩, ⟨S2048x2048x1, v54 B⟩, ⟨S2048x2048x1, v55 B⟩, ⟨S2048x2048x1, v56 B⟩, ⟨S2048x2048x1, v57 B⟩, ⟨S2048x2048x1, v58 B⟩, ⟨S2048x2048x1, v59 B⟩, ⟨S2048x2048x1, v60 B⟩, ⟨S2048x2048x1, v61 B⟩] _ (ix3 x y (8 : Fin 9)) 8 (by show (8 : Nat) < 9; omega) S2048x2048x1 (v61 B) rfl rfl 8 rfl
      (ix3 x y (0 : Fin 1)) (fun b hb => ?_) rfl).trans (v61_apply B x y 0)
  match b with
  | ⟨0, _⟩ => rfl
  | ⟨1, _⟩ => rfl
  | ⟨2, _⟩ => exact absurd rfl hb

/-- %62: channel q of the streamed populations at a cell is the collided population of direction q one step back. -/
theorem v62_apply (x y : Fin 2048) (q : Fin 9) :
    v62 B (ix3 x y q) = B (ix3 (x - Cert.Lbm.sx q) (y - Cert.Lbm.sy q) q) := by
  fin_cases q
  · exact v62_apply_0 B x y
  · exact v62_apply_1 B x y
  · exact v62_apply_2 B x y
  · exact v62_apply_3 B x y
  · exact v62_apply_4 B x y
  · exact v62_apply_5 B x y
  · exact v62_apply_6 B x y
  · exact v62_apply_7 B x y
  · exact v62_apply_8 B x y

/-! ## The choice between bounced and streamed populations -/

def v70 : IVec S2048x2048x1 1 := broadcastInDim S2048x2048x1 ![0, 1] bcast_S2048x2048_S2048x2048x1_0_1 solid
def w0 : IVec S2048x2048x9 1 := broadcastInDim S2048x2048x9 ![0, 1, 2] bcast_S2048x2048x1_S2048x2048x9_0_1_2 (v70 solid)
def v71 : FVec Ideal S2048x2048x9 .f32 := select (w0 solid) (v69 B) (v62 B)

/-- %71: at a solid cell the population of the opposite direction, elsewhere the streamed one. -/
theorem v71_apply (x y : Fin 2048) (q : Fin 9) :
    v71 B solid (ix3 x y q)
      = if solid (ix2 x y) = 1#1 then B (ix3 x y (Cert.Lbm.opp q))
        else B (ix3 (x - Cert.Lbm.sx q) (y - Cert.Lbm.sy q) q) := by
  unfold v71 w0 v70
  rw [select_apply, bcast_ab1_ab9_apply, bcast_ab_ab1_apply, v69_apply, v62_apply]
  rfl

/-- Over the collided populations, %71 is the specification's new population. -/
theorem v71_fnew (f : FVec Ideal S2048x2048x9 .f32) (rho : FVec Ideal S2048x2048 .f32) (u : FVec Ideal S2048x2048x2 .f32)
    (x y : Fin 2048) (q : Fin 9) :
    v71 (v25 f rho u) solid (ix3 x y q) = Cert.Lbm.fnew f rho u solid x y q := by
  rw [v71_apply, v25_apply, v25_apply]
  rfl

end Cert.ReferenceIdeal.Val
end
-- ==== Proof.RefVTail.lean ====
/-
  The last stretch of the reference program, read at a lattice index: from the nine new populations per cell to
  the twelve-channel result.

  The new density is the sum of the nine populations (a reduction from a zero initial value), the momentum their
  contraction with the table of lattice velocities, the velocity the momentum over the density (the density
  given a trailing axis and stretched over the two components), and the result lays the nine populations, the
  density and the two velocity components side by side along the channel axis.
-/
import proofs.«140047_j18760417149386_2_alg».proof.Proof.RefVCollide

noncomputable section

namespace Cert.ReferenceIdeal.Val

open Idealize.ShloMosaic Idealize.ShloMosaic.ValueIdx Cert.ReferenceIdeal
open Cert.ReferenceIdeal.Facts₀
open scoped BigOperators

/-- A trailing unit axis stretched to the two velocity components reads the unit channel. -/
theorem bcast_ab1_ab2_apply {α : Type} (x : S2048x2048x1.Idx → α) (i j : Fin 2048) (d : Fin 2) :
    broadcastInDim S2048x2048x2 ![0, 1, 2] bcast_S2048x2048x1_S2048x2048x2_0_1_2 x (ix3 i j d) = x (ix3 i j (0 : Fin 1)) :=
  broadcastInDim_apply _ _ x _ _ fun a => match a with
    | ⟨0, _⟩ => rfl
    | ⟨1, _⟩ => rfl
    | ⟨2, _⟩ => rfl

variable (fn : FVec Ideal S2048x2048x9 .f32)

def cst_1 : FVec Ideal S9x2 .f32 := fun i => FloatOps.ofBits .f32 (lit3 (S9x2.rowMajor i))
def cst_10 : FVec Ideal S_ .f32 := constant S_ .f32 0x00000000#32
def v72 : FVec Ideal S2048x2048 .f32 := Host.reduceAdd fn cst_10 reducesTo_S2048x2048x9_S2048x2048_d2 h_S_
def v73 : FVec Ideal S2048x2048x2 .f32 := Host.dotGeneral dot_S2048x2048x9_S9x2_S2048x2048x2_2_0_01_1_n_n none fn cst_1
def v74 : FVec Ideal S2048x2048x1 .f32 := broadcastInDim S2048x2048x1 ![0, 1] bcast_S2048x2048_S2048x2048x1_0_1 (v72 fn)
def v75 : FVec Ideal S2048x2048x2 .f32 := broadcastInDim S2048x2048x2 ![0, 1, 2] bcast_S2048x2048x1_S2048x2048x2_0_1_2 (v74 fn)
def v76 : FVec Ideal S2048x2048x2 .f32 := Host.divf (v73 fn) (v75 fn)
def v77 : FVec Ideal S2048x2048x1 .f32 := broadcastInDim S2048x2048x1 ![0, 1] bcast_S2048x2048_S2048x2048x1_0_1 (v72 fn)
def v78 : FVec Ideal S2048x2048x12 .f32 :=
  concatenate S2048x2048x12 2 [⟨S2048x2048x9, fn⟩, ⟨S2048x2048x1, v77 fn⟩, ⟨S2048x2048x2, v76 fn⟩]
    concatenates_S2048x2048x9_S2048x2048x1_S2048x2048x2_S2048x2048x12_d2

/-- The second copy of the table of lattice velocities, entry by entry. -/
theorem cst_1_apply (q : Fin 9) (d : Fin 2) : cst_1 (ix2 q d) = Cert.Lbm.e q d := by
  unfold cst_1 Cert.Lbm.e
  fin_cases q <;> fin_cases d <;> rfl

theorem red9 : S2048x2048x9.Reduces [2] S2048x2048 := by decide

theorem red9_lift (x y : Fin 2048) (k : Fin 9) : red9.lift (ix2 x y) k = ix3 x y k := by
  funext a
  match a with
  | ⟨0, _⟩ => exact Fin.ext rfl
  | ⟨1, _⟩ => exact Fin.ext rfl
  | ⟨2, _⟩ => exact Fin.ext rfl

/-- %72: the new density, the sum of the nine populations. -/
theorem v72_apply (x y : Fin 2048) : v72 fn (ix2 x y) = ∑ q : Fin 9, fn (ix3 x y q) := by
  unfold v72
  rw [hostReduceAdd_apply, Ideal.hostReduceAdd_single _ red9]
  show Ideal.ofBits .f32 0x00000000#32 + ∑ k : Fin 9, fn (red9.lift (ix2 x y) k) = _
  rw [Ideal.ofBits_zero_f32, zero_add]
  exact Finset.sum_congr rfl fun k _ => by rw [red9_lift]

abbrev D1 := dot_S2048x2048x9_S9x2_S2048x2048x2_2_0_01_1_n_n

theorem D1_lhs (x y : Fin 2048) (d : Fin 2) (k : Fin 9) :
    D1.lhsIdx (ix3 x y d) ((contrEquiv1 D1 9 rfl rfl).symm k) = ix3 x y k := by
  funext a
  match a with
  | ⟨0, _⟩ => exact Fin.ext rfl
  | ⟨1, _⟩ => exact Fin.ext rfl
  | ⟨2, _⟩ => exact Fin.ext rfl

theorem D1_rhs (x y : Fin 2048) (d : Fin 2) (k : Fin 9) :
    D1.rhsIdx (ix3 x y d) ((contrEquiv1 D1 9 rfl rfl).symm k) = ix2 k d := by
  funext a
  match a with
  | ⟨0, _⟩ => exact Fin.ext rfl
  | ⟨1, _⟩ => exact Fin.ext rfl

/-- %73: the momentum, the populations contracted against the table of lattice velocities. -/
theorem v73_apply (x y : Fin 2048) (d : Fin 2) : v73 fn (ix3 x y d) = ∑ q : Fin 9, fn (ix3 x y q) * Cert.Lbm.e q d := by
  unfold v73
  simp only [Host.dotGeneral]
  rw [Ideal.dotGeneral_apply, ← Equiv.sum_comp (contrEquiv1 D1 9 rfl rfl).symm]
  exact Finset.sum_congr rfl fun k _ => by rw [D1_lhs, D1_rhs, cst_1_apply]

/-- %76: the velocity, momentum over density. -/
theorem v76_apply (x y : Fin 2048) (d : Fin 2) :
    v76 fn (ix3 x y d) = Ideal.div (∑ q : Fin 9, fn (ix3 x y q) * Cert.Lbm.e q d) (∑ q : Fin 9, fn (ix3 x y q)) := by
  unfold v76 v75 v74
  simp only [hostDivf_apply]
  rw [v73_apply, bcast_ab1_ab2_apply, bcast_ab_ab1_apply, v72_apply]

/-- %77: the density with a trailing unit axis. -/
theorem v77_apply (x y : Fin 2048) : v77 fn (ix3 x y (0 : Fin 1)) = ∑ q : Fin 9, fn (ix3 x y q) := by
  unfold v77
  rw [bcast_ab_ab1_apply, v72_apply]

/-- %78 on the first nine channels: the populations. -/
theorem v78_apply_pop (x y : Fin 2048) (q : Fin 9) :
    v78 fn (ix3 x y (⟨q.val, by have := q.isLt; omega⟩ : Fin 12)) = fn (ix3 x y q) := by
  unfold v78
  exact concatenate_apply_piece (t := S2048x2048x12) (2 : Fin 3) [⟨S2048x2048x9, fn⟩, ⟨S2048x2048x1, v77 fn⟩, ⟨S2048x2048x2, v76 fn⟩] concatenates_S2048x2048x9_S2048x2048x1_S2048x2048x2_S2048x2048x12_d2 (ix3 x y (⟨q.val, by have := q.isLt; omega⟩ : Fin 12)) 0 (by show (0 : ℕ) < 3; decide) S2048x2048x9 fn rfl rfl 0 rfl (ix3 x y q)
    (fun b hb => by
      match b with
      | ⟨0, _⟩ => rfl
      | ⟨1, _⟩ => rfl
      | ⟨2, _⟩ => exact absurd rfl hb)
    (by show 0 + q.val = q.val; omega)

/-- %78 on channel 9: the density. -/
theorem v78_apply_rho (x y : Fin 2048) : v78 fn (ix3 x y (9 : Fin 12)) = ∑ q : Fin 9, fn (ix3 x y q) := by
  unfold v78
  refine (concatenate_apply_piece (t := S2048x2048x12) (2 : Fin 3) [⟨S2048x2048x9, fn⟩, ⟨S2048x2048x1, v77 fn⟩, ⟨S2048x2048x2, v76 fn⟩] concatenates_S2048x2048x9_S2048x2048x1_S2048x2048x2_S2048x2048x12_d2 (ix3 x y (9 : Fin 12)) 1 (by show (1 : ℕ) < 3; decide) S2048x2048x1 (v77 fn) rfl rfl 9 rfl (ix3 x y (0 : Fin 1))
    (fun b hb => by
      match b with
      | ⟨0, _⟩ => rfl
      | ⟨1, _⟩ => rfl
      | ⟨2, _⟩ => exact absurd rfl hb)
    (by rfl)).trans ?_
  exact v77_apply fn x y

/-- %78 on channels 10 and 11: the velocity components. -/
theorem v78_apply_vel (x y : Fin 2048) (d : Fin 2) :
    v78 fn (ix3 x y (⟨10 + d.val, by have := d.isLt; omega⟩ : Fin 12))
      = Ideal.div (∑ q : Fin 9, fn (ix3 x y q) * Cert.Lbm.e q d) (∑ q : Fin 9, fn (ix3 x y q)) := by
  unfold v78
  refine (concatenate_apply_piece (t := S2048x2048x12) (2 : Fin 3) [⟨S2048x2048x9, fn⟩, ⟨S2048x2048x1, v77 fn⟩, ⟨S2048x2048x2, v76 fn⟩] concatenates_S2048x2048x9_S2048x2048x1_S2048x2048x2_S2048x2048x12_d2 (ix3 x y (⟨10 + d.val, by have := d.isLt; omega⟩ : Fin 12)) 2 (by show (2 : ℕ) < 3; decide) S2048x2048x2 (v76 fn) rfl rfl 10 rfl (ix3 x y d)
    (fun b hb => by
      match b with
      | ⟨0, _⟩ => rfl
      | ⟨1, _⟩ => rfl
      | ⟨2, _⟩ => exact absurd rfl hb)
    (by rfl)).trans ?_
  exact v76_apply fn x y d

/-- %78, every channel: with the nine populations of a cell given by `fn`, the result is the specification's case
    split over the channel. -/
theorem v78_apply (x y : Fin 2048) (k : Fin 12) :
    v78 fn (ix3 x y k) =
      if h : k.val < 9 then fn (ix3 x y ⟨k.val, h⟩)
      else if k.val = 9 then ∑ q : Fin 9, fn (ix3 x y q)
      else if k.val = 10 then Ideal.div (∑ q : Fin 9, fn (ix3 x y q) * Cert.Lbm.e q 0) (∑ q : Fin 9, fn (ix3 x y q))
      else Ideal.div (∑ q : Fin 9, fn (ix3 x y q) * Cert.Lbm.e q 1) (∑ q : Fin 9, fn (ix3 x y q)) := by
  by_cases h : k.val < 9
  · rw [dif_pos h]
    exact v78_apply_pop fn x y ⟨k.val, h⟩
  · rw [dif_neg h]
    by_cases h9 : k.val = 9
    · rw [if_pos h9]
      have : k = (9 : Fin 12) := Fin.ext h9
      rw [this]; exact v78_apply_rho fn x y
    · rw [if_neg h9]
      by_cases h10 : k.val = 10
      · rw [if_pos h10]
        have : k = (⟨10 + (0 : Fin 2).val, by decide⟩ : Fin 12) := Fin.ext h10
        rw [this]; exact v78_apply_vel fn x y 0
      · rw [if_neg h10]
        have : k = (⟨10 + (1 : Fin 2).val, by decide⟩ : Fin 12) := Fin.ext (by have := k.isLt; show k.val = 11; omega)
        rw [this]; exact v78_apply_vel fn x y 1

end Cert.ReferenceIdeal.Val

end
-- ==== Proof.RefVSegs.lean ====
/-
  What the three runs of the reference's operations leave in the buffers the later runs read.

  After the collision run: the collided populations as the named stage of the three float arguments, the table of
  opposite directions and the second table of lattice velocities as their literals, the mask untouched. After the run
  of shifts, from any contents: each shifted channel as its roll function of the channel cut from whatever the
  collided-populations buffer held, and the four buffers above untouched. After the last run, from any contents holding
  the two tables: the packed result over the populations, the mask and the nine shifted channels.
-/
import proofs.«140047_j18760417149386_2_alg».proof.Proof.RefVSeg
import proofs.«140047_j18760417149386_2_alg».proof.Proof.RefVNary
import proofs.«140047_j18760417149386_2_alg».proof.Proof.RefVBounce
import proofs.«140047_j18760417149386_2_alg».proof.Proof.RefVTail

noncomputable section

namespace Cert.ReferenceIdeal.Val

open Cert.ReferenceIdeal Cert.ReferenceIdeal.Hand Idealize.ShloMosaic Idealize.ShloMosaic.TcCoe Idealize.ShloMosaic.StableHlo Idealize.SL.Sem
open Idealize.ShloMosaic.ValueIdx Cert.ReferenceIdeal.Facts₀

local notation "A0" => (main_arg0 : DevRef τ sig)
local notation "A1" => (main_arg1 : DevRef τ sig)
local notation "A2" => (main_arg2 : DevRef τ sig)
local notation "A3" => (main_arg3 : DevRef τ sig)

/-! ## After the collision run -/

set_option maxHeartbeats 1000000 in
theorem segA_v25 (V : Valuation τ sig (Elt Ideal)) :
    after (opsA (F := Ideal)) V (main_v25 : DevRef τ sig) = v25 (V A0) (V A1) (V A2) := by
  after_results_simp'
  rfl

theorem segA_c (V : Valuation τ sig (Elt Ideal)) :
    after (opsA (F := Ideal)) V (main_c : DevRef τ sig) = c := by
  after_results_simp'
  rfl

theorem segA_cst_1 (V : Valuation τ sig (Elt Ideal)) :
    after (opsA (F := Ideal)) V (main_cst_1 : DevRef τ sig) = cst_1 := by
  after_results_simp'
  rfl

theorem segA_arg3 (V : Valuation τ sig (Elt Ideal)) :
    after (opsA (F := Ideal)) V A3 = V A3 := by
  after_results_simp'

/-! ## After the run of shifts, from any contents -/

set_option maxHeartbeats 1000000 in
theorem segR0 (W : Valuation τ sig (Elt Ideal)) :
    after (opsR (F := Ideal)) W (main_v28 : DevRef τ sig) = roll0 (ch0 (W (main_v25 : DevRef τ sig))) := by
  after_results_simp'
  rfl

set_option maxHeartbeats 1000000 in
theorem segR1 (W : Valuation τ sig (Elt Ideal)) :
    after (opsR (F := Ideal)) W (main_v31 : DevRef τ sig) = roll1 (ch1 (W (main_v25 : DevRef τ sig))) := by
  after_results_simp'
  rfl

set_option maxHeartbeats 1000000 in
theorem segR2 (W : Valuation τ sig (Elt Ideal)) :
    after (opsR (F := Ideal)) W (main_v34 : DevRef τ sig) = roll2 (ch2 (W (main_v25 : DevRef τ sig))) := by
  after_results_simp'
  rfl

set_option maxHeartbeats 1000000 in
theorem segR3 (W : Valuation τ sig (Elt Ideal)) :
    after (opsR (F := Ideal)) W (main_v37 : DevRef τ sig) = roll3 (ch3 (W (main_v25 : DevRef τ sig))) := by
  after_results_simp'
  rfl

set_option maxHeartbeats 1000000 in
theorem segR4 (W : Valuation τ sig (Elt Ideal)) :
    after (opsR (F := Ideal)) W (main_v40 : DevRef τ sig) = roll4 (ch4 (W (main_v25 : DevRef τ sig))) := by
  after_results_simp'
  rfl

set_option maxHeartbeats 1000000 in
theorem segR5 (W : Valuation τ sig (Elt Ideal)) :
    after (opsR (F := Ideal)) W (main_v43 : DevRef τ sig) = roll5 (ch5 (W (main_v25 : DevRef τ sig))) := by
  after_results_simp'
  rfl

set_option maxHeartbeats 1000000 in
theorem segR6 (W : Valuation τ sig (Elt Ideal)) :
    after (opsR (F := Ideal)) W (main_v46 : DevRef τ sig) = roll6 (ch6 (W (main_v25 : DevRef τ sig))) := by
  after_results_simp'
  rfl

set_option maxHeartbeats 1000000 in
theorem segR7 (W : Valuation τ sig (Elt Ideal)) :
    after (opsR (F := Ideal)) W (main_v49 : DevRef τ sig) = roll7 (ch7 (W (main_v25 : DevRef τ sig))) := by
  after_results_simp'
  rfl

set_option maxHeartbeats 1000000 in
theorem segR8 (W : Valuation τ sig (Elt Ideal)) :
    after (opsR (F := Ideal)) W (main_v52 : DevRef τ sig) = roll8 (ch8 (W (main_v25 : DevRef τ sig))) := by
  after_results_simp'
  rfl

theorem segR_v25 (W : Valuation τ sig (Elt Ideal)) :
    after (opsR (F := Ideal)) W (main_v25 : DevRef τ sig) = W (main_v25 : DevRef τ sig) := by
  after_results_simp'

theorem segR_c (W : Valuation τ sig (Elt Ideal)) :
    after (opsR (F := Ideal)) W (main_c : DevRef τ sig) = W (main_c : DevRef τ sig) := by
  after_results_simp'

theorem segR_cst_1 (W : Valuation τ sig (Elt Ideal)) :
    after (opsR (F := Ideal)) W (main_cst_1 : DevRef τ sig) = W (main_cst_1 : DevRef τ sig) := by
  after_results_simp'

theorem segR_arg3 (W : Valuation τ sig (Elt Ideal)) :
    after (opsR (F := Ideal)) W A3 = W A3 := by
  after_results_simp'

/-! ## After the last run, from any contents holding the two tables -/

set_option maxHeartbeats 1000000 in
/-- After the last run, from any contents holding the two constant tables: the packed result over the collided
    populations, the mask and the nine shifted channels. -/
theorem segT (W : Valuation τ sig (Elt Ideal)) (hc : W (main_c : DevRef τ sig) = c) (h1 : W (main_cst_1 : DevRef τ sig) = cst_1) :
    after (opsT (F := Ideal)) W (main_v78 : DevRef τ sig)
      = v78 (select (w0 (W A3)) (v69 (W (main_v25 : DevRef τ sig)))
          (concatenate S2048x2048x9 2
            [⟨S2048x2048x1, broadcastInDim S2048x2048x1 ![0, 1] bcast_S2048x2048_S2048x2048x1_0_1 (W (main_v28 : DevRef τ sig))⟩,
            ⟨S2048x2048x1, broadcastInDim S2048x2048x1 ![0, 1] bcast_S2048x2048_S2048x2048x1_0_1 (W (main_v31 : DevRef τ sig))⟩,
            ⟨S2048x2048x1, broadcastInDim S2048x2048x1 ![0, 1] bcast_S2048x2048_S2048x2048x1_0_1 (W (main_v34 : DevRef τ sig))⟩,
            ⟨S2048x2048x1, broadcastInDim S2048x2048x1 ![0, 1] bcast_S2048x2048_S2048x2048x1_0_1 (W (main_v37 : DevRef τ sig))⟩,
            ⟨S2048x2048x1, broadcastInDim S2048x2048x1 ![0, 1] bcast_S2048x2048_S2048x2048x1_0_1 (W (main_v40 : DevRef τ sig))⟩,
            ⟨S2048x2048x1, broadcastInDim S2048x2048x1 ![0, 1] bcast_S2048x2048_S2048x2048x1_0_1 (W (main_v43 : DevRef τ sig))⟩,
            ⟨S2048x2048x1, broadcastInDim S2048x2048x1 ![0, 1] bcast_S2048x2048_S2048x2048x1_0_1 (W (main_v46 : DevRef τ sig))⟩,
            ⟨S2048x2048x1, broadcastInDim S2048x2048x1 ![0, 1] bcast_S2048x2048_S2048x2048x1_0_1 (W (main_v49 : DevRef τ sig))⟩,
            ⟨S2048x2048x1, broadcastInDim S2048x2048x1 ![0, 1] bcast_S2048x2048_S2048x2048x1_0_1 (W (main_v52 : DevRef τ sig))⟩]
            concatenates_S2048x2048x1_S2048x2048x1_S2048x2048x1_S2048x2048x1_S2048x2048x1_S2048x2048x1_S2048x2048x1_S2048x2048x1_S2048x2048x1_S2048x2048x9_d2)) := by
  after_results_simp'
  rw [hc, h1]
  rfl

end Cert.ReferenceIdeal.Val

end
-- ==== Proof.RefValue.lean ====
/-
  The reference program computes the specification.

  The reference's operations are three runs in order, and the contents after them are those after the last run
  started from those after the first two. The last run leaves in the result buffer the packed result over what the
  earlier runs left: the collided populations, the nine shifted channels, the mask and the two constant tables; the
  run of shifts leaves each shifted channel as the roll of the channel cut from the collided populations; the
  collision run leaves the collided populations as the named stage of the arguments. Put together, the result buffer
  holds the last stage over the new populations over the collided populations of the arguments, which read at a cell
  and a channel is the specification's value there.
-/
import proofs.«140047_j18760417149386_2_alg».proof.Proof.RefVSegs

noncomputable section

namespace Cert.ReferenceIdeal.Val

open Cert.ReferenceIdeal Cert.ReferenceIdeal.Hand Idealize.ShloMosaic Idealize.ShloMosaic.TcCoe Idealize.ShloMosaic.StableHlo Idealize.SL.Sem
open Idealize.ShloMosaic.ValueIdx

local notation "A0" => (main_arg0 : DevRef τ sig)
local notation "A1" => (main_arg1 : DevRef τ sig)
local notation "A2" => (main_arg2 : DevRef τ sig)
local notation "A3" => (main_arg3 : DevRef τ sig)

/-- The last stage over the four argument arrays is the specification, index by index. -/
theorem v78_G (f : FVec Ideal S2048x2048x9 .f32) (rho : FVec Ideal S2048x2048 .f32) (u : FVec Ideal S2048x2048x2 .f32)
    (solid : IVec S2048x2048 1) :
    v78 (v71 (v25 f rho u) solid) = Cert.Lbm.G f rho u solid := by
  funext i
  obtain ⟨x, y, k, rfl⟩ : ∃ (x y : Fin 2048) (k : Fin 12), i = ix3 x y k := ⟨i 0, i 1, i 2, eq_ix3 i⟩
  rw [v78_apply, Cert.Lbm.G_ix3]
  unfold Cert.Lbm.Gat Cert.Lbm.rhoNew Cert.Lbm.mom
  simp only [v71_fnew]

/-- The fold of the reference's operations at the result buffer is the composition of the named stages. -/
theorem after_eq (V : Valuation τ sig (Elt Ideal)) :
    after (ops (F := Ideal)) V (main_v78 : DevRef τ sig) = v78 (v71 (v25 (V A0) (V A1) (V A2)) (V A3)) := by
  rw [ops_eq, Hand.after_append, Hand.after_append]
  rw [segT _ (by rw [segR_c, segA_c]) (by rw [segR_cst_1, segA_cst_1])]
  rw [segR0, segR1, segR2, segR3, segR4, segR5, segR6, segR7, segR8, segR_v25, segR_arg3, segA_v25, segA_arg3]
  rfl

/-- From any launch contents, the reference leaves the specification of its four argument arrays in the result buffer. -/
theorem result_eq (m : (ℓ : Loc nD τ sig) → Buf (Elt Ideal) ℓ) (c : Dev nD) :
    StableHlo.after (Cert.ReferenceIdeal.Hand.ops (F := Ideal)) (StableHlo.launchContents m c) (main_v78 : DevRef τ sig)
      = Cert.Lbm.G (m ((c.tc : Thread nD τ).loc main_arg0)) (m ((c.tc : Thread nD τ).loc main_arg1))
          (m ((c.tc : Thread nD τ).loc main_arg2)) (m ((c.tc : Thread nD τ).loc main_arg3)) := by
  rw [after_eq, v78_G]

end Cert.ReferenceIdeal.Val

end
-- ==== Proof.lean ====
/-
  One step of the D2Q9 lattice-Boltzmann method on a periodic 2048 × 2048 lattice — BGK collision, streaming,
  bounce-back at solid cells, and the density and velocity of the new populations — computed by a fused kernel that
  walks the lattice in 32 blocks of 64 rows, each block handed its two periodic neighbour rows, and by a whole-array
  reference that rolls each population along its lattice velocity.

  Both programs are the same function of the four argument arrays, cell by cell and channel by channel, on the
  extended reals (Proof/Spec.lean): the collision is spelt operation for operation alike, except that the kernel
  multiplies by the relaxation factor where the reference divides by the relaxation time — the factor is read as the
  exact reciprocal 8388608/5033165 of the value of the reference's f32 word for 0.6, and dividing an extended real
  by a non-zero real is multiplying by its reciprocal (Spec.lean `div_tau`). Streaming inside a block is stepping one
  row or one column; at a block's first and last row the step lands on the neighbour row handed in, which is the
  lattice row the reference's roll reads (Proof/KGlobal.lean). The density and the momentum are sums of nine terms
  on both sides; no law that fails at an infinity is used, so the inputs' finiteness is never called on.

  The kernel's frame run — the 32 grid points, each fetching its eleven windows, running the body and writing its
  output block back — is the library's launch theorem for a region whose windows share arrays (the populations, the
  velocity and the density's copy are each read through several windows), with the full share of each shared array
  dealt among its windows (Proof/Launch.lean) and the body's triple by symbolic execution (Proof/Body.lean); the
  word-level kernel's frame is the same argument. The reference's run is its operation list under the host
  run theorem (Proof/RefRun.lean), and its result read at an index is the specification (Proof/RefValue.lean).
-/
import proofs.«140047_j18760417149386_2_alg».proof.Defs
import proofs.«140047_j18760417149386_2_alg».proof.Proof.Gen.Kernel
import proofs.«140047_j18760417149386_2_alg».proof.Proof.Gen.KernelIdeal
import proofs.«140047_j18760417149386_2_alg».proof.Proof.Gen.ReferenceIdeal
import proofs.«140047_j18760417149386_2_alg».proof.Proof.Gen.Pre_finite_inputs
import proofs.«140047_j18760417149386_2_alg».proof.Proof.Ledger
import proofs.«140047_j18760417149386_2_alg».proof.Proof.Body
import proofs.«140047_j18760417149386_2_alg».proof.Proof.BodyBits
import proofs.«140047_j18760417149386_2_alg».proof.Proof.LaunchBits
import proofs.«140047_j18760417149386_2_alg».proof.Proof.KValOut
import proofs.«140047_j18760417149386_2_alg».proof.Proof.KFinal
import proofs.«140047_j18760417149386_2_alg».proof.Proof.RefRun
import proofs.«140047_j18760417149386_2_alg».proof.Proof.RefValue

noncomputable section

namespace Cert.Proof

open Idealize.ShloMosaic Idealize.ShloMosaic.TcCoe Idealize.ShloMosaic.ValueIdx Idealize.SL.Sem

/-- The word-level kernel runs to the end, faults nowhere and leaves its arguments unchanged. -/
theorem frame_k : Cert.frame_Kernel := fun m ρ _ =>
  Cert.Kernel.Hand.frame m ρ Cert.Kernel.Hand.sound_kernel

/-- So does the idealized kernel. -/
theorem frame_ki : Cert.frame_KernelIdeal := fun m ρ _ =>
  Cert.KernelIdeal.Hand.frame m ρ Cert.KernelIdeal.Hand.sound_kernel

/-- So does the idealized reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both idealized programs end with the specification of those arguments in
    their result arrays. -/
theorem algebraic : Cert.algebraic_KernelIdeal_ReferenceIdeal := by
  intro m ρ m' ρ' _ hagree
  refine ⟨fun c => Cert.KernelIdeal.Hand.Gm m c,
    Cert.KernelIdeal.Hand.value_run m ρ Cert.KernelIdeal.Hand.sound_kernel Cert.KernelIdeal.Hand.out10_apply, ?_⟩
  refine (θ_run Cert.ReferenceIdeal.defs _ _).mono (fun r h c => ⟨(h c).1.trans ?_, (h c).2⟩)
    (Cert.ReferenceIdeal.Hand.run (F := Ideal) m' ρ')
  rw [Cert.ReferenceIdeal.Val.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.Ledger.preserves, algebraic⟩

end Cert.Proof

end
